-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1030x1024 : Shape := ⟨3, ![8, 1030, 1024]⟩
abbrev S1024x1024 : Shape := ⟨2, ![1024, 1024]⟩
abbrev S1024 : Shape := ⟨1, ![1024]⟩
abbrev S_ : Shape := ⟨0, ![]⟩

class Facts : Prop where
  bcast_S_S8x1030x1024 : S_.BroadcastsInDim S8x1030x1024 (![] : Fin 0 → Fin S8x1030x1024.rank)
  reducesTo_S8x1030x1024_S_d0_1_2 : S8x1030x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8x1030x1024 .f32) (main_arg1 : FVec F S1024x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) (main_arg10 : FVec F S1024 .f32) : IVec S_ 1 :=
  let main_v0 : FVec F S8x1030x1024 .f32 := Host.absf main_arg0
  let main_cst : FVec F S_ .f32 := constant S_ .f32 0x7F800000#32
  let main_v1 : FVec F S8x1030x1024 .f32 := broadcastInDim S8x1030x1024 ![] bcast_S_S8x1030x1024 main_cst
  let main_v2 : IVec S8x1030x1024 1 := cmpf .olt main_v0 main_v1
  let main_c : IVec S_ 1 := constantI S_ 1 1#1
  let main_v3 : IVec S_ 1 := (fun x v => Host.reduce IntOp.andi x v reducesTo_S8x1030x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S8x1030x1024 : Shape := ⟨3, ![8, 1030, 1024]⟩
abbrev S1024x1024 : Shape := ⟨2, ![1024, 1024]⟩
abbrev S1024 : Shape := ⟨1, ![1024]⟩
abbrev S1024x3072 : Shape := ⟨2, ![1024, 3072]⟩
abbrev S8x1027x1024 : Shape := ⟨3, ![8, 1027, 1024]⟩
abbrev S8x3x1024 : Shape := ⟨3, ![8, 3, 1024]⟩
abbrev S8x1027x3072 : Shape := ⟨3, ![8, 1027, 3072]⟩
abbrev S1x1027x1024 : Shape := ⟨3, ![1, 1027, 1024]⟩
abbrev S1x1027x3072 : Shape := ⟨3, ![1, 1027, 3072]⟩
abbrev S1027x1024 : Shape := ⟨2, ![1027, 1024]⟩
abbrev S1027 : Shape := ⟨1, ![1027]⟩
abbrev S1027x1 : Shape := ⟨2, ![1027, 1]⟩
abbrev S1x1024 : Shape := ⟨2, ![1, 1024]⟩
abbrev S1027x3072 : Shape := ⟨2, ![1027, 3072]⟩
abbrev S8x3x3072 : Shape := ⟨3, ![8, 3, 3072]⟩
abbrev S1x3x1024 : Shape := ⟨3, ![1, 3, 1024]⟩
abbrev S1x3x3072 : Shape := ⟨3, ![1, 3, 3072]⟩
abbrev S3x1024 : Shape := ⟨2, ![3, 1024]⟩
abbrev S3 : Shape := ⟨1, ![3]⟩
abbrev S3x1 : Shape := ⟨2, ![3, 1]⟩
abbrev S3x3072 : Shape := ⟨2, ![3, 3072]⟩
abbrev S8x1030x3072 : Shape := ⟨3, ![8, 1030, 3072]⟩
abbrev S8x1030x16x64 : Shape := ⟨4, ![8, 1030, 16, 64]⟩
abbrev S8x16x1030x64 : Shape := ⟨4, ![8, 16, 1030, 64]⟩
abbrev S8x16x1030x1030 : Shape := ⟨4, ![8, 16, 1030, 1030]⟩
abbrev S1x2x1030x64 : Shape := ⟨4, ![1, 2, 1030, 64]⟩
abbrev S1x1030x128 : Shape := ⟨3, ![1, 1030, 128]⟩
abbrev S1x2x1030x1030 : Shape := ⟨4, ![1, 2, 1030, 1030]⟩
abbrev S1x1x1030x64 : Shape := ⟨4, ![1, 1, 1030, 64]⟩
abbrev S1030x64 : Shape := ⟨2, ![1030, 64]⟩
abbrev S64x1030 : Shape := ⟨2, ![64, 1030]⟩
abbrev S1030x1030 : Shape := ⟨2, ![1030, 1030]⟩
abbrev S1030 : Shape := ⟨1, ![1030]⟩
abbrev S1030x1 : Shape := ⟨2, ![1030, 1]⟩
abbrev S1x1x1030x1030 : Shape := ⟨4, ![1, 1, 1030, 1030]⟩
abbrev S1030x128 : Shape := ⟨2, ![1030, 128]⟩
abbrev S1x1030x1024 : Shape := ⟨3, ![1, 1030, 1024]⟩
abbrev S1030x1024 : Shape := ⟨2, ![1030, 1024]⟩

abbrev nBuf : Space → Nat
  | .hbm => 33
  | .vmem => 32
  | .smem => 0
  | _ => 0

abbrev bufTy : (tb : Table) → Fin (tcTables nBuf tb) → BufTy
  | .hbm, ⟨0, _⟩ => ⟨S8x1030x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x3072, .f32⟩
  | .hbm, ⟨12, _⟩ => ⟨S1024x3072, .bf16⟩
  | .hbm, ⟨13, _⟩ => ⟨S1024x3072, .f32⟩
  | .hbm, ⟨14, _⟩ => ⟨S1024x3072, .bf16⟩
  | .hbm, ⟨15, _⟩ => ⟨S8x1027x1024, .f32⟩
  | .hbm, ⟨16, _⟩ => ⟨S8x3x1024, .f32⟩
  | .hbm, ⟨17, _⟩ => ⟨S8x1027x3072, .bf16⟩
  | .hbm, ⟨18, _⟩ => ⟨S8x3x3072, .bf16⟩
  | .hbm, ⟨19, _⟩ => ⟨S8x1030x3072, .bf16⟩
  | .hbm, ⟨20, _⟩ => ⟨S8x1030x1024, .bf16⟩
  | .hbm, ⟨21, _⟩ => ⟨S8x1030x16x64, .bf16⟩
  | .hbm, ⟨22, _⟩ => ⟨S8x16x1030x64, .bf16⟩
  | .hbm, ⟨23, _⟩ => ⟨S8x1030x1024, .bf16⟩
  | .hbm, ⟨24, _⟩ => ⟨S8x1030x16x64, .bf16⟩
  | .hbm, ⟨25, _⟩ => ⟨S8x16x1030x64, .bf16⟩
  | .hbm, ⟨26, _⟩ => ⟨S8x1030x1024, .bf16⟩
  | .hbm, ⟨27, _⟩ => ⟨S8x1030x16x64, .bf16⟩
  | .hbm, ⟨28, _⟩ => ⟨S8x16x1030x64, .bf16⟩
  | .hbm, ⟨29, _⟩ => ⟨S8x1030x1024, .bf16⟩
  | .hbm, ⟨30, _⟩ => ⟨S8x16x1030x1030, .f32⟩
  | .hbm, ⟨31, _⟩ => ⟨S1024x1024, .bf16⟩
  | .hbm, ⟨32, _⟩ => ⟨S8x1030x1024, .f32⟩
  | .local _ .vmem, ⟨0, _⟩ => ⟨S1x1027x1024, .f32⟩
  | .local _ .vmem, ⟨1, _⟩ => ⟨S1x1027x1024, .f32⟩
  | .local _ .vmem, ⟨2, _⟩ => ⟨S1024, .f32⟩
  | .local _ .vmem, ⟨3, _⟩ => ⟨S1024, .f32⟩
  | .local _ .vmem, ⟨4, _⟩ => ⟨S1024x3072, .bf16⟩
  | .local _ .vmem, ⟨5, _⟩ => ⟨S1x1027x3072, .bf16⟩
  | .local _ .vmem, ⟨6, _⟩ => ⟨S1x1027x3072, .bf16⟩
  | .local _ .vmem, ⟨7, _⟩ => ⟨S1x3x1024, .f32⟩
  | .local _ .vmem, ⟨8, _⟩ => ⟨S1x3x1024, .f32⟩
  | .local _ .vmem, ⟨9, _⟩ => ⟨S1024, .f32⟩
  | .local _ .vmem, ⟨10, _⟩ => ⟨S1024, .f32⟩
  | .local _ .vmem, ⟨11, _⟩ => ⟨S1024x3072, .bf16⟩
  | .local _ .vmem, ⟨12, _⟩ => ⟨S1x3x3072, .bf16⟩
  | .local _ .vmem, ⟨13, _⟩ => ⟨S1x3x3072, .bf16⟩
  | .local _ .vmem, ⟨14, _⟩ => ⟨S1x2x1030x64, .bf16⟩
  | .local _ .vmem, ⟨15, _⟩ => ⟨S1x2x1030x64, .bf16⟩
  | .local _ .vmem, ⟨16, _⟩ => ⟨S1x2x1030x64, .bf16⟩
  | .local _ .vmem, ⟨17, _⟩ => ⟨S1x2x1030x64, .bf16⟩
  | .local _ .vmem, ⟨18, _⟩ => ⟨S1x2x1030x64, .bf16⟩
  | .local _ .vmem, ⟨19, _⟩ => ⟨S1x2x1030x64, .bf16⟩
  | .local _ .vmem, ⟨20, _⟩ => ⟨S1x1030x128, .bf16⟩
  | .local _ .vmem, ⟨21, _⟩ => ⟨S1x1030x128, .bf16⟩
  | .local _ .vmem, ⟨22, _⟩ => ⟨S1x2x1030x1030, .f32⟩
  | .local _ .vmem, ⟨23, _⟩ => ⟨S1x2x1030x1030, .f32⟩
  | .local _ .vmem, ⟨24, _⟩ => ⟨S1x1030x1024, .bf16⟩
  | .local _ .vmem, ⟨25, _⟩ => ⟨S1x1030x1024, .bf16⟩
  | .local _ .vmem, ⟨26, _⟩ => ⟨S1024x1024, .bf16⟩
  | .local _ .vmem, ⟨27, _⟩ => ⟨S1024, .f32⟩
  | .local _ .vmem, ⟨28, _⟩ => ⟨S1x1030x1024, .f32⟩
  | .local _ .vmem, ⟨29, _⟩ => ⟨S1x1030x1024, .f32⟩
  | .local _ .vmem, ⟨30, _⟩ => ⟨S1x1030x1024, .f32⟩
  | .local _ .vmem, ⟨31, _⟩ => ⟨S1x1030x1024, .f32⟩
  | _, _ => ⟨S8x1030x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1027x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1027x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x3072 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x3x3072 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x2x1030x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2x1030x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2x1030x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1030x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x2x1030x1030 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1030x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x1030x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1030x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  slices_S8x1030x1024_S8x1027x1024_0_0_0 : S8x1030x1024.Slices ![0, 0, 0] S8x1027x1024
  slices_S8x1030x1024_S8x3x1024_0_1027_0 : S8x1030x1024.Slices ![0, 1027, 0] S8x3x1024
  inb_S1x1027x1024_S1x1027x1024_0_0_0 : ∀ a, (![0, 0, 0] : Fin 3 → Nat) a + S1x1027x1024.size a ≤ S1x1027x1024.size a
  h_S1x1027x1024 : 0 < S1x1027x1024.numel
  shapeCasts_S1x1027x1024_S1027x1024 : S1x1027x1024.ShapeCasts S1027x1024
  reduces_S1027x1024_S1027 : S1027x1024.Reduces [1] S1027
  shapeCasts_S1027_S1027x1 : S1027.ShapeCasts S1027x1
  broadcasts_S1027x1_S1027x1024 : S1027x1.Broadcasts S1027x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1027x1024 : S1x1024.Broadcasts S1027x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x1027x3072_S1x1027x3072_0_0_0 : ∀ a, (![0, 0, 0] : Fin 3 → Nat) a + S1x1027x3072.size a ≤ S1x1027x3072.size a
  h_S1x1027x3072 : 0 < S1x1027x3072.numel
  shapeCasts_S1x1027x3072_S1027x3072 : S1x1027x3072.ShapeCasts S1027x3072
  shapeCasts_S1027x3072_S1x1027x3072 : S1027x3072.ShapeCasts S1x1027x3072
  packedbf16_S1x1027x3072_S1x1027x3072_0_0_0 : (Rect.unit (s := S1x1027x3072) ![0, 0, 0] S1x1027x3072.size inb_S1x1027x3072_S1x1027x3072_0_0_0).PackedRows (EltTy.packing .bf16)
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S3 : S3x1024.Reduces [1] S3
  shapeCasts_S3_S3x1 : S3.ShapeCasts S3x1
  broadcasts_S3x1_S3x1024 : S3x1.Broadcasts S3x1024
  broadcasts_S1x1024_S3x1024 : S1x1024.Broadcasts S3x1024
  inb_S1x3x3072_S1x3x3072_0_0_0 : ∀ a, (![0, 0, 0] : Fin 3 → Nat) a + S1x3x3072.size a ≤ S1x3x3072.size a
  h_S1x3x3072 : 0 < S1x3x3072.numel
  shapeCasts_S1x3x3072_S3x3072 : S1x3x3072.ShapeCasts S3x3072
  shapeCasts_S3x3072_S1x3x3072 : S3x3072.ShapeCasts S1x3x3072
  packedbf16_S1x3x3072_S1x3x3072_0_0_0 : (Rect.unit (s := S1x3x3072) ![0, 0, 0] S1x3x3072.size inb_S1x3x3072_S1x3x3072_0_0_0).PackedRows (EltTy.packing .bf16)
  concatenates_S8x1027x3072_S8x3x3072_S8x1030x3072_d1 : Shape.Concatenates [S8x1027x3072, S8x3x3072] S8x1030x3072 1
  slices_S8x1030x3072_S8x1030x1024_0_0_0 : S8x1030x3072.Slices ![0, 0, 0] S8x1030x1024
  shapeCasts_S8x1030x1024_S8x1030x16x64 : S8x1030x1024.ShapeCasts S8x1030x16x64
  transposes_S8x1030x16x64_S8x16x1030x64_0_2_1_3 : S8x1030x16x64.Transposes [0, 2, 1, 3] S8x16x1030x64
  slices_S8x1030x3072_S8x1030x1024_0_0_1024 : S8x1030x3072.Slices ![0, 0, 1024] S8x1030x1024
  slices_S8x1030x3072_S8x1030x1024_0_0_2048 : S8x1030x3072.Slices ![0, 0, 2048] S8x1030x1024
  inb_S1x2x1030x64_S1x1x1030x64_0_0_0_0 : ∀ a, (![0, 0, 0, 0] : Fin 4 → Nat) a + S1x1x1030x64.size a ≤ S1x2x1030x64.size a
  h_S1x1x1030x64 : 0 < S1x1x1030x64.numel
  shapeCasts_S1x1x1030x64_S1030x64 : S1x1x1030x64.ShapeCasts S1030x64
  transposes_S1030x64_p1_0_S64x1030 : S1030x64.Transposes [1, 0] S64x1030
  reduces_S1030x1030_S1030 : S1030x1030.Reduces [1] S1030
  shapeCasts_S1030_S1030x1 : S1030.ShapeCasts S1030x1
  broadcasts_S1030x1_S1030x1030 : S1030x1.Broadcasts S1030x1030
  inb_S1x2x1030x1030_S1x1x1030x1030_0_0_0_0 : ∀ a, (![0, 0, 0, 0] : Fin 4 → Nat) a + S1x1x1030x1030.size a ≤ S1x2x1030x1030.size a
  h_S1x1x1030x1030 : 0 < S1x1x1030x1030.numel
  shapeCasts_S1x1x1030x1030_S1030x1030 : S1x1x1030x1030.ShapeCasts S1030x1030
  shapeCasts_S1030x1030_S1x1x1030x1030 : S1030x1030.ShapeCasts S1x1x1030x1030
  inb_S1x2x1030x64_S1x1x1030x64_0_1_0_0 : ∀ a, (![0, 1, 0, 0] : Fin 4 → Nat) a + S1x1x1030x64.size a ≤ S1x2x1030x64.size a
  inb_S1x2x1030x1030_S1x1x1030x1030_0_1_0_0 : ∀ a, (![0, 1, 0, 0] : Fin 4 → Nat) a + S1x1x1030x1030.size a ≤ S1x2x1030x1030.size a
  concatenates_S1030x64_S1030x64_S1030x128_d1 : Shape.Concatenates [S1030x64, S1030x64] S1030x128 1
  inb_S1x1030x128_S1x1030x128_0_0_0 : ∀ a, (![0, 0, 0] : Fin 3 → Nat) a + S1x1030x128.size a ≤ S1x1030x128.size a
  h_S1x1030x128 : 0 < S1x1030x128.numel
  shapeCasts_S1x1030x128_S1030x128 : S1x1030x128.ShapeCasts S1030x128
  shapeCasts_S1030x128_S1x1030x128 : S1030x128.ShapeCasts S1x1030x128
  packedbf16_S1x1030x128_S1x1030x128_0_0_0 : (Rect.unit (s := S1x1030x128) ![0, 0, 0] S1x1030x128.size inb_S1x1030x128_S1x1030x128_0_0_0).PackedRows (EltTy.packing .bf16)
  inb_S1x1030x1024_S1x1030x1024_0_0_0 : ∀ a, (![0, 0, 0] : Fin 3 → Nat) a + S1x1030x1024.size a ≤ S1x1030x1024.size a
  h_S1x1030x1024 : 0 < S1x1030x1024.numel
  shapeCasts_S1x1030x1024_S1030x1024 : S1x1030x1024.ShapeCasts S1030x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1030x1024 : S1x1024.Broadcasts S1030x1024
  shapeCasts_S1030x1024_S1x1030x1024 : S1030x1024.ShapeCasts S1x1030x1024
  dot_S1027x1024_S1024x3072_S1027x3072_1_0_0_1_n_n_wf : DotDims.WF S1027x1024 S1024x3072 S1027x3072 [1] [0] [0] [1] [] []
  dot_S3x1024_S1024x3072_S3x3072_1_0_0_1_n_n_wf : DotDims.WF S3x1024 S1024x3072 S3x3072 [1] [0] [0] [1] [] []
  dot_S1030x64_S64x1030_S1030x1030_1_0_0_1_n_n_wf : DotDims.WF S1030x64 S64x1030 S1030x1030 [1] [0] [0] [1] [] []
  dot_S1030x1030_S1030x64_S1030x64_1_0_0_1_n_n_wf : DotDims.WF S1030x1030 S1030x64 S1030x64 [1] [0] [0] [1] [] []
  dot_S1030x1024_S1024x1024_S1030x1024_1_0_0_1_n_n_wf : DotDims.WF S1030x1024 S1024x1024 S1030x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1027x1024.size a ≤ S8x1027x1024.size a
  hwx0_0 : ∀ i : grid0.Coords, EltTy.bits .f32 = 32 ∨ (Rect.block (s := S8x1027x1024) S1x1027x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1027x3072.size a ≤ S8x1027x3072.size a
  hwx0_4 : ∀ i : grid0.Coords, EltTy.bits .bf16 = 32 ∨ (Rect.block (s := S8x1027x3072) S1x1027x3072.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x1024.size a ≤ S8x3x1024.size a
  hwx1_0 : ∀ i : grid1.Coords, EltTy.bits .f32 = 32 ∨ (Rect.block (s := S8x3x1024) S1x3x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S1024.size a
  hwx1_1 : ∀ i : grid1.Coords, EltTy.bits .f32 = 32 ∨ (Rect.block (s := S1024) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x3072.size a ≤ S1024x3072.size a
  hwx1_3 : ∀ i : grid1.Coords, EltTy.bits .bf16 = 32 ∨ (Rect.block (s := S1024x3072) S1024x3072.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x3x3072.size a ≤ S8x3x3072.size a
  hwx1_4 : ∀ i : grid1.Coords, EltTy.bits .bf16 = 32 ∨ (Rect.block (s := S8x3x3072) S1x3x3072.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2x1030x64.size a ≤ S8x16x1030x64.size a
  hwx2_0 : ∀ i : grid2.Coords, EltTy.bits .bf16 = 32 ∨ (Rect.block (s := S8x16x1030x64) S1x2x1030x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2x1030x64.size a ≤ S8x16x1030x64.size a
  hwx2_1 : ∀ i : grid2.Coords, EltTy.bits .bf16 = 32 ∨ (Rect.block (s := S8x16x1030x64) S1x2x1030x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2x1030x64.size a ≤ S8x16x1030x64.size a
  hwx2_2 : ∀ i : grid2.Coords, EltTy.bits .bf16 = 32 ∨ (Rect.block (s := S8x16x1030x64) S1x2x1030x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1030x128.size a ≤ S8x1030x1024.size a
  hwx2_3 : ∀ i : grid2.Coords, EltTy.bits .bf16 = 32 ∨ (Rect.block (s := S8x1030x1024) S1x1030x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2x1030x1030.size a ≤ S8x16x1030x1030.size a
  hwx2_4 : ∀ i : grid2.Coords, EltTy.bits .f32 = 32 ∨ (Rect.block (s := S8x16x1030x1030) S1x2x1030x1030.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1030x1024.size a ≤ S8x1030x1024.size a
  hwx3_0 : ∀ i : grid3.Coords, EltTy.bits .bf16 = 32 ∨ (Rect.block (s := S8x1030x1024) S1x1030x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S1024.size a
  hwx3_2 : ∀ i : grid3.Coords, EltTy.bits .f32 = 32 ∨ (Rect.block (s := S1024) S1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1030x1024.size a ≤ S8x1030x1024.size a
  hwx3_3 : ∀ i : grid3.Coords, EltTy.bits .f32 = 32 ∨ (Rect.block (s := S8x1030x1024) S1x1030x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1030x1024.size a ≤ S8x1030x1024.size a
  hwx3_4 : ∀ i : grid3.Coords, EltTy.bits .f32 = 32 ∨ (Rect.block (s := S8x1030x1024) S1x1030x1024.size (cc3_transform_4 i) (hinb3_4 i)).WholeWords (EltTy.packing .f32)

variable [Facts₀]

def dot_S1027x1024_S1024x3072_S1027x3072_1_0_0_1_n_n : DotDims S1027x1024 S1024x3072 S1027x3072 where
  lhsContracting := [1]
  rhsContracting := [0]
  lhsNonContracting := [0]
  rhsNonContracting := [1]
  lhsBatch := []
  rhsBatch := []
  wf := dot_S1027x1024_S1024x3072_S1027x3072_1_0_0_1_n_n_wf
def dot_S3x1024_S1024x3072_S3x3072_1_0_0_1_n_n : DotDims S3x1024 S1024x3072 S3x3072 where
  lhsContracting := [1]
  rhsContracting := [0]
  lhsNonContracting := [0]
  rhsNonContracting := [1]
  lhsBatch := []
  rhsBatch := []
  wf := dot_S3x1024_S1024x3072_S3x3072_1_0_0_1_n_n_wf
def dot_S1030x64_S64x1030_S1030x1030_1_0_0_1_n_n : DotDims S1030x64 S64x1030 S1030x1030 where
  lhsContracting := [1]
  rhsContracting := [0]
  lhsNonContracting := [0]
  rhsNonContracting := [1]
  lhsBatch := []
  rhsBatch := []
  wf := dot_S1030x64_S64x1030_S1030x1030_1_0_0_1_n_n_wf
def dot_S1030x1030_S1030x64_S1030x64_1_0_0_1_n_n : DotDims S1030x1030 S1030x64 S1030x64 where
  lhsContracting := [1]
  rhsContracting := [0]
  lhsNonContracting := [0]
  rhsNonContracting := [1]
  lhsBatch := []
  rhsBatch := []
  wf := dot_S1030x1030_S1030x64_S1030x64_1_0_0_1_n_n_wf
def dot_S1030x1024_S1024x1024_S1030x1024_1_0_0_1_n_n : DotDims S1030x1024 S1024x1024 S1030x1024 where
  lhsContracting := [1]
  rhsContracting := [0]
  lhsNonContracting := [0]
  rhsNonContracting := [1]
  lhsBatch := []
  rhsBatch := []
  wf := dot_S1030x1024_S1024x1024_S1030x1024_1_0_0_1_n_n_wf

abbrev win0_0 : Pipeline.Window sig grid0 :=
  Pipeline.Window.ofSpec (Memref.whole main_v4) S1x1027x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1027x3072.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x3x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x3072.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x3x3072.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S1x2x1030x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x2x1030x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x2x1030x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18_0) S1x1030x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18_1) S1x2x1030x1030.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v18_0) S1x1030x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg0) S1x1030x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x1030x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8x1030x1024 : Shape := ⟨3, ![8, 1030, 1024]⟩
abbrev S1024x1024 : Shape := ⟨2, ![1024, 1024]⟩
abbrev S1024 : Shape := ⟨1, ![1024]⟩
abbrev S_ : Shape := ⟨0, ![]⟩
abbrev S8x1030 : Shape := ⟨2, ![8, 1030]⟩
abbrev S8x1030x1 : Shape := ⟨3, ![8, 1030, 1]⟩
abbrev S1x1x1024 : Shape := ⟨3, ![1, 1, 1024]⟩
abbrev S8x1027x1024 : Shape := ⟨3, ![8, 1027, 1024]⟩
abbrev S8x3x1024 : Shape := ⟨3, ![8, 3, 1024]⟩
abbrev S8x1030x16x64 : Shape := ⟨4, ![8, 1030, 16, 64]⟩
abbrev S8x16x1030x64 : Shape := ⟨4, ![8, 16, 1030, 64]⟩
abbrev S8x16x1030x1030 : Shape := ⟨4, ![8, 16, 1030, 1030]⟩
abbrev S8x16x1030 : Shape := ⟨3, ![8, 16, 1030]⟩
abbrev S8x16x1030x1 : Shape := ⟨4, ![8, 16, 1030, 1]⟩

abbrev nBuf : Space → Nat
  | .hbm => 87
  | .vmem => 0
  | .smem => 0
  | _ => 0

abbrev bufTy : (tb : Table) → Fin (tcTables nBuf tb) → BufTy
  | .hbm, ⟨0, _⟩ => ⟨S8x1030x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S8x1030, .f32⟩
  | .hbm, ⟨13, _⟩ => ⟨S8x1030x1, .f32⟩
  | .hbm, ⟨14, _⟩ => ⟨S_, .f32⟩
  | .hbm, ⟨15, _⟩ => ⟨S8x1030x1, .f32⟩
  | .hbm, ⟨16, _⟩ => ⟨S8x1030x1, .f32⟩
  | .hbm, ⟨17, _⟩ => ⟨S8x1030x1024, .f32⟩
  | .hbm, ⟨18, _⟩ => ⟨S8x1030x1024, .f32⟩
  | .hbm, ⟨19, _⟩ => ⟨S8x1030x1024, .f32⟩
  | .hbm, ⟨20, _⟩ => ⟨S_, .f32⟩
  | .hbm, ⟨21, _⟩ => ⟨S8x1030, .f32⟩
  | .hbm, ⟨22, _⟩ => ⟨S8x1030x1, .f32⟩
  | .hbm, ⟨23, _⟩ => ⟨S_, .f32⟩
  | .hbm, ⟨24, _⟩ => ⟨S8x1030x1, .f32⟩
  | .hbm, ⟨25, _⟩ => ⟨S8x1030x1, .f32⟩
  | .hbm, ⟨26, _⟩ => ⟨S8x1030x1024, .f32⟩
  | .hbm, ⟨27, _⟩ => ⟨S8x1030x1024, .f32⟩
  | .hbm, ⟨28, _⟩ => ⟨S_, .f32⟩
  | .hbm, ⟨29, _⟩ => ⟨S8x1030x1, .f32⟩
  | .hbm, ⟨30, _⟩ => ⟨S8x1030x1, .f32⟩
  | .hbm, ⟨31, _⟩ => ⟨S8x1030x1, .f32⟩
  | .hbm, ⟨32, _⟩ => ⟨S8x1030x1024, .f32⟩
  | .hbm, ⟨33, _⟩ => ⟨S8x1030x1024, .f32⟩
  | .hbm, ⟨34, _⟩ => ⟨S1x1x1024, .f32⟩
  | .hbm, ⟨35, _⟩ => ⟨S8x1030x1024, .f32⟩
  | .hbm, ⟨36, _⟩ => ⟨S8x1030x1024, .f32⟩
  | .hbm, ⟨37, _⟩ => ⟨S1x1x1024, .f32⟩
  | .hbm, ⟨38, _⟩ => ⟨S8x1030x1024, .f32⟩
  | .hbm, ⟨39, _⟩ => ⟨S8x1030x1024, .f32⟩
  | .hbm, ⟨40, _⟩ => ⟨S8x1027x1024, .f32⟩
  | .hbm, ⟨41, _⟩ => ⟨S8x1027x1024, .f32⟩
  | .hbm, ⟨42, _⟩ => ⟨S8x3x1024, .f32⟩
  | .hbm, ⟨43, _⟩ => ⟨S8x3x1024, .f32⟩
  | .hbm, ⟨44, _⟩ => ⟨S8x1030x1024, .f32⟩
  | .hbm, ⟨45, _⟩ => ⟨S8x1030x16x64, .f32⟩
  | .hbm, ⟨46, _⟩ => ⟨S8x16x1030x64, .f32⟩
  | .hbm, ⟨47, _⟩ => ⟨S8x1027x1024, .f32⟩
  | .hbm, ⟨48, _⟩ => ⟨S8x1027x1024, .f32⟩
  | .hbm, ⟨49, _⟩ => ⟨S8x3x1024, .f32⟩
  | .hbm, ⟨50, _⟩ => ⟨S8x3x1024, .f32⟩
  | .hbm, ⟨51, _⟩ => ⟨S8x1030x1024, .f32⟩
  | .hbm, ⟨52, _⟩ => ⟨S8x1030x16x64, .f32⟩
  | .hbm, ⟨53, _⟩ => ⟨S8x16x1030x64, .f32⟩
  | .hbm, ⟨54, _⟩ => ⟨S8x1027x1024, .f32⟩
  | .hbm, ⟨55, _⟩ => ⟨S8x1027x1024, .f32⟩
  | .hbm, ⟨56, _⟩ => ⟨S8x3x1024, .f32⟩
  | .hbm, ⟨57, _⟩ => ⟨S8x3x1024, .f32⟩
  | .hbm, ⟨58, _⟩ => ⟨S8x1030x1024, .f32⟩
  | .hbm, ⟨59, _⟩ => ⟨S8x1030x16x64, .f32⟩
  | .hbm, ⟨60, _⟩ => ⟨S8x16x1030x64, .f32⟩
  | .hbm, ⟨61, _⟩ => ⟨S8x16x1030x1030, .f32⟩
  | .hbm, ⟨62, _⟩ => ⟨S_, .f32⟩
  | .hbm, ⟨63, _⟩ => ⟨S8x16x1030x1030, .f32⟩
  | .hbm, ⟨64, _⟩ => ⟨S8x16x1030x1030, .f32⟩
  | .hbm, ⟨65, _⟩ => ⟨S_, .f32⟩
  | .hbm, ⟨66, _⟩ => ⟨S8x16x1030, .f32⟩
  | .hbm, ⟨67, _⟩ => ⟨S_, .f32⟩
  | .hbm, ⟨68, _⟩ => ⟨S8x16x1030, .f32⟩
  | .hbm, ⟨69, _⟩ => ⟨S8x16x1030, .f32⟩
  | .hbm, ⟨70, _⟩ => ⟨S8x16x1030x1, .f32⟩
  | .hbm, ⟨71, _⟩ => ⟨S8x16x1030x1030, .f32⟩
  | .hbm, ⟨72, _⟩ => ⟨S8x16x1030x1030, .f32⟩
  | .hbm, ⟨73, _⟩ => ⟨S8x16x1030x1030, .f32⟩
  | .hbm, ⟨74, _⟩ => ⟨S_, .f32⟩
  | .hbm, ⟨75, _⟩ => ⟨S8x16x1030, .f32⟩
  | .hbm, ⟨76, _⟩ => ⟨S8x16x1030x1, .f32⟩
  | .hbm, ⟨77, _⟩ => ⟨S8x16x1030x1030, .f32⟩
  | .hbm, ⟨78, _⟩ => ⟨S8x16x1030x1030, .f32⟩
  | .hbm, ⟨79, _⟩ => ⟨S8x16x1030x64, .f32⟩
  | .hbm, ⟨80, _⟩ => ⟨S8x1030x16x64, .f32⟩
  | .hbm, ⟨81, _⟩ => ⟨S8x1030x1024, .f32⟩
  | .hbm, ⟨82, _⟩ => ⟨S8x1030x1024, .f32⟩
  | .hbm, ⟨83, _⟩ => ⟨S1x1x1024, .f32⟩
  | .hbm, ⟨84, _⟩ => ⟨S8x1030x1024, .f32⟩
  | .hbm, ⟨85, _⟩ => ⟨S8x1030x1024, .f32⟩
  | .hbm, ⟨86, _⟩ => ⟨S8x1030x1024, .f32⟩
  | _, _ => ⟨S8x1030x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]

class Facts₀ : Prop where
  reducesTo_S8x1030x1024_S8x1030_d2 : S8x1030x1024.ReducesTo [2] S8x1030
  h_S_ : 0 < S_.numel
  bcast_S8x1030_S8x1030x1_0_1 : S8x1030.BroadcastsInDim S8x1030x1 (![0, 1] : Fin 2 → Fin S8x1030x1.rank)
  bcast_S_S8x1030x1 : S_.BroadcastsInDim S8x1030x1 (![] : Fin 0 → Fin S8x1030x1.rank)
  bcast_S8x1030x1_S8x1030x1024_0_1_2 : S8x1030x1.BroadcastsInDim S8x1030x1024 (![0, 1, 2] : Fin 3 → Fin S8x1030x1024.rank)
  bcast_S1024_S1x1x1024_2 : S1024.BroadcastsInDim S1x1x1024 (![2] : Fin 1 → Fin S1x1x1024.rank)
  bcast_S1x1x1024_S8x1030x1024_0_1_2 : S1x1x1024.BroadcastsInDim S8x1030x1024 (![0, 1, 2] : Fin 3 → Fin S8x1030x1024.rank)
  slices_S8x1030x1024_S8x1027x1024_0_0_0 : S8x1030x1024.Slices ![0, 0, 0] S8x1027x1024
  slices_S8x1030x1024_S8x3x1024_0_1027_0 : S8x1030x1024.Slices ![0, 1027, 0] S8x3x1024
  concatenates_S8x1027x1024_S8x3x1024_S8x1030x1024_d1 : Shape.Concatenates [S8x1027x1024, S8x3x1024] S8x1030x1024 1
  shapeCasts_S8x1030x1024_S8x1030x16x64 : S8x1030x1024.ShapeCasts S8x1030x16x64
  transposes_S8x1030x16x64_S8x16x1030x64_0_2_1_3 : S8x1030x16x64.Transposes [0, 2, 1, 3] S8x16x1030x64
  bcast_S_S8x16x1030x1030 : S_.BroadcastsInDim S8x16x1030x1030 (![] : Fin 0 → Fin S8x16x1030x1030.rank)
  reducesTo_S8x16x1030x1030_S8x16x1030_d3 : S8x16x1030x1030.ReducesTo [3] S8x16x1030
  bcast_S_S8x16x1030 : S_.BroadcastsInDim S8x16x1030 (![] : Fin 0 → Fin S8x16x1030.rank)
  bcast_S8x16x1030_S8x16x1030x1_0_1_2 : S8x16x1030.BroadcastsInDim S8x16x1030x1 (![0, 1, 2] : Fin 3 → Fin S8x16x1030x1.rank)
  bcast_S8x16x1030x1_S8x16x1030x1030_0_1_2_3 : S8x16x1030x1.BroadcastsInDim S8x16x1030x1030 (![0, 1, 2, 3] : Fin 4 → Fin S8x16x1030x1030.rank)
  transposes_S8x16x1030x64_S8x1030x16x64_0_2_1_3 : S8x16x1030x64.Transposes [0, 2, 1, 3] S8x1030x16x64
  shapeCasts_S8x1030x16x64_S8x1030x1024 : S8x1030x16x64.ShapeCasts S8x1030x1024
  dot_S8x1027x1024_S1024x1024_S8x1027x1024_2_0_01_1_n_n_wf : DotDims.WF S8x1027x1024 S1024x1024 S8x1027x1024 [2] [0] [0, 1] [1] [] []
  dot_S8x3x1024_S1024x1024_S8x3x1024_2_0_01_1_n_n_wf : DotDims.WF S8x3x1024 S1024x1024 S8x3x1024 [2] [0] [0, 1] [1] [] []
  dot_S8x16x1030x64_S8x16x1030x64_S8x16x1030x1030_3_3_2_2_01_01_wf : DotDims.WF S8x16x1030x64 S8x16x1030x64 S8x16x1030x1030 [3] [3] [2] [2] [0, 1] [0, 1]
  dot_S8x16x1030x1030_S8x16x1030x64_S8x16x1030x64_3_2_2_3_01_01_wf : DotDims.WF S8x16x1030x1030 S8x16x1030x64 S8x16x1030x64 [3] [2] [2] [3] [0, 1] [0, 1]
  dot_S8x1030x1024_S1024x1024_S8x1030x1024_2_0_01_1_n_n_wf : DotDims.WF S8x1030x1024 S1024x1024 S8x1030x1024 [2] [0] [0, 1] [1] [] []

variable [Facts₀]

def dot_S8x1027x1024_S1024x1024_S8x1027x1024_2_0_01_1_n_n : DotDims S8x1027x1024 S1024x1024 S8x1027x1024 where
  lhsContracting := [2]
  rhsContracting := [0]
  lhsNonContracting := [0, 1]
  rhsNonContracting := [1]
  lhsBatch := []
  rhsBatch := []
  wf := dot_S8x1027x1024_S1024x1024_S8x1027x1024_2_0_01_1_n_n_wf
def dot_S8x3x1024_S1024x1024_S8x3x1024_2_0_01_1_n_n : DotDims S8x3x1024 S1024x1024 S8x3x1024 where
  lhsContracting := [2]
  rhsContracting := [0]
  lhsNonContracting := [0, 1]
  rhsNonContracting := [1]
  lhsBatch := []
  rhsBatch := []
  wf := dot_S8x3x1024_S1024x1024_S8x3x1024_2_0_01_1_n_n_wf
def dot_S8x16x1030x64_S8x16x1030x64_S8x16x1030x1030_3_3_2_2_01_01 : DotDims S8x16x1030x64 S8x16x1030x64 S8x16x1030x1030 where
  lhsContracting := [3]
  rhsContracting := [3]
  lhsNonContracting := [2]
  rhsNonContracting := [2]
  lhsBatch := [0, 1]
  rhsBatch := [0, 1]
  wf := dot_S8x16x1030x64_S8x16x1030x64_S8x16x1030x1030_3_3_2_2_01_01_wf
def dot_S8x16x1030x1030_S8x16x1030x64_S8x16x1030x64_3_2_2_3_01_01 : DotDims S8x16x1030x1030 S8x16x1030x64 S8x16x1030x64 where
  lhsContracting := [3]
  rhsContracting := [2]
  lhsNonContracting := [2]
  rhsNonContracting := [3]
  lhsBatch := [0, 1]
  rhsBatch := [0, 1]
  wf := dot_S8x16x1030x1030_S8x16x1030x64_S8x16x1030x64_3_2_2_3_01_01_wf
def dot_S8x1030x1024_S1024x1024_S8x1030x1024_2_0_01_1_n_n : DotDims S8x1030x1024 S1024x1024 S8x1030x1024 where
  lhsContracting := [2]
  rhsContracting := [0]
  lhsNonContracting := [0, 1]
  rhsNonContracting := [1]
  lhsBatch := []
  rhsBatch := []
  wf := dot_S8x1030x1024_S1024x1024_S8x1030x1024_2_0_01_1_n_n_wf

class Facts : Prop extends Facts₀ where

variable [Facts]
-- ==== Proof.RegNormA.lean ====
/-
  The first normalise-and-project region, at the buffer contents V it is entered from. At grid point t
  (a batch entry) the body loads the block of 1027 token rows (positions 0 to 1026) [1, 1027, 1024], the gain, the
  bias and the [1024, 3072] weight matrix (queries | keys | values side by side), normalises every row and
  stores the rows' products with the matrix into the projection block [1, 1027, 3072].
  Here: the blocks, what the body leaves in the projection block as a function of the loaded blocks, the
  body's run from whole staging buffers, the region's proof data, and the body obligation at every point.
-/
import proofs.«122657_j28930899706120_2_alg».proof.Proof.Gen.KernelIdeal.Launch
import proofs.«122657_j28930899706120_2_alg».proof.Proof.Gen.KernelIdeal.Skeleton
import proofs.«122657_j28930899706120_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! The rectangles the body reads and writes. -/
abbrev r0_a : Rect S1x1027x1024 := Rect.unit (s := S1x1027x1024) ![0, 0, 0] S1x1027x1024.size inb_S1x1027x1024_S1x1027x1024_0_0_0
abbrev r0_b : Rect S1024x3072 := Rect.unit (s := S1024x3072) ![0, 0] S1024x3072.size inb_S1024x3072_S1024x3072_0_0
abbrev r0_c : Rect S1024 := Rect.unit (s := S1024) ![0] S1024.size inb_S1024_S1024_0
abbrev r0_o : Rect S1x1027x3072 := Rect.unit (s := S1x1027x3072) ![0, 0, 0] S1x1027x3072.size inb_S1x1027x3072_S1x1027x3072_0_0_0

/-- The projection block after the body: its one store, the payload of the four loaded blocks. -/
def out0_4 (x0 : Vec F S1x1027x1024 .f32) (x1 : Vec F S1024 .f32) (x2 : Vec F S1024 .f32) (x3 : Vec F S1024x3072 .bf16) : Vec F S1x1027x3072 .bf16 :=
  View.canon [⟨r0_o, k0_pay1 (View.ld x0 r0_a) (View.ld x1 r0_c) (View.ld x2 r0_c) (View.ld x3 r0_b)⟩]

/-- The store covers the whole block. -/
theorem cover0_4 (p0 : Vec F S1x1027x3072 .bf16) (y : S1x1027x3072.Idx) :
    ∃ pc ∈ ([⟨r0_o, p0⟩] : List (View.Piece (Elt F) S1x1027x3072 .bf16)), y ∈ pc.1.set :=
  View.cover_of_tiled [⟨r0_o, p0⟩] S1x1027x3072.size (by rfl) y

set_option maxHeartbeats 4000000 in
/-- The kernel body on whole staging buffers, the inputs' holding `x` and the outputs' anything, runs to its return
    with the inputs' as they were and each output's at `out0_w` of the inputs'. -/
theorem sound_kernel0 (c : Dev nD) (E : Set ℕ) (i : grid0.Coords) (arg1 : Memref sig .tc .vmem S1x1027x1024 .f32) (harg1 : arg1.IsWhole) (arg2 : Memref sig .tc .vmem S1024 .f32) (harg2 : arg2.IsWhole) (arg3 : Memref sig .tc .vmem S1024 .f32) (harg3 : arg3.IsWhole) (arg4 : Memref sig .tc .vmem S1024x3072 .bf16) (harg4 : arg4.IsWhole) (arg5 : Memref sig .tc .vmem S1x1027x3072 .bf16) (harg5 : arg5.IsWhole)
    (x0 : Vec F S1x1027x1024 .f32) (x1 : Vec F S1024 .f32) (x2 : Vec F S1024 .f32) (x3 : Vec F S1024x3072 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__ln_proj_kernel i arg1 harg1 arg2 harg2 arg3 harg3 arg4 harg4 arg5 harg5) K := by
  simp only [cc0__ln_proj_kernel_eq_skeleton]; unfold cc0__ln_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The region's proof data on core `c`: the arrays as the region finds them; after the body at point `t` each input's
    buffer at its block and each output's at `out0_w` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen.Hand

end
-- ==== Proof.RegNormB.lean ====
/-
  The second normalise-and-project region, at the buffer contents V it is entered from. At grid point t
  (a batch entry) the body loads the block of 3 token rows (positions 1027 to 1029) [1, 3, 1024], the gain, the
  bias and the [1024, 3072] weight matrix (queries | keys | values side by side), normalises every row and
  stores the rows' products with the matrix into the projection block [1, 3, 3072].
  Here: the blocks, what the body leaves in the projection block as a function of the loaded blocks, the
  body's run from whole staging buffers, the region's proof data, and the body obligation at every point.
-/
import proofs.«122657_j28930899706120_2_alg».proof.Proof.Gen.KernelIdeal.Launch
import proofs.«122657_j28930899706120_2_alg».proof.Proof.Gen.KernelIdeal.Skeleton
import proofs.«122657_j28930899706120_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The rectangles the body reads and writes. -/
abbrev r1_a : Rect S1x3x1024 := Rect.unit (s := S1x3x1024) ![0, 0, 0] S1x3x1024.size inb_S1x3x1024_S1x3x1024_0_0_0
abbrev r1_b : Rect S1024x3072 := Rect.unit (s := S1024x3072) ![0, 0] S1024x3072.size inb_S1024x3072_S1024x3072_0_0
abbrev r1_c : Rect S1024 := Rect.unit (s := S1024) ![0] S1024.size inb_S1024_S1024_0
abbrev r1_o : Rect S1x3x3072 := Rect.unit (s := S1x3x3072) ![0, 0, 0] S1x3x3072.size inb_S1x3x3072_S1x3x3072_0_0_0

/-- The projection block after the body: its one store, the payload of the four loaded blocks. -/
def out1_4 (x0 : Vec F S1x3x1024 .f32) (x1 : Vec F S1024 .f32) (x2 : Vec F S1024 .f32) (x3 : Vec F S1024x3072 .bf16) : Vec F S1x3x3072 .bf16 :=
  View.canon [⟨r1_o, k1_pay1 (View.ld x0 r1_a) (View.ld x1 r1_c) (View.ld x2 r1_c) (View.ld x3 r1_b)⟩]

/-- The store covers the whole block. -/
theorem cover1_4 (p0 : Vec F S1x3x3072 .bf16) (y : S1x3x3072.Idx) :
    ∃ pc ∈ ([⟨r1_o, p0⟩] : List (View.Piece (Elt F) S1x3x3072 .bf16)), y ∈ pc.1.set :=
  View.cover_of_tiled [⟨r1_o, p0⟩] S1x3x3072.size (by rfl) y

set_option maxHeartbeats 4000000 in
/-- The kernel body on whole staging buffers, the inputs' holding `x` and the outputs' anything, runs to its return
    with the inputs' as they were and each output's at `out1_w` of the inputs'. -/
theorem sound_kernel1 (c : Dev nD) (E : Set ℕ) (i : grid1.Coords) (arg1 : Memref sig .tc .vmem S1x3x1024 .f32) (harg1 : arg1.IsWhole) (arg2 : Memref sig .tc .vmem S1024 .f32) (harg2 : arg2.IsWhole) (arg3 : Memref sig .tc .vmem S1024 .f32) (harg3 : arg3.IsWhole) (arg4 : Memref sig .tc .vmem S1024x3072 .bf16) (harg4 : arg4.IsWhole) (arg5 : Memref sig .tc .vmem S1x3x3072 .bf16) (harg5 : arg5.IsWhole)
    (x0 : Vec F S1x3x1024 .f32) (x1 : Vec F S1024 .f32) (x2 : Vec F S1024 .f32) (x3 : Vec F S1024x3072 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__ln_proj_kernel i arg1 harg1 arg2 harg2 arg3 harg3 arg4 harg4 arg5 harg5) K := by
  simp only [cc1__ln_proj_kernel_eq_skeleton]; unfold cc1__ln_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body at point `t` each input's
    buffer at its block and each output's at `out1_w` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen.Hand

end
-- ==== Proof.RegAttn.lean ====
/-
  The attention region (the third pallas_call), at the buffer contents V it is entered from. Grid point t is
  a batch entry and a PAIR of heads. The body loads, for each of the pair's two heads, the query, key and value
  pieces [1030, 64] out of the blocks [1, 2, 1030, 64]; for each head it forms the scores query · keyᵀ scaled
  by 1/8, takes the row-wise softmax (maximum subtracted), stores the weights into that head's half of the
  weights block [1, 2, 1030, 1030], and multiplies the weights with the value piece; the two heads' contexts
  side by side are stored as the context block [1, 1030, 128].
  Here: the blocks, what the body leaves in each of the two result blocks as a function of the loaded blocks,
  the body's run from whole staging buffers, the region's proof data, and the body obligation at every point.
-/
import proofs.«122657_j28930899706120_2_alg».proof.Proof.Gen.KernelIdeal.Launch
import proofs.«122657_j28930899706120_2_alg».proof.Proof.Gen.KernelIdeal.Skeleton
import proofs.«122657_j28930899706120_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The rectangles the body reads and writes: a head's piece of an input block, a head's half of the weights
    block, the whole context block. -/
abbrev r2_h0 : Rect S1x2x1030x64 := Rect.unit (s := S1x2x1030x64) ![0, 0, 0, 0] S1x1x1030x64.size inb_S1x2x1030x64_S1x1x1030x64_0_0_0_0
abbrev r2_h1 : Rect S1x2x1030x64 := Rect.unit (s := S1x2x1030x64) ![0, 1, 0, 0] S1x1x1030x64.size inb_S1x2x1030x64_S1x1x1030x64_0_1_0_0
abbrev r2_p0 : Rect S1x2x1030x1030 := Rect.unit (s := S1x2x1030x1030) ![0, 0, 0, 0] S1x1x1030x1030.size inb_S1x2x1030x1030_S1x1x1030x1030_0_0_0_0
abbrev r2_p1 : Rect S1x2x1030x1030 := Rect.unit (s := S1x2x1030x1030) ![0, 1, 0, 0] S1x1x1030x1030.size inb_S1x2x1030x1030_S1x1x1030x1030_0_1_0_0
abbrev r2_c : Rect S1x1030x128 := Rect.unit (s := S1x1030x128) ![0, 0, 0] S1x1030x128.size inb_S1x1030x128_S1x1030x128_0_0_0

/-- The context block after the body: its one store, the two heads' contexts side by side. -/
def out2_3 (x0 : Vec F S1x2x1030x64 .bf16) (x1 : Vec F S1x2x1030x64 .bf16) (x2 : Vec F S1x2x1030x64 .bf16) : Vec F S1x1030x128 .bf16 :=
  View.canon [⟨r2_c, k2_pay3 (k2_pay6 (View.ld x0 r2_h0) (View.ld x1 r2_h0) (View.ld x2 r2_h0)) (k2_pay7 (View.ld x0 r2_h1)) (View.ld x1 r2_h1) (View.ld x2 r2_h1)⟩]

/-- The weights block after the body: its two stores, the second head's half (stored last) first. -/
def out2_4 (x0 : Vec F S1x2x1030x64 .bf16) (x1 : Vec F S1x2x1030x64 .bf16) (x2 : Vec F S1x2x1030x64 .bf16) : Vec F S1x2x1030x1030 .f32 :=
  View.canon [⟨r2_p1, k2_pay2 (k2_pay7 (View.ld x0 r2_h1)) (View.ld x1 r2_h1)⟩, ⟨r2_p0, k2_pay5 (View.ld x0 r2_h0) (View.ld x1 r2_h0)⟩]

/-- The one store covers the whole context block. -/
theorem cover2_3 (p0 : Vec F S1x1030x128 .bf16) (y : S1x1030x128.Idx) :
    ∃ pc ∈ ([⟨r2_c, p0⟩] : List (View.Piece (Elt F) S1x1030x128 .bf16)), y ∈ pc.1.set :=
  View.cover_of_tiled [⟨r2_c, p0⟩] S1x1030x128.size (by rfl) y

/-- The two heads' halves tile the weights block. -/
theorem cover2_4 (p0 : Vec F S1x1x1030x1030 .f32) (p1 : Vec F S1x1x1030x1030 .f32) (y : S1x2x1030x1030.Idx) :
    ∃ pc ∈ ([⟨r2_p1, p0⟩, ⟨r2_p0, p1⟩] : List (View.Piece (Elt F) S1x2x1030x1030 .f32)), y ∈ pc.1.set :=
  View.cover_of_tiled [⟨r2_p1, p0⟩, ⟨r2_p0, p1⟩] S1x1x1030x1030.size (by rfl) y

set_option maxHeartbeats 4000000 in
/-- The kernel body on whole staging buffers, the inputs' holding `x` and the outputs' anything, runs to its return
    with the inputs' as they were and each output's at `out2_w` of the inputs'. -/
theorem sound_kernel2 (c : Dev nD) (E : Set ℕ) (i : grid2.Coords) (arg2 : Memref sig .tc .vmem S1x2x1030x64 .bf16) (harg2 : arg2.IsWhole) (arg3 : Memref sig .tc .vmem S1x2x1030x64 .bf16) (harg3 : arg3.IsWhole) (arg4 : Memref sig .tc .vmem S1x2x1030x64 .bf16) (harg4 : arg4.IsWhole) (arg5 : Memref sig .tc .vmem S1x1030x128 .bf16) (harg5 : arg5.IsWhole) (arg6 : Memref sig .tc .vmem S1x2x1030x1030 .f32) (harg6 : arg6.IsWhole)
    (x0 : Vec F S1x2x1030x64 .bf16) (x1 : Vec F S1x2x1030x64 .bf16) (x2 : Vec F S1x2x1030x64 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2) ∗ owns (c : Thread nD τ) arg6 fullShare (out2_4 x0 x1 x2)) -∗ K ⟨⟩))
      ⊢ wp frame (wpE (defs₀ (F := F)) Variants.none c none) E (cc2__attn_kernel i arg2 harg2 arg3 harg3 arg4 harg4 arg5 harg5 arg6 harg6) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover2_3 _)
  iexists _; isplitr
  swap; · iexact H4
  ipureintro
  try dsimp only
  exact View.read_writes_eq_canon _ _ _ (cover2_4 _ _)

/-- The region's proof data on core `c`: the arrays as the region finds them; after the body at point `t` each input's
    buffer at its block and each output's at `out2_w` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen.Hand

end
-- ==== Proof.RegOut.lean ====
/-
  The output projection's region (the fourth pallas_call), at the buffer contents V it is entered from.
  At grid point t (a batch entry) the body loads the context block [1, 1030, 1024], the whole output
  matrix, its bias and the input block, and stores context · matrix + bias + input into the result block.
  Here: the blocks, what the body leaves in the result block as a function of the loaded blocks, the body's
  run from whole staging buffers, the region's proof data, and the body obligation at every grid point.
-/
import proofs.«122657_j28930899706120_2_alg».proof.Proof.Gen.KernelIdeal.Launch
import proofs.«122657_j28930899706120_2_alg».proof.Proof.Gen.KernelIdeal.Skeleton
import proofs.«122657_j28930899706120_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! The rectangles the body reads and writes. -/
abbrev r3_a : Rect S1x1030x1024 := Rect.unit (s := S1x1030x1024) ![0, 0, 0] S1x1030x1024.size inb_S1x1030x1024_S1x1030x1024_0_0_0
abbrev r3_b : Rect S1024x1024 := Rect.unit (s := S1024x1024) ![0, 0] S1024x1024.size inb_S1024x1024_S1024x1024_0_0
abbrev r3_c : Rect S1024 := Rect.unit (s := S1024) ![0] S1024.size inb_S1024_S1024_0

/-- The result block after the body: its one store, the payload of the four loaded blocks. -/
def out3_4 (x0 : Vec F S1x1030x1024 .bf16) (x1 : Vec F S1024x1024 .bf16) (x2 : Vec F S1024 .f32) (x3 : Vec F S1x1030x1024 .f32) : Vec F S1x1030x1024 .f32 :=
  View.canon [⟨r3_a, k3_pay1 (View.ld x0 r3_a) (View.ld x1 r3_b) (View.ld x2 r3_c) (View.ld x3 r3_a)⟩]

/-- The store covers the whole block. -/
theorem cover3_4 (p0 : Vec F S1x1030x1024 .f32) (y : S1x1030x1024.Idx) :
    ∃ pc ∈ ([⟨r3_a, p0⟩] : List (View.Piece (Elt F) S1x1030x1024 .f32)), y ∈ pc.1.set :=
  View.cover_of_tiled [⟨r3_a, p0⟩] S1x1030x1024.size (by rfl) y

set_option maxHeartbeats 4000000 in
/-- The kernel body on whole staging buffers, the inputs' holding `x` and the outputs' anything, runs to its return
    with the inputs' as they were and each output's at `out3_w` of the inputs'. -/
theorem sound_kernel3 (c : Dev nD) (E : Set ℕ) (i : grid3.Coords) (arg1 : Memref sig .tc .vmem S1x1030x1024 .bf16) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1x1030x1024 .f32) (harg4 : arg4.IsWhole) (arg5 : Memref sig .tc .vmem S1x1030x1024 .f32) (harg5 : arg5.IsWhole)
    (x0 : Vec F S1x1030x1024 .bf16) (x1 : Vec F S1024x1024 .bf16) (x2 : Vec F S1024 .f32) (x3 : Vec F S1x1030x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__outproj_kernel i arg1 harg1 arg2 harg2 arg3 harg3 arg4 harg4 arg5 harg5) K := by
  simp only [cc3__outproj_kernel_eq_skeleton]; unfold cc3__outproj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data on core `c`: the arrays as the region finds them; after the body at point `t` each input's
    buffer at its block and each output's at `out3_w` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen.Hand

end
-- ==== Proof.Run.lean ====
/-
  The whole program's run: the buffer contents at each boundary between a stretch of host operations and a
  pallas_call's region, from the launch memory to the return — a host stretch applies its operations, a region
  leaves its arrays at what its grid points wrote back and every other buffer untouched — and the run itself:
  every weakly fair execution terminates, without a fault, in a memory whose every unscoped buffer holds the
  last boundary's contents. The frame claim (the argument arrays end as launched) is read off that: no host
  operation and no region writes an argument.
-/
import proofs.«122657_j28930899706120_2_alg».proof.Proof.RegNormA
import proofs.«122657_j28930899706120_2_alg».proof.Proof.RegNormB
import proofs.«122657_j28930899706120_2_alg».proof.Proof.RegAttn
import proofs.«122657_j28930899706120_2_alg».proof.Proof.RegOut
import proofs.«122657_j28930899706120_2_alg».proof.Proof.Gen.KernelIdeal.Regions

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the weight matrices joined and rounded, the input cut into its two row ranges). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the first normalise-and-project region: its arrays at what the region's write-backs leave (an input's as entered), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second normalise-and-project region: its arrays at what the region's write-backs leave (an input's as entered), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (the projections joined, cut into queries, keys and values, and laid out by head). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After the attention region: its arrays at what the region's write-backs leave (an input's as entered), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the third host stretch (the output matrix rounded). -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- After the output projection's region: its arrays at what the region's write-backs leave (an input's as entered), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and that it owes nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The region of pallas_call 0 over the thread state: entered with every unscoped buffer at the boundary contents before
    it, left with them at the contents after it. Its arrays are split out of the unscoped buffers and put back at the
    exit contents; the generator register goes into the region's invariant and out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of pallas_call 1 over the thread state: entered with every unscoped buffer at the boundary contents before
    it, left with them at the contents after it. Its arrays are split out of the unscoped buffers and put back at the
    exit contents; the generator register goes into the region's invariant and out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of pallas_call 2 over the thread state: entered with every unscoped buffer at the boundary contents before
    it, left with them at the contents after it. Its arrays are split out of the unscoped buffers and put back at the
    exit contents; the generator register goes into the region's invariant and out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of pallas_call 3 over the thread state: entered with every unscoped buffer at the boundary contents before
    it, left with them at the contents after it. Its arrays are split out of the unscoped buffers and put back at the
    exit contents; the generator register goes into the region's invariant and out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in the final memory every unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Gen.Hand

end
-- ==== Proof.Frames.lean ====
/-
  The frame claim from the run: each of the eleven argument arrays ends holding its launch contents, because no
  host operation writes an argument and a region either does not touch it or only reads it through an input
  window (a region's input array is left as entered).
-/
import proofs.«122657_j28930899706120_2_alg».proof.Proof.Run

set_option maxRecDepth 16384

noncomputable section

namespace Cert.KernelIdeal.Gen.Hand

open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-- A buffer no host stretch writes and no region stages ends as launched. -/
theorem W7_of_untouched (c : Dev nD) (b : Ref sig .tc) (h0 : b ∉ hostOps0_W) (h1 : ∀ w, Pipeline.arrRef spec0 w ≠ b)
    (h2 : ∀ w, Pipeline.arrRef spec1 w ≠ b) (h3 : b ∉ hostOps2_W) (h4 : ∀ w, Pipeline.arrRef spec2 w ≠ b)
    (h5 : b ∉ hostOps3_W) (h6 : ∀ w, Pipeline.arrRef spec3 w ≠ b) :
    W7 m ρ c (Proc.devRef .tc b) = m ((c : Thread nD τ).loc b) :=
  calc W7 m ρ c (Proc.devRef .tc b)
    _ = W6 m ρ c (Proc.devRef .tc b) := W7_of_ne m ρ c b h6
    _ = W5 m ρ c (Proc.devRef .tc b) := StableHlo.after_of_writes_sub hostOps3 _ hostOps3_writes h5
    _ = W4 m ρ c (Proc.devRef .tc b) := W5_of_ne m ρ c b h4
    _ = W3 m ρ c (Proc.devRef .tc b) := StableHlo.after_of_writes_sub hostOps2 _ hostOps2_writes h3
    _ = W2 m ρ c (Proc.devRef .tc b) := W3_of_ne m ρ c b h2
    _ = W1 m ρ c (Proc.devRef .tc b) := W2_of_ne m ρ c b h1
    _ = W0 m ρ c (Proc.devRef .tc b) := StableHlo.after_of_writes_sub hostOps0 _ hostOps0_writes h0
    _ = m ((c : Thread nD τ).loc b) := rfl

theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_of_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)

/-- The input: the last region reads it through its fourth window; nothing else touches it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := (W7_arr m ρ c 3).trans (((dat3 (V6 m ρ) c).arrAt_in 3 rfl _).trans (A_eq3 (V6 m ρ) c 3))
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- The output bias: the last region reads it through its third window. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := (W7_arr m ρ c 2).trans (((dat3 (V6 m ρ) c).arrAt_in 2 rfl _).trans (A_eq3 (V6 m ρ) c 2))
    _ = W5 m ρ c (Proc.devRef .tc main_arg8) := StableHlo.after_of_writes_sub hostOps3 _ hostOps3_writes (by decide)
    _ = W4 m ρ c (Proc.devRef .tc main_arg8) := W5_of_ne m ρ c main_arg8 (by decide)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- The normalisation's gain: both normalise-and-project regions read it through their window 1. -/
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := StableHlo.after_of_writes_sub hostOps3 _ hostOps3_writes (by decide)
    _ = W4 m ρ c (Proc.devRef .tc main_arg9) := W5_of_ne m ρ c main_arg9 (by decide)
    _ = W3 m ρ c (Proc.devRef .tc main_arg9) := StableHlo.after_of_writes_sub hostOps2 _ hostOps2_writes (by decide)
    _ = W2 m ρ c (Proc.devRef .tc main_arg9) := (W3_arr m ρ c 1).trans (((dat1 (V2 m ρ) c).arrAt_in 1 rfl _).trans (A_eq1 (V2 m ρ) c 1))
    _ = W1 m ρ c (Proc.devRef .tc main_arg9) := (W2_arr m ρ c 1).trans (((dat0 (V1 m ρ) c).arrAt_in 1 rfl _).trans (A_eq0 (V1 m ρ) c 1))
    _ = W0 m ρ c (Proc.devRef .tc main_arg9) := StableHlo.after_of_writes_sub hostOps0 _ hostOps0_writes (by decide)
    _ = m ((c : Thread nD τ).loc main_arg9) := rfl

/-- The normalisation's bias: both normalise-and-project regions read it through their window 2. -/
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := StableHlo.after_of_writes_sub hostOps3 _ hostOps3_writes (by decide)
    _ = W4 m ρ c (Proc.devRef .tc main_arg10) := W5_of_ne m ρ c main_arg10 (by decide)
    _ = W3 m ρ c (Proc.devRef .tc main_arg10) := StableHlo.after_of_writes_sub hostOps2 _ hostOps2_writes (by decide)
    _ = W2 m ρ c (Proc.devRef .tc main_arg10) := (W3_arr m ρ c 2).trans (((dat1 (V2 m ρ) c).arrAt_in 2 rfl _).trans (A_eq1 (V2 m ρ) c 2))
    _ = W1 m ρ c (Proc.devRef .tc main_arg10) := (W2_arr m ρ c 2).trans (((dat0 (V1 m ρ) c).arrAt_in 2 rfl _).trans (A_eq0 (V1 m ρ) c 2))
    _ = W0 m ρ c (Proc.devRef .tc main_arg10) := StableHlo.after_of_writes_sub hostOps0 _ hostOps0_writes (by decide)
    _ = m ((c : Thread nD τ).loc main_arg10) := rfl

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c)⟩)
    (run_main m ρ)

end Cert.KernelIdeal.Gen.Hand

end
-- ==== Proof.WRegNormA.lean ====
/-
  (Stated for the word-level program, where a float is its bit pattern; nothing below depends on the float instance.)
  The first normalise-and-project region, at the buffer contents V it is entered from. At grid point t
  (a batch entry) the body loads the block of 1027 token rows (positions 0 to 1026) [1, 1027, 1024], the gain, the
  bias and the [1024, 3072] weight matrix (queries | keys | values side by side), normalises every row and
  stores the rows' products with the matrix into the projection block [1, 1027, 3072].
  Here: the blocks, what the body leaves in the projection block as a function of the loaded blocks, the
  body's run from whole staging buffers, the region's proof data, and the body obligation at every point.
-/
import proofs.«122657_j28930899706120_2_alg».proof.Proof.Gen.Kernel.Launch
import proofs.«122657_j28930899706120_2_alg».proof.Proof.Gen.Kernel.Skeleton
import proofs.«122657_j28930899706120_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! The rectangles the body reads and writes. -/
abbrev r0_a : Rect S1x1027x1024 := Rect.unit (s := S1x1027x1024) ![0, 0, 0] S1x1027x1024.size inb_S1x1027x1024_S1x1027x1024_0_0_0
abbrev r0_b : Rect S1024x3072 := Rect.unit (s := S1024x3072) ![0, 0] S1024x3072.size inb_S1024x3072_S1024x3072_0_0
abbrev r0_c : Rect S1024 := Rect.unit (s := S1024) ![0] S1024.size inb_S1024_S1024_0
abbrev r0_o : Rect S1x1027x3072 := Rect.unit (s := S1x1027x3072) ![0, 0, 0] S1x1027x3072.size inb_S1x1027x3072_S1x1027x3072_0_0_0

/-- The projection block after the body: its one store, the payload of the four loaded blocks. -/
def out0_4 (x0 : Vec F S1x1027x1024 .f32) (x1 : Vec F S1024 .f32) (x2 : Vec F S1024 .f32) (x3 : Vec F S1024x3072 .bf16) : Vec F S1x1027x3072 .bf16 :=
  View.canon [⟨r0_o, k0_pay1 (View.ld x0 r0_a) (View.ld x1 r0_c) (View.ld x2 r0_c) (View.ld x3 r0_b)⟩]

/-- The store covers the whole block. -/
theorem cover0_4 (p0 : Vec F S1x1027x3072 .bf16) (y : S1x1027x3072.Idx) :
    ∃ pc ∈ ([⟨r0_o, p0⟩] : List (View.Piece (Elt F) S1x1027x3072 .bf16)), y ∈ pc.1.set :=
  View.cover_of_tiled [⟨r0_o, p0⟩] S1x1027x3072.size (by rfl) y

set_option maxHeartbeats 4000000 in
/-- The kernel body on whole staging buffers, the inputs' holding `x` and the outputs' anything, runs to its return
    with the inputs' as they were and each output's at `out0_w` of the inputs'. -/
theorem sound_kernel0 (c : Dev nD) (E : Set ℕ) (i : grid0.Coords) (arg1 : Memref sig .tc .vmem S1x1027x1024 .f32) (harg1 : arg1.IsWhole) (arg2 : Memref sig .tc .vmem S1024 .f32) (harg2 : arg2.IsWhole) (arg3 : Memref sig .tc .vmem S1024 .f32) (harg3 : arg3.IsWhole) (arg4 : Memref sig .tc .vmem S1024x3072 .bf16) (harg4 : arg4.IsWhole) (arg5 : Memref sig .tc .vmem S1x1027x3072 .bf16) (harg5 : arg5.IsWhole)
    (x0 : Vec F S1x1027x1024 .f32) (x1 : Vec F S1024 .f32) (x2 : Vec F S1024 .f32) (x3 : Vec F S1024x3072 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__ln_proj_kernel i arg1 harg1 arg2 harg2 arg3 harg3 arg4 harg4 arg5 harg5) K := by
  simp only [cc0__ln_proj_kernel_eq_skeleton]; unfold cc0__ln_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The region's proof data on core `c`: the arrays as the region finds them; after the body at point `t` each input's
    buffer at its block and each output's at `out0_w` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen.Hand

end
-- ==== Proof.WRegNormB.lean ====
/-
  (Stated for the word-level program, where a float is its bit pattern; nothing below depends on the float instance.)
  The second normalise-and-project region, at the buffer contents V it is entered from. At grid point t
  (a batch entry) the body loads the block of 3 token rows (positions 1027 to 1029) [1, 3, 1024], the gain, the
  bias and the [1024, 3072] weight matrix (queries | keys | values side by side), normalises every row and
  stores the rows' products with the matrix into the projection block [1, 3, 3072].
  Here: the blocks, what the body leaves in the projection block as a function of the loaded blocks, the
  body's run from whole staging buffers, the region's proof data, and the body obligation at every point.
-/
import proofs.«122657_j28930899706120_2_alg».proof.Proof.Gen.Kernel.Launch
import proofs.«122657_j28930899706120_2_alg».proof.Proof.Gen.Kernel.Skeleton
import proofs.«122657_j28930899706120_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The rectangles the body reads and writes. -/
abbrev r1_a : Rect S1x3x1024 := Rect.unit (s := S1x3x1024) ![0, 0, 0] S1x3x1024.size inb_S1x3x1024_S1x3x1024_0_0_0
abbrev r1_b : Rect S1024x3072 := Rect.unit (s := S1024x3072) ![0, 0] S1024x3072.size inb_S1024x3072_S1024x3072_0_0
abbrev r1_c : Rect S1024 := Rect.unit (s := S1024) ![0] S1024.size inb_S1024_S1024_0
abbrev r1_o : Rect S1x3x3072 := Rect.unit (s := S1x3x3072) ![0, 0, 0] S1x3x3072.size inb_S1x3x3072_S1x3x3072_0_0_0

/-- The projection block after the body: its one store, the payload of the four loaded blocks. -/
def out1_4 (x0 : Vec F S1x3x1024 .f32) (x1 : Vec F S1024 .f32) (x2 : Vec F S1024 .f32) (x3 : Vec F S1024x3072 .bf16) : Vec F S1x3x3072 .bf16 :=
  View.canon [⟨r1_o, k1_pay1 (View.ld x0 r1_a) (View.ld x1 r1_c) (View.ld x2 r1_c) (View.ld x3 r1_b)⟩]

/-- The store covers the whole block. -/
theorem cover1_4 (p0 : Vec F S1x3x3072 .bf16) (y : S1x3x3072.Idx) :
    ∃ pc ∈ ([⟨r1_o, p0⟩] : List (View.Piece (Elt F) S1x3x3072 .bf16)), y ∈ pc.1.set :=
  View.cover_of_tiled [⟨r1_o, p0⟩] S1x3x3072.size (by rfl) y

set_option maxHeartbeats 4000000 in
/-- The kernel body on whole staging buffers, the inputs' holding `x` and the outputs' anything, runs to its return
    with the inputs' as they were and each output's at `out1_w` of the inputs'. -/
theorem sound_kernel1 (c : Dev nD) (E : Set ℕ) (i : grid1.Coords) (arg1 : Memref sig .tc .vmem S1x3x1024 .f32) (harg1 : arg1.IsWhole) (arg2 : Memref sig .tc .vmem S1024 .f32) (harg2 : arg2.IsWhole) (arg3 : Memref sig .tc .vmem S1024 .f32) (harg3 : arg3.IsWhole) (arg4 : Memref sig .tc .vmem S1024x3072 .bf16) (harg4 : arg4.IsWhole) (arg5 : Memref sig .tc .vmem S1x3x3072 .bf16) (harg5 : arg5.IsWhole)
    (x0 : Vec F S1x3x1024 .f32) (x1 : Vec F S1024 .f32) (x2 : Vec F S1024 .f32) (x3 : Vec F S1024x3072 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__ln_proj_kernel i arg1 harg1 arg2 harg2 arg3 harg3 arg4 harg4 arg5 harg5) K := by
  simp only [cc1__ln_proj_kernel_eq_skeleton]; unfold cc1__ln_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body at point `t` each input's
    buffer at its block and each output's at `out1_w` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen.Hand

end
-- ==== Proof.WRegAttn.lean ====
/-
  (Stated for the word-level program, where a float is its bit pattern; nothing below depends on the float instance.)
  The attention region (the third pallas_call), at the buffer contents V it is entered from. Grid point t is
  a batch entry and a PAIR of heads. The body loads, for each of the pair's two heads, the query, key and value
  pieces [1030, 64] out of the blocks [1, 2, 1030, 64]; for each head it forms the scores query · keyᵀ scaled
  by 1/8, takes the row-wise softmax (maximum subtracted), stores the weights into that head's half of the
  weights block [1, 2, 1030, 1030], and multiplies the weights with the value piece; the two heads' contexts
  side by side are stored as the context block [1, 1030, 128].
  Here: the blocks, what the body leaves in each of the two result blocks as a function of the loaded blocks,
  the body's run from whole staging buffers, the region's proof data, and the body obligation at every point.
-/
import proofs.«122657_j28930899706120_2_alg».proof.Proof.Gen.Kernel.Launch
import proofs.«122657_j28930899706120_2_alg».proof.Proof.Gen.Kernel.Skeleton
import proofs.«122657_j28930899706120_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The rectangles the body reads and writes: a head's piece of an input block, a head's half of the weights
    block, the whole context block. -/
abbrev r2_h0 : Rect S1x2x1030x64 := Rect.unit (s := S1x2x1030x64) ![0, 0, 0, 0] S1x1x1030x64.size inb_S1x2x1030x64_S1x1x1030x64_0_0_0_0
abbrev r2_h1 : Rect S1x2x1030x64 := Rect.unit (s := S1x2x1030x64) ![0, 1, 0, 0] S1x1x1030x64.size inb_S1x2x1030x64_S1x1x1030x64_0_1_0_0
abbrev r2_p0 : Rect S1x2x1030x1030 := Rect.unit (s := S1x2x1030x1030) ![0, 0, 0, 0] S1x1x1030x1030.size inb_S1x2x1030x1030_S1x1x1030x1030_0_0_0_0
abbrev r2_p1 : Rect S1x2x1030x1030 := Rect.unit (s := S1x2x1030x1030) ![0, 1, 0, 0] S1x1x1030x1030.size inb_S1x2x1030x1030_S1x1x1030x1030_0_1_0_0
abbrev r2_c : Rect S1x1030x128 := Rect.unit (s := S1x1030x128) ![0, 0, 0] S1x1030x128.size inb_S1x1030x128_S1x1030x128_0_0_0

/-- The context block after the body: its one store, the two heads' contexts side by side. -/
def out2_3 (x0 : Vec F S1x2x1030x64 .bf16) (x1 : Vec F S1x2x1030x64 .bf16) (x2 : Vec F S1x2x1030x64 .bf16) : Vec F S1x1030x128 .bf16 :=
  View.canon [⟨r2_c, k2_pay3 (k2_pay6 (View.ld x0 r2_h0) (View.ld x1 r2_h0) (View.ld x2 r2_h0)) (k2_pay7 (View.ld x0 r2_h1)) (View.ld x1 r2_h1) (View.ld x2 r2_h1)⟩]

/-- The weights block after the body: its two stores, the second head's half (stored last) first. -/
def out2_4 (x0 : Vec F S1x2x1030x64 .bf16) (x1 : Vec F S1x2x1030x64 .bf16) (x2 : Vec F S1x2x1030x64 .bf16) : Vec F S1x2x1030x1030 .f32 :=
  View.canon [⟨r2_p1, k2_pay2 (k2_pay7 (View.ld x0 r2_h1)) (View.ld x1 r2_h1)⟩, ⟨r2_p0, k2_pay5 (View.ld x0 r2_h0) (View.ld x1 r2_h0)⟩]

/-- The one store covers the whole context block. -/
theorem cover2_3 (p0 : Vec F S1x1030x128 .bf16) (y : S1x1030x128.Idx) :
    ∃ pc ∈ ([⟨r2_c, p0⟩] : List (View.Piece (Elt F) S1x1030x128 .bf16)), y ∈ pc.1.set :=
  View.cover_of_tiled [⟨r2_c, p0⟩] S1x1030x128.size (by rfl) y

/-- The two heads' halves tile the weights block. -/
theorem cover2_4 (p0 : Vec F S1x1x1030x1030 .f32) (p1 : Vec F S1x1x1030x1030 .f32) (y : S1x2x1030x1030.Idx) :
    ∃ pc ∈ ([⟨r2_p1, p0⟩, ⟨r2_p0, p1⟩] : List (View.Piece (Elt F) S1x2x1030x1030 .f32)), y ∈ pc.1.set :=
  View.cover_of_tiled [⟨r2_p1, p0⟩, ⟨r2_p0, p1⟩] S1x1x1030x1030.size (by rfl) y

set_option maxHeartbeats 4000000 in
/-- The kernel body on whole staging buffers, the inputs' holding `x` and the outputs' anything, runs to its return
    with the inputs' as they were and each output's at `out2_w` of the inputs'. -/
theorem sound_kernel2 (c : Dev nD) (E : Set ℕ) (i : grid2.Coords) (arg2 : Memref sig .tc .vmem S1x2x1030x64 .bf16) (harg2 : arg2.IsWhole) (arg3 : Memref sig .tc .vmem S1x2x1030x64 .bf16) (harg3 : arg3.IsWhole) (arg4 : Memref sig .tc .vmem S1x2x1030x64 .bf16) (harg4 : arg4.IsWhole) (arg5 : Memref sig .tc .vmem S1x1030x128 .bf16) (harg5 : arg5.IsWhole) (arg6 : Memref sig .tc .vmem S1x2x1030x1030 .f32) (harg6 : arg6.IsWhole)
    (x0 : Vec F S1x2x1030x64 .bf16) (x1 : Vec F S1x2x1030x64 .bf16) (x2 : Vec F S1x2x1030x64 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2) ∗ owns (c : Thread nD τ) arg6 fullShare (out2_4 x0 x1 x2)) -∗ K ⟨⟩))
      ⊢ wp frame (wpE (defs₀ (F := F)) Variants.none c none) E (cc2__attn_kernel i arg2 harg2 arg3 harg3 arg4 harg4 arg5 harg5 arg6 harg6) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover2_3 _)
  iexists _; isplitr
  swap; · iexact H4
  ipureintro
  try dsimp only
  exact View.read_writes_eq_canon _ _ _ (cover2_4 _ _)

/-- The region's proof data on core `c`: the arrays as the region finds them; after the body at point `t` each input's
    buffer at its block and each output's at `out2_w` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen.Hand

end
-- ==== Proof.WRegOut.lean ====
/-
  (Stated for the word-level program, where a float is its bit pattern; nothing below depends on the float instance.)
  The output projection's region (the fourth pallas_call), at the buffer contents V it is entered from.
  At grid point t (a batch entry) the body loads the context block [1, 1030, 1024], the whole output
  matrix, its bias and the input block, and stores context · matrix + bias + input into the result block.
  Here: the blocks, what the body leaves in the result block as a function of the loaded blocks, the body's
  run from whole staging buffers, the region's proof data, and the body obligation at every grid point.
-/
import proofs.«122657_j28930899706120_2_alg».proof.Proof.Gen.Kernel.Launch
import proofs.«122657_j28930899706120_2_alg».proof.Proof.Gen.Kernel.Skeleton
import proofs.«122657_j28930899706120_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! The rectangles the body reads and writes. -/
abbrev r3_a : Rect S1x1030x1024 := Rect.unit (s := S1x1030x1024) ![0, 0, 0] S1x1030x1024.size inb_S1x1030x1024_S1x1030x1024_0_0_0
abbrev r3_b : Rect S1024x1024 := Rect.unit (s := S1024x1024) ![0, 0] S1024x1024.size inb_S1024x1024_S1024x1024_0_0
abbrev r3_c : Rect S1024 := Rect.unit (s := S1024) ![0] S1024.size inb_S1024_S1024_0

/-- The result block after the body: its one store, the payload of the four loaded blocks. -/
def out3_4 (x0 : Vec F S1x1030x1024 .bf16) (x1 : Vec F S1024x1024 .bf16) (x2 : Vec F S1024 .f32) (x3 : Vec F S1x1030x1024 .f32) : Vec F S1x1030x1024 .f32 :=
  View.canon [⟨r3_a, k3_pay1 (View.ld x0 r3_a) (View.ld x1 r3_b) (View.ld x2 r3_c) (View.ld x3 r3_a)⟩]

/-- The store covers the whole block. -/
theorem cover3_4 (p0 : Vec F S1x1030x1024 .f32) (y : S1x1030x1024.Idx) :
    ∃ pc ∈ ([⟨r3_a, p0⟩] : List (View.Piece (Elt F) S1x1030x1024 .f32)), y ∈ pc.1.set :=
  View.cover_of_tiled [⟨r3_a, p0⟩] S1x1030x1024.size (by rfl) y

set_option maxHeartbeats 4000000 in
/-- The kernel body on whole staging buffers, the inputs' holding `x` and the outputs' anything, runs to its return
    with the inputs' as they were and each output's at `out3_w` of the inputs'. -/
theorem sound_kernel3 (c : Dev nD) (E : Set ℕ) (i : grid3.Coords) (arg1 : Memref sig .tc .vmem S1x1030x1024 .bf16) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1x1030x1024 .f32) (harg4 : arg4.IsWhole) (arg5 : Memref sig .tc .vmem S1x1030x1024 .f32) (harg5 : arg5.IsWhole)
    (x0 : Vec F S1x1030x1024 .bf16) (x1 : Vec F S1024x1024 .bf16) (x2 : Vec F S1024 .f32) (x3 : Vec F S1x1030x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__outproj_kernel i arg1 harg1 arg2 harg2 arg3 harg3 arg4 harg4 arg5 harg5) K := by
  simp only [cc3__outproj_kernel_eq_skeleton]; unfold cc3__outproj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data on core `c`: the arrays as the region finds them; after the body at point `t` each input's
    buffer at its block and each output's at `out3_w` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen.Hand

end
-- ==== Proof.WRun.lean ====
/-
  (Stated for the word-level program, where a float is its bit pattern; nothing below depends on the float instance.)
  The whole program's run: the buffer contents at each boundary between a stretch of host operations and a
  pallas_call's region, from the launch memory to the return — a host stretch applies its operations, a region
  leaves its arrays at what its grid points wrote back and every other buffer untouched — and the run itself:
  every weakly fair execution terminates, without a fault, in a memory whose every unscoped buffer holds the
  last boundary's contents. The frame claim (the argument arrays end as launched) is read off that: no host
  operation and no region writes an argument.
-/
import proofs.«122657_j28930899706120_2_alg».proof.Proof.WRegNormA
import proofs.«122657_j28930899706120_2_alg».proof.Proof.WRegNormB
import proofs.«122657_j28930899706120_2_alg».proof.Proof.WRegAttn
import proofs.«122657_j28930899706120_2_alg».proof.Proof.WRegOut
import proofs.«122657_j28930899706120_2_alg».proof.Proof.Gen.Kernel.Regions

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the weight matrices joined and rounded, the input cut into its two row ranges). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the first normalise-and-project region: its arrays at what the region's write-backs leave (an input's as entered), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second normalise-and-project region: its arrays at what the region's write-backs leave (an input's as entered), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (the projections joined, cut into queries, keys and values, and laid out by head). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After the attention region: its arrays at what the region's write-backs leave (an input's as entered), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the third host stretch (the output matrix rounded). -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- After the output projection's region: its arrays at what the region's write-backs leave (an input's as entered), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and that it owes nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The region of pallas_call 0 over the thread state: entered with every unscoped buffer at the boundary contents before
    it, left with them at the contents after it. Its arrays are split out of the unscoped buffers and put back at the
    exit contents; the generator register goes into the region's invariant and out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of pallas_call 1 over the thread state: entered with every unscoped buffer at the boundary contents before
    it, left with them at the contents after it. Its arrays are split out of the unscoped buffers and put back at the
    exit contents; the generator register goes into the region's invariant and out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of pallas_call 2 over the thread state: entered with every unscoped buffer at the boundary contents before
    it, left with them at the contents after it. Its arrays are split out of the unscoped buffers and put back at the
    exit contents; the generator register goes into the region's invariant and out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of pallas_call 3 over the thread state: entered with every unscoped buffer at the boundary contents before
    it, left with them at the contents after it. Its arrays are split out of the unscoped buffers and put back at the
    exit contents; the generator register goes into the region's invariant and out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in the final memory every unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Gen.Hand

end
-- ==== Proof.WFrames.lean ====
/-
  (Stated for the word-level program, where a float is its bit pattern; nothing below depends on the float instance.)
  The frame claim from the run: each of the eleven argument arrays ends holding its launch contents, because no
  host operation writes an argument and a region either does not touch it or only reads it through an input
  window (a region's input array is left as entered).
-/
import proofs.«122657_j28930899706120_2_alg».proof.Proof.WRun

set_option maxRecDepth 16384

noncomputable section

namespace Cert.Kernel.Gen.Hand

open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-- A buffer no host stretch writes and no region stages ends as launched. -/
theorem W7_of_untouched (c : Dev nD) (b : Ref sig .tc) (h0 : b ∉ hostOps0_W) (h1 : ∀ w, Pipeline.arrRef spec0 w ≠ b)
    (h2 : ∀ w, Pipeline.arrRef spec1 w ≠ b) (h3 : b ∉ hostOps2_W) (h4 : ∀ w, Pipeline.arrRef spec2 w ≠ b)
    (h5 : b ∉ hostOps3_W) (h6 : ∀ w, Pipeline.arrRef spec3 w ≠ b) :
    W7 m ρ c (Proc.devRef .tc b) = m ((c : Thread nD τ).loc b) :=
  calc W7 m ρ c (Proc.devRef .tc b)
    _ = W6 m ρ c (Proc.devRef .tc b) := W7_of_ne m ρ c b h6
    _ = W5 m ρ c (Proc.devRef .tc b) := StableHlo.after_of_writes_sub hostOps3 _ hostOps3_writes h5
    _ = W4 m ρ c (Proc.devRef .tc b) := W5_of_ne m ρ c b h4
    _ = W3 m ρ c (Proc.devRef .tc b) := StableHlo.after_of_writes_sub hostOps2 _ hostOps2_writes h3
    _ = W2 m ρ c (Proc.devRef .tc b) := W3_of_ne m ρ c b h2
    _ = W1 m ρ c (Proc.devRef .tc b) := W2_of_ne m ρ c b h1
    _ = W0 m ρ c (Proc.devRef .tc b) := StableHlo.after_of_writes_sub hostOps0 _ hostOps0_writes h0
    _ = m ((c : Thread nD τ).loc b) := rfl

theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_of_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)

/-- The input: the last region reads it through its fourth window; nothing else touches it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := (W7_arr m ρ c 3).trans (((dat3 (V6 m ρ) c).arrAt_in 3 rfl _).trans (A_eq3 (V6 m ρ) c 3))
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- The output bias: the last region reads it through its third window. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := (W7_arr m ρ c 2).trans (((dat3 (V6 m ρ) c).arrAt_in 2 rfl _).trans (A_eq3 (V6 m ρ) c 2))
    _ = W5 m ρ c (Proc.devRef .tc main_arg8) := StableHlo.after_of_writes_sub hostOps3 _ hostOps3_writes (by decide)
    _ = W4 m ρ c (Proc.devRef .tc main_arg8) := W5_of_ne m ρ c main_arg8 (by decide)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- The normalisation's gain: both normalise-and-project regions read it through their window 1. -/
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := StableHlo.after_of_writes_sub hostOps3 _ hostOps3_writes (by decide)
    _ = W4 m ρ c (Proc.devRef .tc main_arg9) := W5_of_ne m ρ c main_arg9 (by decide)
    _ = W3 m ρ c (Proc.devRef .tc main_arg9) := StableHlo.after_of_writes_sub hostOps2 _ hostOps2_writes (by decide)
    _ = W2 m ρ c (Proc.devRef .tc main_arg9) := (W3_arr m ρ c 1).trans (((dat1 (V2 m ρ) c).arrAt_in 1 rfl _).trans (A_eq1 (V2 m ρ) c 1))
    _ = W1 m ρ c (Proc.devRef .tc main_arg9) := (W2_arr m ρ c 1).trans (((dat0 (V1 m ρ) c).arrAt_in 1 rfl _).trans (A_eq0 (V1 m ρ) c 1))
    _ = W0 m ρ c (Proc.devRef .tc main_arg9) := StableHlo.after_of_writes_sub hostOps0 _ hostOps0_writes (by decide)
    _ = m ((c : Thread nD τ).loc main_arg9) := rfl

/-- The normalisation's bias: both normalise-and-project regions read it through their window 2. -/
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := StableHlo.after_of_writes_sub hostOps3 _ hostOps3_writes (by decide)
    _ = W4 m ρ c (Proc.devRef .tc main_arg10) := W5_of_ne m ρ c main_arg10 (by decide)
    _ = W3 m ρ c (Proc.devRef .tc main_arg10) := StableHlo.after_of_writes_sub hostOps2 _ hostOps2_writes (by decide)
    _ = W2 m ρ c (Proc.devRef .tc main_arg10) := (W3_arr m ρ c 2).trans (((dat1 (V2 m ρ) c).arrAt_in 2 rfl _).trans (A_eq1 (V2 m ρ) c 2))
    _ = W1 m ρ c (Proc.devRef .tc main_arg10) := (W2_arr m ρ c 2).trans (((dat0 (V1 m ρ) c).arrAt_in 2 rfl _).trans (A_eq0 (V1 m ρ) c 2))
    _ = W0 m ρ c (Proc.devRef .tc main_arg10) := StableHlo.after_of_writes_sub hostOps0 _ hostOps0_writes (by decide)
    _ = m ((c : Thread nD τ).loc main_arg10) := rfl

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c)⟩)
    (run_main m ρ)

end Cert.Kernel.Gen.Hand

end
-- ==== Proof.Spec.lean ====
/-
  What both programs compute, written once on the extended reals and indexed by plain coordinates.

  A token row x (1024 numbers) is normalised: its mean m = (sum x) / 1024 is subtracted, the centred row
  is scaled by 1 / sqrt(v + eps) with v = (sum (x - m)^2) / 1024, then by the gain g, and the bias b is
  added. Each of the three projections (queries, keys, values) multiplies the normalised row by one of
  two weight matrices: the first 1027 token positions use the first matrix, the last 3 the second.
  Column e of a projection belongs to head e / 64, lane e % 64. For a batch entry and a head, the score
  of query position i against key position j is the inner product of the two 64-lane pieces divided
  by 8; a row of scores goes through the softmax with its maximum subtracted; the attention weights
  are one of the two results. The context of position i is the weights' combination of the value
  pieces, laid out again as column head * 64 + lane; the other result is context times the output
  matrix, plus its bias, plus the input row.

  The divisions are the extended reals' division of the float semantics (`Ideal.div`), the reciprocal
  square root and the exponential its `Ideal.rsqrt` and `Ideal.exp`; the four constants are the values
  the shared float words denote, never evaluated here.
-/
import Idealize.ShloMosaic.PureOps.Ideal
import Idealize.ShloMosaic.PureOps.Ideal.Laws

noncomputable section

namespace Cert.Attn

open Idealize.ShloMosaic

/-- The float word of 1024.0 as an extended real. -/
def w1024 : EReal := Ideal.ofBits .f32 0x44800000#32
/-- The float word of the variance's epsilon (about 1e-6). -/
def wEps : EReal := Ideal.ofBits .f32 0x358637BD#32
/-- The float word of 8.0, the square root of the head width. -/
def wEight : EReal := Ideal.ofBits .f32 0x41000000#32
/-- The float word of minus infinity, the start of a row maximum. -/
def wNegInf : EReal := Ideal.ofBits .f32 0xFF800000#32

/-! ## One row's normalisation -/

def mean (x : Fin 1024 → EReal) : EReal := Ideal.div (∑ d : Fin 1024, x d) w1024

def centred (x : Fin 1024 → EReal) (d : Fin 1024) : EReal := x d - mean x

def variance (x : Fin 1024 → EReal) : EReal := Ideal.div (∑ d : Fin 1024, centred x d * centred x d) w1024

/-- ((x - mean) * rsqrt (variance + eps)) * g + b, in this association. -/
def layerNorm (x g b : Fin 1024 → EReal) (d : Fin 1024) : EReal :=
  centred x d * Ideal.rsqrt (variance x + wEps) * g d + b d

/-! ## One row's softmax -/

/-- The maximum of a row of 1030 scores, folded from minus infinity. -/
def rowMax (s : Fin 1030 → EReal) : EReal := (Finset.univ : Finset (Fin 1030)).fold max wNegInf s

def expShift (s : Fin 1030 → EReal) (j : Fin 1030) : EReal := Ideal.exp (s j - rowMax s)

def softmax (s : Fin 1030 → EReal) (j : Fin 1030) : EReal :=
  Ideal.div (expShift s j) (∑ k : Fin 1030, expShift s k)

/-! ## The whole computation -/

/-- Column `h * 64 + d` of a projection: head `h`, lane `d`. -/
def col (h : Fin 16) (d : Fin 64) : Fin 1024 := ⟨h.val * 64 + d.val, by omega⟩

section

variable (x : Fin 8 → Fin 1030 → Fin 1024 → EReal) (g b : Fin 1024 → EReal)

/-- The normalised input. -/
def normed (n : Fin 8) (l : Fin 1030) : Fin 1024 → EReal := layerNorm (x n l) g b

/-- A projection by two weight matrices: token positions below 1027 use `wa`, the last three `wb`. -/
def proj (wa wb : Fin 1024 → Fin 1024 → EReal) (n : Fin 8) (l : Fin 1030) (e : Fin 1024) : EReal :=
  ∑ k : Fin 1024, normed x g b n l k * (if l.val < 1027 then wa k e else wb k e)

variable (wq0 wq1 wk0 wk1 wv0 wv1 : Fin 1024 → Fin 1024 → EReal)

/-- The score of query position `i` against key position `j` in head `h`. -/
def score (n : Fin 8) (h : Fin 16) (i j : Fin 1030) : EReal :=
  Ideal.div (∑ d : Fin 64, proj x g b wq0 wq1 n i (col h d) * proj x g b wk0 wk1 n j (col h d)) wEight

/-- The attention weights: the second result. -/
def attn (n : Fin 8) (h : Fin 16) (i j : Fin 1030) : EReal :=
  softmax (score x g b wq0 wq1 wk0 wk1 n h i) j

/-- The context at position `i`, head `h`, lane `d`. -/
def context (n : Fin 8) (h : Fin 16) (i : Fin 1030) (d : Fin 64) : EReal :=
  ∑ j : Fin 1030, attn x g b wq0 wq1 wk0 wk1 n h i j * proj x g b wv0 wv1 n j (col h d)

/-- The context laid out by column: column `e` is head `e / 64`, lane `e % 64`. -/
def contextCol (n : Fin 8) (i : Fin 1030) (e : Fin 1024) : EReal :=
  context x g b wq0 wq1 wk0 wk1 wv0 wv1 n ⟨e.val / 64, by omega⟩ i ⟨e.val % 64, by omega⟩

variable (wo : Fin 1024 → Fin 1024 → EReal) (bo : Fin 1024 → EReal)

/-- The first result: context times the output matrix, plus its bias, plus the input. -/
def output (n : Fin 8) (l : Fin 1030) (d : Fin 1024) : EReal :=
  (∑ e : Fin 1024, contextCol x g b wq0 wq1 wk0 wk1 wv0 wv1 n l e * wo e d + bo d) + x n l d

end

end Cert.Attn

end
-- ==== Proof.Coords.lean ====
/-
  Arrays indexed by a shape's index, read as functions of plain coordinates: an array of shape
  [a, b, c] at (n, l, d) is its value at the index whose coordinates are n, l, d.
-/
import Idealize.ShloMosaic.Lib.ValueIdx

noncomputable section

namespace Cert.Attn

open Idealize.ShloMosaic Idealize.ShloMosaic.ValueIdx

def of1 {a : Nat} (v : (⟨1, ![a]⟩ : Shape).Idx → EReal) : Fin a → EReal := fun d => v (ix1 d)

def of2 {a b : Nat} (w : (⟨2, ![a, b]⟩ : Shape).Idx → EReal) : Fin a → Fin b → EReal := fun k e => w (ix2 k e)

def of3 {a b c : Nat} (x : (⟨3, ![a, b, c]⟩ : Shape).Idx → EReal) : Fin a → Fin b → Fin c → EReal :=
  fun n l d => x (ix3 n l d)

def of4 {a b c e : Nat} (x : (⟨4, ![a, b, c, e]⟩ : Shape).Idx → EReal) : Fin a → Fin b → Fin c → Fin e → EReal :=
  fun n h i j => x (ix4 n h i j)

end Cert.Attn

end
-- ==== Proof.LibColumnForms.lean ====
/-
  Small general lemmas that read, at an index written by coordinates, the layout steps a row-wise
  reduction with kept dimensions goes through: the column casts [a] → [a, 1] and [a, 1] → [a, b],
  a sum and a maximum along the lanes of a matrix, and a plain M×K by K×N matrix product into a zero
  accumulator. All are stated over variables of literal-rank shapes and `Fin` coordinates, at the
  extended reals.
-/
import Idealize.ShloMosaic.Lib.ValueLayout
import Idealize.ShloMosaic.PureOps.Ideal.Laws

noncomputable section

namespace Cert.Attn.Pay

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-- A reciprocal square root at an index is the extended reals' one of the element … -/
theorem rsqrt_apply {s : Shape} {φ : FTy} (x : FVec Ideal s φ) (i : s.Idx) : rsqrt x i = Ideal.rsqrt (x i) := rfl
/-- … and an exponential the extended reals' exponential of the element. -/
theorem exp_apply {s : Shape} {φ : FTy} (x : FVec Ideal s φ) (i : s.Idx) : exp x i = Ideal.exp (x i) := rfl

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an `[a, b]` matrix, read at row `i`: the sum over the lanes of that row. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  refine Finset.sum_congr rfl fun k _ => congrArg src ?_
  funext c
  match c with
  | ⟨0, _⟩ => rfl
  | ⟨1, _⟩ => rfl

/-- The maximum along the lanes of an `[a, b]` matrix, read at row `i`: the fold of `max` over the lanes of that
    row, from the value of the starting word. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src _ h hφ hacc (ix1 i)).trans ?_
  refine congrArg (fun f => (Finset.univ : Finset (Fin b)).fold max (Ideal.ofBits .f32 0xFF800000#32) f) ?_
  funext k
  refine congrArg src ?_
  funext c
  match c with
  | ⟨0, _⟩ => rfl
  | ⟨1, _⟩ => rfl

/-- A plain `M × K` by `K × N` matrix product into the zero accumulator, read at `(i, j)`: the sum over the
    contraction coordinate of the operands' products. `D` is any record of those dimension numbers. -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (i : Fin M) (j : Fin N) :
    matmul D prec lhs rhs (constant (F := Ideal) ⟨2, ![M, N]⟩ .f32 0x00000000#32) (ix2 i j)
      = ∑ k : Fin K, lhs (ix2 i k) * rhs (ix2 k j) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.Attn.Pay

end
-- ==== Proof.PayOut.lean ====
/-
  The output projection's block, read at one entry: row `r` of the context block times column `d` of the
  output matrix, summed over the 1024 columns of the context, plus the bias at `d`, plus the input row's entry.
-/
import proofs.«122657_j28930899706120_2_alg».proof.Proof.Gen.KernelIdeal.Skeleton
import proofs.«122657_j28930899706120_2_alg».proof.Proof.Spec
import proofs.«122657_j28930899706120_2_alg».proof.Proof.Coords
import proofs.«122657_j28930899706120_2_alg».proof.Proof.LibColumnForms
import Idealize.ShloMosaic.Lib.ValueLayout
import Idealize.ShloMosaic.PureOps.Ideal.Laws

noncomputable section

namespace Cert.Attn.Pay

open Idealize.ShloMosaic Idealize.ShloMosaic.ValueIdx Cert.KernelIdeal Cert.KernelIdeal.Gen Cert.Attn

/-- The stored block of the output projection at `(0, r, d)`. -/
theorem k3_pay1_apply (v0 : Vec Ideal S1x1030x1024 .bf16) (v2 : Vec Ideal S1024x1024 .bf16) (v5 : Vec Ideal S1024 .f32)
    (v6 : Vec Ideal S1x1030x1024 .f32) (r : Fin 1030) (d : Fin 1024) :
    k3_pay1 (F := Ideal) v0 v2 v5 v6 (ix3 (0 : Fin 1) r d)
      = (∑ e : Fin 1024, v0 (ix3 (0 : Fin 1) r e) * v2 (ix2 e d) + v5 (ix1 d)) + v6 (ix3 (0 : Fin 1) r d) := by
  unfold k3_pay1
  rw [shapeCast_ab_1ab_apply, addf_apply, addf_apply,
    matmul_plain_apply dot_S1030x1024_S1024x1024_S1030x1024_1_0_0_1_n_n rfl,
    broadcastTo_1b_ab_apply, shapeCast_a_1a_apply, shapeCast_1ab_ab_apply, shapeCast_self]
  refine congrArg (· + v6 (ix3 (0 : Fin 1) r d)) (congrArg (· + v5 (ix1 d)) ?_)
  refine Finset.sum_congr rfl fun e _ => ?_
  rw [shapeCast_1ab_ab_apply]

end Cert.Attn.Pay

end
-- ==== Proof.ValOut.lean ====
/-
  The output projection's region, read as one function of its four arrays: at every entry (n, l, d) the result
  array ends holding (∑ over e of context (n, l, e) · matrix (e, d)) + bias (d) + input (n, l, d).
  Grid point t handles batch entry t: its context, input and result blocks are rows [t] of their arrays, the
  matrix and the bias are whole; the eight result blocks tile the result array.
-/
import proofs.«122657_j28930899706120_2_alg».proof.Proof.RegOut
import proofs.«122657_j28930899706120_2_alg».proof.Proof.PayOut
import Idealize.ShloMosaic.Lib.Pipeline.Value
import Idealize.ShloMosaic.Lib.ValueIdx

set_option maxRecDepth 16384

noncomputable section

namespace Cert.KernelIdeal.Gen.Hand

open Idealize.ShloMosaic Idealize.ShloMosaic.TcCoe Idealize.ShloMosaic.ValueIdx Idealize.SL.Sem
open Idealize.ShloMosaic.Pipeline (Dat)
open Cert.Attn Cert.Attn.Pay

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The result array as a function of the context, the matrix, the bias and the input. -/
def outG (o : S8x1030x1024.Idx → EReal) (w : S1024x1024.Idx → EReal) (b : S1024.Idx → EReal) (x : S8x1030x1024.Idx → EReal) :
    S8x1030x1024.Idx → EReal :=
  fun i => (∑ e : Fin 1024, o (ix3 (i 0) (i 1) e) * w (ix2 e (i 2)) + b (ix1 (i 2))) + x (ix3 (i 0) (i 1) (i 2))

/-- Grid point `t` is batch entry `t`. -/
def batch3 (t : Fin cfg3.N) : Fin 8 := ⟨t.val, N_3 ▸ t.isLt⟩

/-- Where the windows' blocks sit at point `t`: the three batched ones at row `t`, the matrix and the bias at the origin. -/
theorem idx_facts3 : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 1) = 0
    ∧ win3_3.index t (0 : Fin 3) = t.val ∧ win3_3.index t (1 : Fin 3) = 0 ∧ win3_3.index t (2 : Fin 3) = 0
    ∧ win3_4.index t (0 : Fin 3) = t.val ∧ win3_4.index t (1 : Fin 3) = 0 ∧ win3_4.index t (2 : Fin 3) = 0 :=
  (by decide +kernel : ∀ t : Fin grid3.N, _)

/-- The body's result at one entry, from what the four loaded blocks are in terms of the arrays. -/
theorem point3 (x0 : Vec Ideal S1x1030x1024 .bf16) (x1 : Vec Ideal S1024x1024 .bf16) (x2 : Vec Ideal S1024 .f32) (x3 : Vec Ideal S1x1030x1024 .f32)
    (o : S8x1030x1024.Idx → EReal) (w : S1024x1024.Idx → EReal) (b : S1024.Idx → EReal) (x : S8x1030x1024.Idx → EReal) (n : Fin 8)
    (h0 : ∀ (r : Fin 1030) (e : Fin 1024), x0 (ix3 (0 : Fin 1) r e) = o (ix3 n r e))
    (h1 : ∀ (k : Fin 1024) (e : Fin 1024), x1 (ix2 k e) = w (ix2 k e))
    (h2 : ∀ d : Fin 1024, x2 (ix1 d) = b (ix1 d))
    (h3 : ∀ (r : Fin 1030) (d : Fin 1024), x3 (ix3 (0 : Fin 1) r d) = x (ix3 n r d))
    (r : Fin 1030) (d : Fin 1024) :
    k3_pay1 (F := Ideal) x0 x1 x2 x3 (ix3 (0 : Fin 1) r d) = outG o w b x (ix3 n r d) := by
  rw [k3_pay1_apply, h2, h3]
  unfold outG
  refine congrArg (· + x (ix3 n r d)) (congrArg (· + b (ix1 d)) ?_)
  exact Finset.sum_congr rfl fun e _ => by rw [h0, h1]

/-! ## The loaded blocks in terms of the arrays -/

/-- The context block at point `t` is row `t` of the context array. -/
theorem iblk3_0_apply (c : Dev nD) (t : Fin cfg3.N) (r : Fin 1030) (e : Fin 1024) :
    (iblk3 V c 0 t : Vec Ideal S1x1030x1024 .bf16) (ix3 (0 : Fin 1) r e)
      = (V c main_v18_0 : S8x1030x1024.Idx → EReal) (ix3 (batch3 t) r e) := by
  obtain ⟨e0, e1, e2, -⟩ := idx_facts3 t
  unfold iblk3
  rw [View.read_apply]
  refine congrArg (V c main_v18_0 : S8x1030x1024.Idx → EReal) (funext fun a => Fin.ext ?_)
  match a with
  | ⟨0, _⟩ => show win3_0.index t (0 : Fin 3) * 1 + 1 * 0 = t.val; omega
  | ⟨1, _⟩ => show win3_0.index t (1 : Fin 3) * 1030 + 1 * r.val = r.val; omega
  | ⟨2, _⟩ => show win3_0.index t (2 : Fin 3) * 1024 + 1 * e.val = e.val; omega

/-- The matrix block is the whole matrix. -/
theorem iblk3_1_apply (c : Dev nD) (t : Fin cfg3.N) (k : Fin 1024) (e : Fin 1024) :
    (iblk3 V c 1 t : Vec Ideal S1024x1024 .bf16) (ix2 k e) = (V c main_v19 : S1024x1024.Idx → EReal) (ix2 k e) := by
  obtain ⟨-, -, -, e3, e4, -⟩ := idx_facts3 t
  unfold iblk3
  rw [View.read_apply]
  refine congrArg (V c main_v19 : S1024x1024.Idx → EReal) (funext fun a => Fin.ext ?_)
  match a with
  | ⟨0, _⟩ => show win3_1.index t (0 : Fin 2) * 1024 + 1 * k.val = k.val; omega
  | ⟨1, _⟩ => show win3_1.index t (1 : Fin 2) * 1024 + 1 * e.val = e.val; omega

/-- The bias block is the whole bias. -/
theorem iblk3_2_apply (c : Dev nD) (t : Fin cfg3.N) (d : Fin 1024) :
    (iblk3 V c 2 t : Vec Ideal S1024 .f32) (ix1 d) = (V c main_arg8 : S1024.Idx → EReal) (ix1 d) := by
  obtain ⟨-, -, -, -, -, e5, -⟩ := idx_facts3 t
  unfold iblk3
  rw [View.read_apply]
  refine congrArg (V c main_arg8 : S1024.Idx → EReal) (funext fun a => Fin.ext ?_)
  match a with
  | ⟨0, _⟩ => show win3_2.index t (0 : Fin 1) * 1024 + 1 * d.val = d.val; omega

/-- The input block at point `t` is row `t` of the input. -/
theorem iblk3_3_apply (c : Dev nD) (t : Fin cfg3.N) (r : Fin 1030) (d : Fin 1024) :
    (iblk3 V c 3 t : Vec Ideal S1x1030x1024 .f32) (ix3 (0 : Fin 1) r d)
      = (V c main_arg0 : S8x1030x1024.Idx → EReal) (ix3 (batch3 t) r d) := by
  obtain ⟨-, -, -, -, -, -, e6, e7, e8, -⟩ := idx_facts3 t
  unfold iblk3
  rw [View.read_apply]
  refine congrArg (V c main_arg0 : S8x1030x1024.Idx → EReal) (funext fun a => Fin.ext ?_)
  match a with
  | ⟨0, _⟩ => show win3_3.index t (0 : Fin 3) * 1 + 1 * 0 = t.val; omega
  | ⟨1, _⟩ => show win3_3.index t (1 : Fin 3) * 1030 + 1 * r.val = r.val; omega
  | ⟨2, _⟩ => show win3_3.index t (2 : Fin 3) * 1024 + 1 * d.val = d.val; omega

/-! ## What a point writes back, the cover, the array -/

/-- The result block's entry (0, r, d) at point `t` sits at (t, r, d) of the result array. -/
theorem emb3_4 (t : Fin cfg3.N) (r : Fin 1030) (d : Fin 1024) :
    ((cfg3.win 4).blk t).view.emb (ix3 (0 : Fin 1) r d) = (ix3 (batch3 t) r d : S8x1030x1024.Idx) := by
  obtain ⟨-, -, -, -, -, -, -, -, -, e9, e10, e11⟩ := idx_facts3 t
  refine funext fun a => Fin.ext ?_
  match a with
  | ⟨0, _⟩ => show win3_4.index t (0 : Fin 3) * 1 + 1 * 0 = t.val; omega
  | ⟨1, _⟩ => show win3_4.index t (1 : Fin 3) * 1030 + 1 * r.val = r.val; omega
  | ⟨2, _⟩ => show win3_4.index t (2 : Fin 3) * 1024 + 1 * d.val = d.val; omega

/-- WHAT POINT `t` WRITES BACK is block `t` of `outG` of the arrays as the region finds them. -/
theorem flushed3_eq (c : Dev nD) (t : Fin cfg3.N) :
    (dat3 V c).flushed 4 t = ((cfg3.win 4).blk t).view.read (Elt Ideal)
      (outG (V c main_v18_0) (V c main_v19) (V c main_arg8) (V c main_arg0)) := by
  show (cfg3.win 4).cut (grid3.coords t) ((dat3 V c).after 4 t) = _
  rw [after3_4]
  unfold out3_4
  rw [View.canon_unit_zero hz3]
  simp only [View.ld_unit_zero (S := S1x1030x1024) hz3, View.ld_unit_zero (S := S1024x1024) hz2, View.ld_unit_zero (S := S1024) hz1]
  have key : ∀ y : S1x1030x1024.Idx,
      k3_pay1 (F := Ideal) (iblk3 V c 0 t) (iblk3 V c 1 t) (iblk3 V c 2 t) (iblk3 V c 3 t) y
        = outG (V c main_v18_0) (V c main_v19) (V c main_arg8) (V c main_arg0) (((cfg3.win 4).blk t).view.emb y) := by
    intro y
    obtain ⟨a, r, d, rfl⟩ : ∃ (a : Fin 1) (r : Fin 1030) (d : Fin 1024), y = ix3 a r d := ⟨y 0, y 1, y 2, eq_ix3 y⟩
    obtain rfl : a = 0 := Subsingleton.elim a 0
    rw [emb3_4]
    exact point3 _ _ _ _ _ _ _ _ (batch3 t) (iblk3_0_apply V c t) (iblk3_1_apply V c t) (iblk3_2_apply V c t) (iblk3_3_apply V c t) r d
  funext j
  exact key j

/-- An index of the result array is in point `t`'s block iff each coordinate is in the block's range on its axis. -/
theorem mem_blk3 (t : Fin cfg3.N) (i : S8x1030x1024.Idx) :
    i ∈ ((cfg3.win 4).blk t).view.set ↔ ∀ a : Fin 3, win3_4.index t a * S1x1030x1024.size a ≤ (i a).val ∧ (i a).val < win3_4.index t a * S1x1030x1024.size a + S1x1030x1024.size a := by
  show i ∈ ((View.whole main_v20).slice (win3_4.rect t)).set ↔ _
  rw [View.set_slice_whole, Rect.mem_set_unit]
  exact Iff.rfl

/-- The eight blocks tile the result array: entry (n, l, d) is in point `n`'s block. -/
theorem cover3 (i : S8x1030x1024.Idx) : ∃ t : Fin cfg3.N, (cfg3.win 4).flush t = true ∧ i ∈ ((cfg3.win 4).blk t).view.set := by
  have hi0 : (i 0).val < 8 := (i 0).isLt
  have hi1 : (i 1).val < 1030 := (i 1).isLt
  have hi2 : (i 2).val < 1024 := (i 2).isLt
  obtain ⟨t, ht⟩ : ∃ t : Fin cfg3.N, t.val = (i 0).val := ⟨⟨(i 0).val, by rw [show cfg3.N = 8 from N_3]; exact hi0⟩, rfl⟩
  refine ⟨t, flush3_4 t, ?_⟩
  rw [mem_blk3]
  obtain ⟨-, -, -, -, -, -, -, -, -, e9, e10, e11⟩ := idx_facts3 t
  intro a
  match a with
  | ⟨0, _⟩ => show win3_4.index t (0 : Fin 3) * 1 ≤ (i 0).val ∧ (i 0).val < win3_4.index t (0 : Fin 3) * 1 + 1; rw [e9]; omega
  | ⟨1, _⟩ => show win3_4.index t (1 : Fin 3) * 1030 ≤ (i 1).val ∧ (i 1).val < win3_4.index t (1 : Fin 3) * 1030 + 1030; rw [e10]; omega
  | ⟨2, _⟩ => show win3_4.index t (2 : Fin 3) * 1024 ≤ (i 2).val ∧ (i 2).val < win3_4.index t (2 : Fin 3) * 1024 + 1024; rw [e11]; omega

/-- THE RESULT ARRAY after the region: `outG` of the arrays as the region finds them. -/
theorem final3 (c : Dev nD) : (dat3 V c).arrAt 4 cfg3.N = outG (V c main_v18_0) (V c main_v19) (V c main_arg8) (V c main_arg0) :=
  (dat3 V c).arrAt_eq_of_cover 4 _ (fun t _ => flushed3_eq V c t) (cover3)

end Cert.KernelIdeal.Gen.Hand

end
-- ==== Proof.PayAttn.lean ====
/-
  The attention blocks, read at one entry. One grid step handles two heads; for each, the scores of a query row
  against all key rows are the inner products of 64-lane rows scaled by one eighth, the row goes through the
  softmax with its maximum subtracted, the weights are stored, and the weights' combination of the value rows is
  the head's context, the two heads' contexts laid side by side in one 128-lane row.
-/
import proofs.«122657_j28930899706120_2_alg».proof.Proof.Gen.KernelIdeal.Skeleton
import proofs.«122657_j28930899706120_2_alg».proof.Proof.Spec
import proofs.«122657_j28930899706120_2_alg».proof.Proof.Coords
import proofs.«122657_j28930899706120_2_alg».proof.Proof.LibColumnForms
import Idealize.ShloMosaic.Lib.ValueLayout
import Idealize.ShloMosaic.PureOps.Ideal.Laws

noncomputable section

namespace Cert.Attn.Pay

open Idealize.ShloMosaic Idealize.ShloMosaic.ValueIdx Cert.KernelIdeal Cert.KernelIdeal.Gen Cert.Attn

/-- The float word of one eighth denotes the real 1/8 … -/
theorem ofBits_eighth : Ideal.ofBits .f32 0x3E000000#32 = ((1 / 8 : ℝ) : EReal) := by
  simp [Ideal.ofBits, Ideal.ieee, -EReal.coe_mul]; norm_num
/-- … the float word of eight the real 8 … -/
theorem ofBits_eight : Ideal.ofBits .f32 0x41000000#32 = ((8 : ℝ) : EReal) := by
  simp [Ideal.ofBits, Ideal.ieee, -EReal.coe_mul]; norm_num
/-- … so scaling by one eighth is dividing by eight, at the infinities too. -/
theorem mul_eighth (x : EReal) : x * Ideal.ofBits .f32 0x3E000000#32 = Ideal.div x wEight := by
  rw [wEight, ofBits_eighth, ofBits_eight, Ideal.div_coe (by norm_num)]

/-- The score of query row `i` against key row `j` of one head's blocks: the inner product of the two 64-lane
    rows, divided by eight. -/
def blockScore (q k : Vec Ideal S1x1x1030x64 .bf16) (i j : Fin 1030) : EReal :=
  Ideal.div (∑ d : Fin 64, q (ix4 (0 : Fin 1) (0 : Fin 1) i d) * k (ix4 (0 : Fin 1) (0 : Fin 1) j d)) wEight

/-- The same with the query block already laid out as a matrix. -/
def rowScore (q : FVec Ideal S1030x64 .bf16) (k : Vec Ideal S1x1x1030x64 .bf16) (i j : Fin 1030) : EReal :=
  Ideal.div (∑ d : Fin 64, q (ix2 i d) * k (ix4 (0 : Fin 1) (0 : Fin 1) j d)) wEight

/-- The softmax along the rows of a score matrix, as the blocks compute it (row maximum from minus infinity, kept
    as a column, subtracted; exponential; row sum, kept as a column, divided by), read at `(i, j)`: the
    specification's softmax of row `i` at `j`. `s` names the matrix's entries. -/
theorem softmaxRows_apply (S : FVec Ideal S1030x1030 .f32) (s : Fin 1030 → Fin 1030 → EReal)
    (hS : ∀ a b, S (ix2 a b) = s a b) (hφ : FKind.Formats .f32)
    (hmax : (0xFF800000#32 : BitVec 32) = 0xFF800000#32) (hadd : (0x00000000#32 : BitVec 32) = 0x00000000#32)
    (i j : Fin 1030) :
    divf
      (exp (subf S (broadcastTo S1030x1030 (shapeCast S1030x1
        (multiReduction .maximumf [1] S1030 S 0xFF800000#32 reduces_S1030x1030_S1030 hφ hmax)
        shapeCasts_S1030_S1030x1) broadcasts_S1030x1_S1030x1030)))
      (broadcastTo S1030x1030 (shapeCast S1030x1
        (multiReduction .add [1] S1030
          (exp (subf S (broadcastTo S1030x1030 (shapeCast S1030x1
            (multiReduction .maximumf [1] S1030 S 0xFF800000#32 reduces_S1030x1030_S1030 hφ hmax)
            shapeCasts_S1030_S1030x1) broadcasts_S1030x1_S1030x1030)))
          0x00000000#32 reduces_S1030x1030_S1030 hφ hadd)
        shapeCasts_S1030_S1030x1) broadcasts_S1030x1_S1030x1030)
      (ix2 i j) = softmax (s i) j := by
  simp only [divf_apply, exp_apply, subf_apply, broadcastTo_a1_ab_apply, shapeCast_a_a1_apply]
  rw [laneSum_apply, laneMax_apply]
  simp only [exp_apply, subf_apply, broadcastTo_a1_ab_apply, shapeCast_a_a1_apply]
  rw [laneMax_apply]
  simp only [hS]
  rfl

/-- Entry `(a, b)` of the first head's score matrix: the matrix product of the query block with the transposed key
    block, scaled by one eighth. -/
theorem blockScore_apply (v0 v2 : Vec Ideal S1x1x1030x64 .bf16) (a b : Fin 1030) :
    mulf
      (matmul dot_S1030x64_S64x1030_S1030x1030_1_0_0_1_n_n none
        (shapeCast S1030x64 v0 shapeCasts_S1x1x1030x64_S1030x64 : FVec Ideal S1030x64 .bf16)
        (transpose S64x1030 [1, 0] (shapeCast S1030x64 v2 shapeCasts_S1x1x1030x64_S1030x64 : FVec Ideal S1030x64 .bf16)
          transposes_S1030x64_p1_0_S64x1030)
        (constant (F := Ideal) S1030x1030 .f32 0x00000000#32))
      (broadcast S1030x1030 (Scalar.ofBits (F := Ideal) .f32 0x3E000000#32)) (ix2 a b) = blockScore v0 v2 a b := by
  rw [mulf_apply, broadcast_apply, matmul_plain_apply dot_S1030x64_S64x1030_S1030x1030_1_0_0_1_n_n rfl]
  refine (mul_eighth _).trans ?_
  unfold blockScore
  refine congrArg (Ideal.div · wEight) (Finset.sum_congr rfl fun d _ => ?_)
  rw [transpose_ix2_apply, shapeCast_11ab_ab_apply, shapeCast_11ab_ab_apply]

/-- The same for the second head, whose query block is already a matrix. -/
theorem rowScore_apply (v26 : FVec Ideal S1030x64 .bf16) (v27 : Vec Ideal S1x1x1030x64 .bf16) (a b : Fin 1030) :
    mulf
      (matmul dot_S1030x64_S64x1030_S1030x1030_1_0_0_1_n_n none v26
        (transpose S64x1030 [1, 0] (shapeCast S1030x64 v27 shapeCasts_S1x1x1030x64_S1030x64 : FVec Ideal S1030x64 .bf16)
          transposes_S1030x64_p1_0_S64x1030)
        (constant (F := Ideal) S1030x1030 .f32 0x00000000#32))
      (broadcast S1030x1030 (Scalar.ofBits (F := Ideal) .f32 0x3E000000#32)) (ix2 a b) = rowScore v26 v27 a b := by
  rw [mulf_apply, broadcast_apply, matmul_plain_apply dot_S1030x64_S64x1030_S1030x1030_1_0_0_1_n_n rfl]
  refine (mul_eighth _).trans ?_
  unfold rowScore
  refine congrArg (Ideal.div · wEight) (Finset.sum_congr rfl fun d _ => ?_)
  rw [transpose_ix2_apply, shapeCast_11ab_ab_apply]

/-- The first head's attention weights at `(i, j)`. -/
theorem k2_pay4_apply (v0 v2 : Vec Ideal S1x1x1030x64 .bf16) (i j : Fin 1030) :
    k2_pay4 (F := Ideal) v0 v2 (ix2 i j) = softmax (blockScore v0 v2 i) j := by
  unfold k2_pay4
  exact softmaxRows_apply _ (blockScore v0 v2) (blockScore_apply v0 v2) _ _ _ i j

/-- The second head's attention weights at `(i, j)`. -/
theorem k2_pay1_apply (v26 : FVec Ideal S1030x64 .bf16) (v27 : Vec Ideal S1x1x1030x64 .bf16) (i j : Fin 1030) :
    k2_pay1 (F := Ideal) v26 v27 (ix2 i j) = softmax (rowScore v26 v27 i) j := by
  unfold k2_pay1
  exact softmaxRows_apply _ (rowScore v26 v27) (rowScore_apply v26 v27) _ _ _ i j

/-- The stored weights of the first head. -/
theorem k2_pay5_apply (v0 v2 : Vec Ideal S1x1x1030x64 .bf16) (i j : Fin 1030) :
    k2_pay5 (F := Ideal) v0 v2 (ix4 (0 : Fin 1) (0 : Fin 1) i j) = softmax (blockScore v0 v2 i) j := by
  unfold k2_pay5
  rw [shapeCast_ab_11ab_apply, k2_pay4_apply]

/-- The first head's context at `(i, d)`: the weights' combination of the value rows. -/
theorem k2_pay6_apply (v0 v2 v4 : Vec Ideal S1x1x1030x64 .bf16) (i : Fin 1030) (d : Fin 64) :
    k2_pay6 (F := Ideal) v0 v2 v4 (ix2 i d)
      = ∑ j : Fin 1030, softmax (blockScore v0 v2 i) j * v4 (ix4 (0 : Fin 1) (0 : Fin 1) j d) := by
  unfold k2_pay6
  rw [truncf_apply, matmul_plain_apply dot_S1030x1030_S1030x64_S1030x64_1_0_0_1_n_n rfl]
  refine Finset.sum_congr rfl fun j _ => ?_
  rw [truncf_apply, k2_pay4_apply, shapeCast_11ab_ab_apply]

/-- The second head's query block as a matrix. -/
theorem k2_pay7_apply (v25 : Vec Ideal S1x1x1030x64 .bf16) (i : Fin 1030) (d : Fin 64) :
    k2_pay7 (F := Ideal) v25 (ix2 i d) = v25 (ix4 (0 : Fin 1) (0 : Fin 1) i d) := by
  unfold k2_pay7
  rw [shapeCast_11ab_ab_apply]

/-- The stored weights of the second head. -/
theorem k2_pay2_apply (v26 : FVec Ideal S1030x64 .bf16) (v27 : Vec Ideal S1x1x1030x64 .bf16) (i j : Fin 1030) :
    k2_pay2 (F := Ideal) v26 v27 (ix4 (0 : Fin 1) (0 : Fin 1) i j) = softmax (rowScore v26 v27 i) j := by
  unfold k2_pay2
  rw [shapeCast_ab_11ab_apply, k2_pay1_apply]

/-- The stored context row: lanes 0 … 63 are the first head's context, lanes 64 … 127 the second head's, the
    weights' combination of its value rows. -/
theorem k2_pay3_apply (v24 v26 : FVec Ideal S1030x64 .bf16) (v27 v29 : Vec Ideal S1x1x1030x64 .bf16) (i : Fin 1030)
    (e : Fin 128) :
    k2_pay3 (F := Ideal) v24 v26 v27 v29 (ix3 (0 : Fin 1) i e)
      = if h : e.val < 64 then v24 (ix2 i ⟨e.val, h⟩)
        else ∑ j : Fin 1030, softmax (rowScore v26 v27 i) j * v29 (ix4 (0 : Fin 1) (0 : Fin 1) j ⟨e.val - 64, by omega⟩) := by
  unfold k2_pay3
  rw [shapeCast_ab_1ab_apply]
  by_cases h : e.val < 64
  · rw [dif_pos h]
    exact concatenate_pair_apply_left (t := S1030x128) (s₁ := S1030x64) (s₂ := S1030x64) (1 : Fin 2) _ _
      concatenates_S1030x64_S1030x64_S1030x128_d1 (ix2 i e) rfl (ix2 i (⟨e.val, h⟩ : Fin 64)) (fun b => by
        match b with
        | ⟨0, _⟩ => rfl
        | ⟨1, _⟩ => rfl)
  · rw [dif_neg h]
    refine (concatenate_pair_apply_right (t := S1030x128) (s₁ := S1030x64) (s₂ := S1030x64) (1 : Fin 2) _ _
      concatenates_S1030x64_S1030x64_S1030x128_d1 (ix2 i e) rfl rfl (ix2 i (⟨e.val - 64, by omega⟩ : Fin 64)) (fun b hb => by
        match b, hb with
        | ⟨0, _⟩, _ => rfl
        | ⟨1, _⟩, hb => exact absurd rfl hb)
      (by show e.val - 64 + 64 = e.val; omega)).trans ?_
    rw [truncf_apply, matmul_plain_apply dot_S1030x1030_S1030x64_S1030x64_1_0_0_1_n_n rfl]
    refine Finset.sum_congr rfl fun j _ => ?_
    rw [truncf_apply, k2_pay1_apply, shapeCast_11ab_ab_apply]

end Cert.Attn.Pay

end
-- ==== Proof.ValAttn.lean ====
/-
  The attention region, read as two functions of its three arrays (queries, keys, values, each [8, 16, 1030, 64],
  head-major). The weights array [8, 16, 1030, 1030] ends holding, at (n, h, i, j), the softmax over j of the
  scores (∑ over the 64 lanes of query (n, h, i, ·) · key (n, h, j, ·)) / 8. The context array [8, 1030, 1024]
  ends holding, at (n, i, e), the weights of head e / 64 combined with lane e % 64 of that head's values.
  Grid point t is batch entry t / 8 and head pair t % 8: an input block's head hh is head 2 (t % 8) + hh of the
  array; the weights block is the pair's two heads; the context block is columns 128 (t % 8) … + 127.
-/
import proofs.«122657_j28930899706120_2_alg».proof.Proof.RegAttn
import proofs.«122657_j28930899706120_2_alg».proof.Proof.PayAttn
import proofs.«122657_j28930899706120_2_alg».proof.Proof.ValOut
import Idealize.ShloMosaic.Lib.Pipeline.Value
import Idealize.ShloMosaic.Lib.ValueIdx

set_option maxRecDepth 16384

noncomputable section

namespace Cert.KernelIdeal.Gen.Hand

open Idealize.ShloMosaic Idealize.ShloMosaic.TcCoe Idealize.ShloMosaic.ValueIdx Idealize.SL.Sem
open Idealize.ShloMosaic.Pipeline (Dat)
open Cert.Attn Cert.Attn.Pay

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The scores of query position `i` in head `h` of batch entry `n`, as a row over the key positions. -/
def scoreRow (q k : S8x16x1030x64.Idx → EReal) (n : Fin 8) (h : Fin 16) (i : Fin 1030) (j : Fin 1030) : EReal :=
  Ideal.div (∑ d : Fin 64, q (ix4 n h i d) * k (ix4 n h j d)) wEight

/-- The weights array as a function of the queries and the keys. -/
def attnG (q k : S8x16x1030x64.Idx → EReal) : S8x16x1030x1030.Idx → EReal :=
  fun i => softmax (scoreRow q k (i 0) (i 1) (i 2)) (i 3)

/-- The context at plain coordinates: column `e` is head `e / 64`, lane `e % 64`. -/
def ctxAt (q k v : S8x16x1030x64.Idx → EReal) (n : Fin 8) (l : Fin 1030) (e : Fin 1024) : EReal :=
  ∑ j : Fin 1030, softmax (scoreRow q k n ⟨e.val / 64, by omega⟩ l) j * v (ix4 n ⟨e.val / 64, by omega⟩ j ⟨e.val % 64, by omega⟩)

/-- The context array as a function of the queries, the keys and the values. -/
def ctxG (q k v : S8x16x1030x64.Idx → EReal) : S8x1030x1024.Idx → EReal :=
  fun i => ctxAt q k v (i 0) (i 1) (i 2)

theorem N2' : cfg2.N = 64 := N_2

/-- Grid point `t`: batch entry `t / 8`, head pair `t % 8`. -/
def batch2 (t : Fin cfg2.N) : Fin 8 := ⟨t.val / 8, by have h : t.val < 64 := lt_of_lt_of_eq t.isLt N2'; omega⟩
def pair2 (t : Fin cfg2.N) : Fin 8 := ⟨t.val % 8, by omega⟩
/-- Head `hh` of the pair at head pair `p`. -/
def headOf (p : Fin 8) (hh : Fin 2) : Fin 16 := ⟨2 * p.val + hh.val, by omega⟩

/-- Where the windows' blocks sit at point `t`. -/
theorem idx_facts2 : ∀ t : Fin cfg2.N,
    win2_0.index t (0 : Fin 4) = t.val / 8 ∧ win2_0.index t (1 : Fin 4) = t.val % 8 ∧ win2_0.index t (2 : Fin 4) = 0 ∧ win2_0.index t (3 : Fin 4) = 0
    ∧ win2_1.index t (0 : Fin 4) = t.val / 8 ∧ win2_1.index t (1 : Fin 4) = t.val % 8 ∧ win2_1.index t (2 : Fin 4) = 0 ∧ win2_1.index t (3 : Fin 4) = 0
    ∧ win2_2.index t (0 : Fin 4) = t.val / 8 ∧ win2_2.index t (1 : Fin 4) = t.val % 8 ∧ win2_2.index t (2 : Fin 4) = 0 ∧ win2_2.index t (3 : Fin 4) = 0
    ∧ win2_3.index t (0 : Fin 3) = t.val / 8 ∧ win2_3.index t (1 : Fin 3) = 0 ∧ win2_3.index t (2 : Fin 3) = t.val % 8
    ∧ win2_4.index t (0 : Fin 4) = t.val / 8 ∧ win2_4.index t (1 : Fin 4) = t.val % 8 ∧ win2_4.index t (2 : Fin 4) = 0 ∧ win2_4.index t (3 : Fin 4) = 0 :=
  (by decide +kernel : ∀ t : Fin grid2.N, _)

/-! ## A head's piece of an input block -/

/-- The first head's piece of an input block, at (0, 0, i, d), is the block at (0, 0, i, d). -/
theorem ld_h0 (x : Vec Ideal S1x2x1030x64 .bf16) (i : Fin 1030) (d : Fin 64) :
    View.ld x r2_h0 (ix4 (0 : Fin 1) (0 : Fin 1) i d) = x (ix4 (0 : Fin 1) (0 : Fin 2) i d) := by
  show x (r2_h0.emb (ix4 (0 : Fin 1) (0 : Fin 1) i d)) = _
  refine congrArg x (funext fun a => Fin.ext ?_)
  rw [Rect.emb_apply]
  match a with
  | ⟨0, _⟩ => show 0 + 1 * 0 = 0; omega
  | ⟨1, _⟩ => show 0 + 1 * 0 = 0; omega
  | ⟨2, _⟩ => show 0 + 1 * i.val = i.val; omega
  | ⟨3, _⟩ => show 0 + 1 * d.val = d.val; omega

/-- The second head's piece of an input block, at (0, 0, i, d), is the block at (0, 1, i, d). -/
theorem ld_h1 (x : Vec Ideal S1x2x1030x64 .bf16) (i : Fin 1030) (d : Fin 64) :
    View.ld x r2_h1 (ix4 (0 : Fin 1) (0 : Fin 1) i d) = x (ix4 (0 : Fin 1) (1 : Fin 2) i d) := by
  show x (r2_h1.emb (ix4 (0 : Fin 1) (0 : Fin 1) i d)) = _
  refine congrArg x (funext fun a => Fin.ext ?_)
  rw [Rect.emb_apply]
  match a with
  | ⟨0, _⟩ => show 0 + 1 * 0 = 0; omega
  | ⟨1, _⟩ => show 1 + 1 * 0 = 1; omega
  | ⟨2, _⟩ => show 0 + 1 * i.val = i.val; omega
  | ⟨3, _⟩ => show 0 + 1 * d.val = d.val; omega

/-- A head's half of the weights block: its entry (0, 0, i, j) sits at (0, hh, i, j) of the block. -/
theorem emb_p0 (i j : Fin 1030) : r2_p0.emb (ix4 (0 : Fin 1) (0 : Fin 1) i j) = (ix4 (0 : Fin 1) (0 : Fin 2) i j : S1x2x1030x1030.Idx) := by
  refine funext fun a => Fin.ext ?_
  rw [Rect.emb_apply]
  match a with
  | ⟨0, _⟩ => show 0 + 1 * 0 = 0; omega
  | ⟨1, _⟩ => show 0 + 1 * 0 = 0; omega
  | ⟨2, _⟩ => show 0 + 1 * i.val = i.val; omega
  | ⟨3, _⟩ => show 0 + 1 * j.val = j.val; omega
theorem emb_p1 (i j : Fin 1030) : r2_p1.emb (ix4 (0 : Fin 1) (0 : Fin 1) i j) = (ix4 (0 : Fin 1) (1 : Fin 2) i j : S1x2x1030x1030.Idx) := by
  refine funext fun a => Fin.ext ?_
  rw [Rect.emb_apply]
  match a with
  | ⟨0, _⟩ => show 0 + 1 * 0 = 0; omega
  | ⟨1, _⟩ => show 1 + 1 * 0 = 1; omega
  | ⟨2, _⟩ => show 0 + 1 * i.val = i.val; omega
  | ⟨3, _⟩ => show 0 + 1 * j.val = j.val; omega

/-! ## The body's two results at one entry, from what the loaded blocks are in terms of the arrays -/

section Point

variable (x0 x1 x2 : Vec Ideal S1x2x1030x64 .bf16) (q k v : S8x16x1030x64.Idx → EReal) (n p : Fin 8)
  (h0 : ∀ (hh : Fin 2) (i : Fin 1030) (d : Fin 64), x0 (ix4 (0 : Fin 1) hh i d) = q (ix4 n (headOf p hh) i d))
  (h1 : ∀ (hh : Fin 2) (i : Fin 1030) (d : Fin 64), x1 (ix4 (0 : Fin 1) hh i d) = k (ix4 n (headOf p hh) i d))
  (h2 : ∀ (hh : Fin 2) (i : Fin 1030) (d : Fin 64), x2 (ix4 (0 : Fin 1) hh i d) = v (ix4 n (headOf p hh) i d))

include h0 h1 in
/-- The first head's scores, from the blocks' first pieces. -/
theorem blockScore_eq (i j : Fin 1030) :
    blockScore (View.ld x0 r2_h0) (View.ld x1 r2_h0) i j = scoreRow q k n (headOf p 0) i j := by
  unfold blockScore scoreRow
  refine congrArg (Ideal.div · wEight) (Finset.sum_congr rfl fun d _ => ?_)
  rw [ld_h0, ld_h0, h0, h1]

include h0 h1 in
/-- The second head's scores, from the blocks' second pieces. -/
theorem rowScore_eq (i j : Fin 1030) :
    rowScore (k2_pay7 (F := Ideal) (View.ld x0 r2_h1)) (View.ld x1 r2_h1) i j = scoreRow q k n (headOf p 1) i j := by
  unfold rowScore scoreRow
  refine congrArg (Ideal.div · wEight) (Finset.sum_congr rfl fun d _ => ?_)
  rw [k2_pay7_apply, ld_h1, ld_h1, h0, h1]

/-- The weights block as a function of the arrays: entry (0, hh, i, j) is the softmax of head `2p + hh`'s scores. -/
def blockAttn (q k : S8x16x1030x64.Idx → EReal) (n p : Fin 8) : S1x2x1030x1030.Idx → EReal :=
  fun y => softmax (scoreRow q k n (headOf p (y 1)) (y 2)) (y 3)

include h0 h1 in
/-- What the body leaves in the weights block. -/
theorem out2_4_apply (y : S1x2x1030x1030.Idx) : out2_4 (F := Ideal) x0 x1 x2 y = blockAttn q k n p y := by
  unfold out2_4
  refine View.canon_apply_of_pieces (Val := Elt Ideal) (e := .f32) (blockAttn q k n p) _ ?_ y (cover2_4 _ _ y)
  intro pc hpc
  rcases List.mem_cons.mp hpc with rfl | hpc
  · have key : ∀ x : S1x1x1030x1030.Idx, k2_pay2 (F := Ideal) (k2_pay7 (View.ld x0 r2_h1)) (View.ld x1 r2_h1) x = blockAttn q k n p (r2_p1.emb x) := by
      intro x
      obtain ⟨a, b, i, j, rfl⟩ : ∃ (a : Fin 1) (b : Fin 1) (i : Fin 1030) (j : Fin 1030), x = ix4 a b i j := ⟨x 0, x 1, x 2, x 3, eq_ix4 x⟩
      obtain rfl : a = 0 := Subsingleton.elim a 0
      obtain rfl : b = 0 := Subsingleton.elim b 0
      rw [k2_pay2_apply, emb_p1]
      show softmax _ j = softmax (scoreRow q k n (headOf p 1) i) j
      exact congrArg (fun s => softmax s j) (funext fun j' => rowScore_eq x0 x1 q k n p h0 h1 i j')
    exact fun x => key x
  · rcases List.mem_singleton.mp hpc with rfl
    have key : ∀ x : S1x1x1030x1030.Idx, k2_pay5 (F := Ideal) (View.ld x0 r2_h0) (View.ld x1 r2_h0) x = blockAttn q k n p (r2_p0.emb x) := by
      intro x
      obtain ⟨a, b, i, j, rfl⟩ : ∃ (a : Fin 1) (b : Fin 1) (i : Fin 1030) (j : Fin 1030), x = ix4 a b i j := ⟨x 0, x 1, x 2, x 3, eq_ix4 x⟩
      obtain rfl : a = 0 := Subsingleton.elim a 0
      obtain rfl : b = 0 := Subsingleton.elim b 0
      rw [k2_pay5_apply, emb_p0]
      show softmax _ j = softmax (scoreRow q k n (headOf p 0) i) j
      exact congrArg (fun s => softmax s j) (funext fun j' => blockScore_eq x0 x1 q k n p h0 h1 i j')
    exact fun x => key x

include h0 h1 h2 in
/-- What the body leaves in the context block: column `e` of the block is column `128 p + e` of the context. -/
theorem out2_3_apply (i : Fin 1030) (e : Fin 128) :
    out2_3 (F := Ideal) x0 x1 x2 (ix3 (0 : Fin 1) i e) = ctxAt q k v n i ⟨128 * p.val + e.val, by omega⟩ := by
  unfold out2_3
  rw [View.canon_unit_zero hz3, k2_pay3_apply]
  unfold ctxAt
  by_cases he : e.val < 64
  · rw [dif_pos he, k2_pay6_apply]
    have hH : (⟨(128 * p.val + e.val) / 64, by omega⟩ : Fin 16) = headOf p 0 := Fin.ext (by show (128 * p.val + e.val) / 64 = 2 * p.val + 0; omega)
    have hL : (⟨(128 * p.val + e.val) % 64, by omega⟩ : Fin 64) = ⟨e.val, he⟩ := Fin.ext (by show (128 * p.val + e.val) % 64 = e.val; omega)
    refine Finset.sum_congr rfl fun j _ => ?_
    rw [ld_h0, h2]
    show softmax (blockScore (View.ld x0 r2_h0) (View.ld x1 r2_h0) i) j * v (ix4 n (headOf p 0) j ⟨e.val, he⟩) = _
    rw [show blockScore (View.ld x0 r2_h0) (View.ld x1 r2_h0) i = scoreRow q k n (headOf p 0) i from funext fun j' => blockScore_eq x0 x1 q k n p h0 h1 i j']
    simp only [hH, hL]
  · rw [dif_neg he]
    have hH : (⟨(128 * p.val + e.val) / 64, by omega⟩ : Fin 16) = headOf p 1 := Fin.ext (by show (128 * p.val + e.val) / 64 = 2 * p.val + 1; omega)
    have hL : (⟨(128 * p.val + e.val) % 64, by omega⟩ : Fin 64) = ⟨e.val - 64, by omega⟩ := Fin.ext (by show (128 * p.val + e.val) % 64 = e.val - 64; omega)
    refine Finset.sum_congr rfl fun j _ => ?_
    rw [ld_h1, h2]
    rw [show rowScore (k2_pay7 (F := Ideal) (View.ld x0 r2_h1)) (View.ld x1 r2_h1) i = scoreRow q k n (headOf p 1) i from funext fun j' => rowScore_eq x0 x1 q k n p h0 h1 i j']
    simp only [hH, hL]

end Point

/-! ## The loaded blocks in terms of the arrays -/

/-- The query block at point `t`: its head `hh` is head `2 (t % 8) + hh` of batch entry `t / 8`. -/
theorem iblk2_0_apply (c : Dev nD) (t : Fin cfg2.N) (hh : Fin 2) (i : Fin 1030) (d : Fin 64) :
    (iblk2 V c 0 t : Vec Ideal S1x2x1030x64 .bf16) (ix4 (0 : Fin 1) hh i d)
      = (V c main_v11 : S8x16x1030x64.Idx → EReal) (ix4 (batch2 t) (headOf (pair2 t) hh) i d) := by
  obtain ⟨a0, a1, a2, a3, b0, b1, b2, b3, c0, c1, c2, c3, -⟩ := idx_facts2 t
  unfold iblk2
  rw [View.read_apply]
  refine congrArg (V c main_v11 : S8x16x1030x64.Idx → EReal) (funext fun a => Fin.ext ?_)
  match a with
  | ⟨0, _⟩ => show win2_0.index t (0 : Fin 4) * 1 + 1 * 0 = t.val / 8; omega
  | ⟨1, _⟩ => show win2_0.index t (1 : Fin 4) * 2 + 1 * hh.val = 2 * (t.val % 8) + hh.val; omega
  | ⟨2, _⟩ => show win2_0.index t (2 : Fin 4) * 1030 + 1 * i.val = i.val; omega
  | ⟨3, _⟩ => show win2_0.index t (3 : Fin 4) * 64 + 1 * d.val = d.val; omega

/-- The key block at point `t`: its head `hh` is head `2 (t % 8) + hh` of batch entry `t / 8`. -/
theorem iblk2_1_apply (c : Dev nD) (t : Fin cfg2.N) (hh : Fin 2) (i : Fin 1030) (d : Fin 64) :
    (iblk2 V c 1 t : Vec Ideal S1x2x1030x64 .bf16) (ix4 (0 : Fin 1) hh i d)
      = (V c main_v14 : S8x16x1030x64.Idx → EReal) (ix4 (batch2 t) (headOf (pair2 t) hh) i d) := by
  obtain ⟨a0, a1, a2, a3, b0, b1, b2, b3, c0, c1, c2, c3, -⟩ := idx_facts2 t
  unfold iblk2
  rw [View.read_apply]
  refine congrArg (V c main_v14 : S8x16x1030x64.Idx → EReal) (funext fun a => Fin.ext ?_)
  match a with
  | ⟨0, _⟩ => show win2_1.index t (0 : Fin 4) * 1 + 1 * 0 = t.val / 8; omega
  | ⟨1, _⟩ => show win2_1.index t (1 : Fin 4) * 2 + 1 * hh.val = 2 * (t.val % 8) + hh.val; omega
  | ⟨2, _⟩ => show win2_1.index t (2 : Fin 4) * 1030 + 1 * i.val = i.val; omega
  | ⟨3, _⟩ => show win2_1.index t (3 : Fin 4) * 64 + 1 * d.val = d.val; omega

/-- The value block at point `t`: its head `hh` is head `2 (t % 8) + hh` of batch entry `t / 8`. -/
theorem iblk2_2_apply (c : Dev nD) (t : Fin cfg2.N) (hh : Fin 2) (i : Fin 1030) (d : Fin 64) :
    (iblk2 V c 2 t : Vec Ideal S1x2x1030x64 .bf16) (ix4 (0 : Fin 1) hh i d)
      = (V c main_v17 : S8x16x1030x64.Idx → EReal) (ix4 (batch2 t) (headOf (pair2 t) hh) i d) := by
  obtain ⟨a0, a1, a2, a3, b0, b1, b2, b3, c0, c1, c2, c3, -⟩ := idx_facts2 t
  unfold iblk2
  rw [View.read_apply]
  refine congrArg (V c main_v17 : S8x16x1030x64.Idx → EReal) (funext fun a => Fin.ext ?_)
  match a with
  | ⟨0, _⟩ => show win2_2.index t (0 : Fin 4) * 1 + 1 * 0 = t.val / 8; omega
  | ⟨1, _⟩ => show win2_2.index t (1 : Fin 4) * 2 + 1 * hh.val = 2 * (t.val % 8) + hh.val; omega
  | ⟨2, _⟩ => show win2_2.index t (2 : Fin 4) * 1030 + 1 * i.val = i.val; omega
  | ⟨3, _⟩ => show win2_2.index t (3 : Fin 4) * 64 + 1 * d.val = d.val; omega

/-! ## What a point writes back, the covers, the arrays -/

/-- The weights block's entry (0, hh, i, j) at point `t` sits at (t / 8, 2 (t % 8) + hh, i, j) of the weights array. -/
theorem emb2_4 (t : Fin cfg2.N) (hh : Fin 2) (i j : Fin 1030) :
    ((cfg2.win 4).blk t).view.emb (ix4 (0 : Fin 1) hh i j) = (ix4 (batch2 t) (headOf (pair2 t) hh) i j : S8x16x1030x1030.Idx) := by
  obtain ⟨-, -, -, -, -, -, -, -, -, -, -, -, -, -, -, e0, e1, e2, e3⟩ := idx_facts2 t
  refine funext fun a => Fin.ext ?_
  match a with
  | ⟨0, _⟩ => show win2_4.index t (0 : Fin 4) * 1 + 1 * 0 = t.val / 8; omega
  | ⟨1, _⟩ => show win2_4.index t (1 : Fin 4) * 2 + 1 * hh.val = 2 * (t.val % 8) + hh.val; omega
  | ⟨2, _⟩ => show win2_4.index t (2 : Fin 4) * 1030 + 1 * i.val = i.val; omega
  | ⟨3, _⟩ => show win2_4.index t (3 : Fin 4) * 1030 + 1 * j.val = j.val; omega

/-- The context block's entry (0, i, e) at point `t` sits at (t / 8, i, 128 (t % 8) + e) of the context array. -/
theorem emb2_3 (t : Fin cfg2.N) (i : Fin 1030) (e : Fin 128) :
    ((cfg2.win 3).blk t).view.emb (ix3 (0 : Fin 1) i e) = (ix3 (batch2 t) i ⟨128 * (pair2 t).val + e.val, by have := (pair2 t).isLt; omega⟩ : S8x1030x1024.Idx) := by
  obtain ⟨-, -, -, -, -, -, -, -, -, -, -, -, e0, e1, e2, -⟩ := idx_facts2 t
  refine funext fun a => Fin.ext ?_
  match a with
  | ⟨0, _⟩ => show win2_3.index t (0 : Fin 3) * 1 + 1 * 0 = t.val / 8; omega
  | ⟨1, _⟩ => show win2_3.index t (1 : Fin 3) * 1030 + 1 * i.val = i.val; omega
  | ⟨2, _⟩ => show win2_3.index t (2 : Fin 3) * 128 + 1 * e.val = 128 * (t.val % 8) + e.val; omega

/-- WHAT POINT `t` WRITES BACK into the weights array is block `t` of `attnG` of the queries and the keys. -/
theorem flushed2_4_eq (c : Dev nD) (t : Fin cfg2.N) :
    (dat2 V c).flushed 4 t = ((cfg2.win 4).blk t).view.read (Elt Ideal) (attnG (V c main_v11) (V c main_v14)) := by
  show (cfg2.win 4).cut (grid2.coords t) ((dat2 V c).after 4 t) = _
  rw [after2_4]
  have key : ∀ y : S1x2x1030x1030.Idx,
      out2_4 (F := Ideal) (iblk2 V c 0 t) (iblk2 V c 1 t) (iblk2 V c 2 t) y
        = attnG (V c main_v11) (V c main_v14) (((cfg2.win 4).blk t).view.emb y) := by
    intro y
    rw [out2_4_apply (iblk2 V c 0 t) (iblk2 V c 1 t) (iblk2 V c 2 t) (V c main_v11) (V c main_v14) (batch2 t) (pair2 t)
      (iblk2_0_apply V c t) (iblk2_1_apply V c t) y]
    obtain ⟨a, hh, i, j, rfl⟩ : ∃ (a : Fin 1) (hh : Fin 2) (i : Fin 1030) (j : Fin 1030), y = ix4 a hh i j := ⟨y 0, y 1, y 2, y 3, eq_ix4 y⟩
    obtain rfl : a = 0 := Subsingleton.elim a 0
    rw [emb2_4]
    rfl
  funext j
  exact key j

/-- WHAT POINT `t` WRITES BACK into the context array is block `t` of `ctxG` of the queries, keys and values. -/
theorem flushed2_3_eq (c : Dev nD) (t : Fin cfg2.N) :
    (dat2 V c).flushed 3 t = ((cfg2.win 3).blk t).view.read (Elt Ideal) (ctxG (V c main_v11) (V c main_v14) (V c main_v17)) := by
  show (cfg2.win 3).cut (grid2.coords t) ((dat2 V c).after 3 t) = _
  rw [after2_3]
  have key : ∀ y : S1x1030x128.Idx,
      out2_3 (F := Ideal) (iblk2 V c 0 t) (iblk2 V c 1 t) (iblk2 V c 2 t) y
        = ctxG (V c main_v11) (V c main_v14) (V c main_v17) (((cfg2.win 3).blk t).view.emb y) := by
    intro y
    obtain ⟨a, i, e, rfl⟩ : ∃ (a : Fin 1) (i : Fin 1030) (e : Fin 128), y = ix3 a i e := ⟨y 0, y 1, y 2, eq_ix3 y⟩
    obtain rfl : a = 0 := Subsingleton.elim a 0
    rw [out2_3_apply (iblk2 V c 0 t) (iblk2 V c 1 t) (iblk2 V c 2 t) (V c main_v11) (V c main_v14) (V c main_v17) (batch2 t) (pair2 t)
      (iblk2_0_apply V c t) (iblk2_1_apply V c t) (iblk2_2_apply V c t) i e, emb2_3]
    rfl
  funext j
  exact key j

theorem mem_blk2_4 (t : Fin cfg2.N) (i : S8x16x1030x1030.Idx) :
    i ∈ ((cfg2.win 4).blk t).view.set ↔ ∀ a : Fin 4, win2_4.index t a * S1x2x1030x1030.size a ≤ (i a).val ∧ (i a).val < win2_4.index t a * S1x2x1030x1030.size a + S1x2x1030x1030.size a := by
  show i ∈ ((View.whole main_v18_1).slice (win2_4.rect t)).set ↔ _
  rw [View.set_slice_whole, Rect.mem_set_unit]
  exact Iff.rfl

theorem mem_blk2_3 (t : Fin cfg2.N) (i : S8x1030x1024.Idx) :
    i ∈ ((cfg2.win 3).blk t).view.set ↔ ∀ a : Fin 3, win2_3.index t a * S1x1030x128.size a ≤ (i a).val ∧ (i a).val < win2_3.index t a * S1x1030x128.size a + S1x1030x128.size a := by
  show i ∈ ((View.whole main_v18_0).slice (win2_3.rect t)).set ↔ _
  rw [View.set_slice_whole, Rect.mem_set_unit]
  exact Iff.rfl

/-- The sixty-four weights blocks tile the weights array: entry (n, h, i, j) is in point `8 n + h / 2`'s block. -/
theorem cover2_4' (i : S8x16x1030x1030.Idx) : ∃ t : Fin cfg2.N, (cfg2.win 4).flush t = true ∧ i ∈ ((cfg2.win 4).blk t).view.set := by
  have hi0 : (i 0).val < 8 := (i 0).isLt
  have hi1 : (i 1).val < 16 := (i 1).isLt
  have hi2 : (i 2).val < 1030 := (i 2).isLt
  have hi3 : (i 3).val < 1030 := (i 3).isLt
  obtain ⟨t, ht⟩ : ∃ t : Fin cfg2.N, t.val = 8 * (i 0).val + (i 1).val / 2 := ⟨⟨8 * (i 0).val + (i 1).val / 2, by rw [N2']; omega⟩, rfl⟩
  refine ⟨t, flush2_4 t, ?_⟩
  rw [mem_blk2_4]
  obtain ⟨-, -, -, -, -, -, -, -, -, -, -, -, -, -, -, e0, e1, e2, e3⟩ := idx_facts2 t
  intro a
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 2 ≤ (i 1).val ∧ (i 1).val < win2_4.index t (1 : Fin 4) * 2 + 2; omega
  | ⟨2, _⟩ => show win2_4.index t (2 : Fin 4) * 1030 ≤ (i 2).val ∧ (i 2).val < win2_4.index t (2 : Fin 4) * 1030 + 1030; omega
  | ⟨3, _⟩ => show win2_4.index t (3 : Fin 4) * 1030 ≤ (i 3).val ∧ (i 3).val < win2_4.index t (3 : Fin 4) * 1030 + 1030; omega

/-- The sixty-four context blocks tile the context array: entry (n, i, e) is in point `8 n + e / 128`'s block. -/
theorem cover2_3' (i : S8x1030x1024.Idx) : ∃ t : Fin cfg2.N, (cfg2.win 3).flush t = true ∧ i ∈ ((cfg2.win 3).blk t).view.set := by
  have hi0 : (i 0).val < 8 := (i 0).isLt
  have hi1 : (i 1).val < 1030 := (i 1).isLt
  have hi2 : (i 2).val < 1024 := (i 2).isLt
  obtain ⟨t, ht⟩ : ∃ t : Fin cfg2.N, t.val = 8 * (i 0).val + (i 2).val / 128 := ⟨⟨8 * (i 0).val + (i 2).val / 128, by rw [N2']; omega⟩, rfl⟩
  refine ⟨t, flush2_3 t, ?_⟩
  rw [mem_blk2_3]
  obtain ⟨-, -, -, -, -, -, -, -, -, -, -, -, e0, e1, e2, -⟩ := idx_facts2 t
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1030 ≤ (i 1).val ∧ (i 1).val < win2_3.index t (1 : Fin 3) * 1030 + 1030; omega
  | ⟨2, _⟩ => show win2_3.index t (2 : Fin 3) * 128 ≤ (i 2).val ∧ (i 2).val < win2_3.index t (2 : Fin 3) * 128 + 128; omega

/-- THE WEIGHTS ARRAY after the region. -/
theorem final2_attn (c : Dev nD) : (dat2 V c).arrAt 4 cfg2.N = attnG (V c main_v11) (V c main_v14) :=
  (dat2 V c).arrAt_eq_of_cover 4 _ (fun t _ => flushed2_4_eq V c t) cover2_4'

/-- THE CONTEXT ARRAY after the region. -/
theorem final2_ctx (c : Dev nD) : (dat2 V c).arrAt 3 cfg2.N = ctxG (V c main_v11) (V c main_v14) (V c main_v17) :=
  (dat2 V c).arrAt_eq_of_cover 3 _ (fun t _ => flushed2_3_eq V c t) cover2_3'

end Cert.KernelIdeal.Gen.Hand

end
-- ==== Proof.PayNorm.lean ====
/-
  The fused normalisation-and-projection blocks, read at one entry: the token row is normalised (mean removed,
  scaled by the reciprocal square root of variance plus epsilon, then gain and bias), and entry `e` of the
  stored row is the normalised row times column `e` of the weight matrix. The two launches differ only in the
  number of token rows of their block (1027 and 3).
-/
import proofs.«122657_j28930899706120_2_alg».proof.Proof.Gen.KernelIdeal.Skeleton
import proofs.«122657_j28930899706120_2_alg».proof.Proof.Spec
import proofs.«122657_j28930899706120_2_alg».proof.Proof.Coords
import proofs.«122657_j28930899706120_2_alg».proof.Proof.LibColumnForms
import Idealize.ShloMosaic.Lib.ValueLayout
import Idealize.ShloMosaic.PureOps.Ideal.Laws

noncomputable section

namespace Cert.Attn.Pay

open Idealize.ShloMosaic Idealize.ShloMosaic.ValueIdx Cert.KernelIdeal Cert.KernelIdeal.Gen Cert.Attn

/-- Push an index through the pointwise operations, the keepdims column casts, the row broadcasts and the
    leading-unit-axis casts. -/
local macro "read_pointwise" : tactic =>
  `(tactic| simp only [truncf_apply, addf_apply, mulf_apply, subf_apply, divf_apply, rsqrt_apply,
    broadcastTo_1b_ab_apply, shapeCast_a_1a_apply, broadcastTo_a1_ab_apply, shapeCast_a_a1_apply, broadcast_apply,
    shapeCast_1ab_ab_apply])

/-- The stored block of the first launch (token rows 0 … 1026) at `(0, r, e)`. -/
theorem k0_pay1_apply (v0 : Vec Ideal S1x1027x1024 .f32) (v18 v19 : Vec Ideal S1024 .f32) (v27 : Vec Ideal S1024x3072 .bf16)
    (r : Fin 1027) (e : Fin 3072) :
    k0_pay1 (F := Ideal) v0 v18 v19 v27 (ix3 (0 : Fin 1) r e)
      = ∑ k : Fin 1024, layerNorm (fun d => v0 (ix3 (0 : Fin 1) r d)) (of1 v18) (of1 v19) k * v27 (ix2 k e) := by
  unfold k0_pay1
  rw [shapeCast_ab_1ab_apply, truncf_apply, matmul_plain_apply dot_S1027x1024_S1024x3072_S1027x3072_1_0_0_1_n_n rfl,
    shapeCast_self]
  refine Finset.sum_congr rfl fun k _ => congrArg (· * v27 (ix2 k e)) ?_
  -- the row's sum, the sum of the centred squares, and the row's sum again inside each centred square,
  -- each read as a sum over the 1024 lanes
  read_pointwise
  rw [laneSum_apply]
  read_pointwise
  rw [laneSum_apply]
  read_pointwise
  rw [laneSum_apply]
  read_pointwise
  rfl

/-- The stored block of the second launch (token rows 1027 … 1029) at `(0, r, e)`. -/
theorem k1_pay1_apply (v0 : Vec Ideal S1x3x1024 .f32) (v18 v19 : Vec Ideal S1024 .f32) (v27 : Vec Ideal S1024x3072 .bf16)
    (r : Fin 3) (e : Fin 3072) :
    k1_pay1 (F := Ideal) v0 v18 v19 v27 (ix3 (0 : Fin 1) r e)
      = ∑ k : Fin 1024, layerNorm (fun d => v0 (ix3 (0 : Fin 1) r d)) (of1 v18) (of1 v19) k * v27 (ix2 k e) := by
  unfold k1_pay1
  rw [shapeCast_ab_1ab_apply, truncf_apply, matmul_plain_apply dot_S3x1024_S1024x3072_S3x3072_1_0_0_1_n_n rfl,
    shapeCast_self]
  refine Finset.sum_congr rfl fun k _ => congrArg (· * v27 (ix2 k e)) ?_
  read_pointwise
  rw [laneSum_apply]
  read_pointwise
  rw [laneSum_apply]
  read_pointwise
  rw [laneSum_apply]
  read_pointwise
  rfl

end Cert.Attn.Pay

end
-- ==== Proof.ValNormA.lean ====
/-
  The first normalise-and-project region, read as one function of its four arrays: at every entry (n, l, e) the
  result array ends holding the sum over k of (the normalised token row (n, l)) at k times the matrix at (k, e).
  Grid point t handles batch entry t: its token block and result block are rows [t] of their arrays, the gain,
  the bias and the matrix are whole; the eight result blocks tile the result array.
-/
import proofs.«122657_j28930899706120_2_alg».proof.Proof.RegNormA
import proofs.«122657_j28930899706120_2_alg».proof.Proof.PayNorm
import proofs.«122657_j28930899706120_2_alg».proof.Proof.ValOut
import Idealize.ShloMosaic.Lib.Pipeline.Value
import Idealize.ShloMosaic.Lib.ValueIdx

set_option maxRecDepth 16384

noncomputable section

namespace Cert.KernelIdeal.Gen.Hand

open Idealize.ShloMosaic Idealize.ShloMosaic.TcCoe Idealize.ShloMosaic.ValueIdx Idealize.SL.Sem
open Idealize.ShloMosaic.Pipeline (Dat)
open Cert.Attn Cert.Attn.Pay

variable (V : (c : Dev nD) → (b : Ref sig .tc) → Buf (Elt Ideal) ((c : Thread nD τ).loc b))

/-- The result array as a function of the token rows, the gain, the bias and the matrix: every row normalised
    (mean removed, scaled by the reciprocal square root of variance plus epsilon, gain and bias applied), times the
    matrix. -/
def normG {rows : Nat} (xs : (⟨3, ![8, rows, 1024]⟩ : Shape).Idx → EReal) (g b : S1024.Idx → EReal)
    (w : S1024x3072.Idx → EReal) : (⟨3, ![8, rows, 3072]⟩ : Shape).Idx → EReal :=
  fun i => ∑ k : Fin 1024, layerNorm (fun d => xs (ix3 (i 0) (i 1) d)) (of1 g) (of1 b) k * w (ix2 k (i 2))

/-- `normG` at plain coordinates. -/
theorem normG_apply {rows : Nat} (xs : (⟨3, ![8, rows, 1024]⟩ : Shape).Idx → EReal) (g b : S1024.Idx → EReal)
    (w : S1024x3072.Idx → EReal) (n : Fin 8) (r : Fin rows) (e : Fin 3072) :
    normG xs g b w (ix3 n r e)
      = ∑ k : Fin 1024, layerNorm (fun d => xs (ix3 n r d)) (of1 g) (of1 b) k * w (ix2 k e) := rfl

/-- Grid point `t` is batch entry `t`. -/
def batch0 (t : Fin cfg0.N) : Fin 8 := ⟨t.val, N_0 ▸ t.isLt⟩

/-- Where the windows' blocks sit at point `t`: the token block and the result block at row `t`, the gain, the bias
    and the matrix at the origin. -/
theorem idx_facts0 : ∀ t : Fin cfg0.N,
    win0_0.index t (0 : Fin 3) = t.val ∧ win0_0.index t (1 : Fin 3) = 0 ∧ win0_0.index t (2 : Fin 3) = 0
    ∧ win0_1.index t (0 : Fin 1) = 0
    ∧ win0_2.index t (0 : Fin 1) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The body's result at one entry, from what the four loaded blocks are in terms of the arrays. -/
theorem point0 (x0 : Vec Ideal S1x1027x1024 .f32) (x1 x2 : Vec Ideal S1024 .f32) (x3 : Vec Ideal S1024x3072 .bf16)
    (xs : S8x1027x1024.Idx → EReal) (g b : S1024.Idx → EReal) (w : S1024x3072.Idx → EReal) (n : Fin 8)
    (h0 : ∀ (r : Fin 1027) (d : Fin 1024), x0 (ix3 (0 : Fin 1) r d) = xs (ix3 n r d))
    (h1 : ∀ d : Fin 1024, x1 (ix1 d) = g (ix1 d))
    (h2 : ∀ d : Fin 1024, x2 (ix1 d) = b (ix1 d))
    (h3 : ∀ (k : Fin 1024) (e : Fin 3072), x3 (ix2 k e) = w (ix2 k e))
    (r : Fin 1027) (e : Fin 3072) :
    k0_pay1 (F := Ideal) x0 x1 x2 x3 (ix3 (0 : Fin 1) r e) = normG xs g b w (ix3 n r e) := by
  rw [k0_pay1_apply, normG_apply]
  have e0 : (fun d => x0 (ix3 (0 : Fin 1) r d)) = fun d => xs (ix3 n r d) := funext fun d => h0 r d
  have e1 : of1 x1 = of1 g := funext fun d => h1 d
  have e2 : of1 x2 = of1 b := funext fun d => h2 d
  rw [e0, e1, e2]
  exact Finset.sum_congr rfl fun k _ => by rw [h3]

/-! ## The loaded blocks in terms of the arrays -/

/-- The token block at point `t` is row `t` of the token array. -/
theorem iblk0_0_apply (c : Dev nD) (t : Fin cfg0.N) (r : Fin 1027) (d : Fin 1024) :
    (iblk0 V c 0 t : Vec Ideal S1x1027x1024 .f32) (ix3 (0 : Fin 1) r d)
      = (V c main_v4 : S8x1027x1024.Idx → EReal) (ix3 (batch0 t) r d) := by
  obtain ⟨e0, e1, e2, -⟩ := idx_facts0 t
  unfold iblk0
  rw [View.read_apply]
  refine congrArg (V c main_v4 : S8x1027x1024.Idx → EReal) (funext fun a => Fin.ext ?_)
  match a with
  | ⟨0, _⟩ => show win0_0.index t (0 : Fin 3) * 1 + 1 * 0 = t.val; omega
  | ⟨1, _⟩ => show win0_0.index t (1 : Fin 3) * 1027 + 1 * r.val = r.val; omega
  | ⟨2, _⟩ => show win0_0.index t (2 : Fin 3) * 1024 + 1 * d.val = d.val; omega

/-- The gain block is the whole gain. -/
theorem iblk0_1_apply (c : Dev nD) (t : Fin cfg0.N) (d : Fin 1024) :
    (iblk0 V c 1 t : Vec Ideal S1024 .f32) (ix1 d) = (V c main_arg9 : S1024.Idx → EReal) (ix1 d) := by
  obtain ⟨-, -, -, e3, -⟩ := idx_facts0 t
  unfold iblk0
  rw [View.read_apply]
  refine congrArg (V c main_arg9 : S1024.Idx → EReal) (funext fun a => Fin.ext ?_)
  match a with
  | ⟨0, _⟩ => show win0_1.index t (0 : Fin 1) * 1024 + 1 * d.val = d.val; omega

/-- The bias block is the whole bias. -/
theorem iblk0_2_apply (c : Dev nD) (t : Fin cfg0.N) (d : Fin 1024) :
    (iblk0 V c 2 t : Vec Ideal S1024 .f32) (ix1 d) = (V c main_arg10 : S1024.Idx → EReal) (ix1 d) := by
  obtain ⟨-, -, -, -, e4, -⟩ := idx_facts0 t
  unfold iblk0
  rw [View.read_apply]
  refine congrArg (V c main_arg10 : S1024.Idx → EReal) (funext fun a => Fin.ext ?_)
  match a with
  | ⟨0, _⟩ => show win0_2.index t (0 : Fin 1) * 1024 + 1 * d.val = d.val; omega

/-- The matrix block is the whole matrix. -/
theorem iblk0_3_apply (c : Dev nD) (t : Fin cfg0.N) (k : Fin 1024) (e : Fin 3072) :
    (iblk0 V c 3 t : Vec Ideal S1024x3072 .bf16) (ix2 k e) = (V c main_v1 : S1024x3072.Idx → EReal) (ix2 k e) := by
  obtain ⟨-, -, -, -, -, e5, e6, -⟩ := idx_facts0 t
  unfold iblk0
  rw [View.read_apply]
  refine congrArg (V c main_v1 : S1024x3072.Idx → EReal) (funext fun a => Fin.ext ?_)
  match a with
  | ⟨0, _⟩ => show win0_3.index t (0 : Fin 2) * 1024 + 1 * k.val = k.val; omega
  | ⟨1, _⟩ => show win0_3.index t (1 : Fin 2) * 3072 + 1 * e.val = e.val; omega

/-! ## What a point writes back, the cover, the array -/

/-- The result block's entry (0, r, e) at point `t` sits at (t, r, e) of the result array. -/
theorem emb0_4 (t : Fin cfg0.N) (r : Fin 1027) (e : Fin 3072) :
    ((cfg0.win 4).blk t).view.emb (ix3 (0 : Fin 1) r e) = (ix3 (batch0 t) r e : S8x1027x3072.Idx) := by
  obtain ⟨-, -, -, -, -, -, -, e7, e8, e9⟩ := idx_facts0 t
  refine funext fun a => Fin.ext ?_
  match a with
  | ⟨0, _⟩ => show win0_4.index t (0 : Fin 3) * 1 + 1 * 0 = t.val; omega
  | ⟨1, _⟩ => show win0_4.index t (1 : Fin 3) * 1027 + 1 * r.val = r.val; omega
  | ⟨2, _⟩ => show win0_4.index t (2 : Fin 3) * 3072 + 1 * e.val = e.val; omega

/-- WHAT POINT `t` WRITES BACK is block `t` of `normG` of the arrays as the region finds them. -/
theorem flushed0_eq (c : Dev nD) (t : Fin cfg0.N) :
    (dat0 V c).flushed 4 t = ((cfg0.win 4).blk t).view.read (Elt Ideal)
      (normG (V c main_v4) (V c main_arg9) (V c main_arg10) (V c main_v1)) := by
  show (cfg0.win 4).cut (grid0.coords t) ((dat0 V c).after 4 t) = _
  rw [after0_4]
  unfold out0_4
  rw [View.canon_unit_zero hz3]
  simp only [View.ld_unit_zero (S := S1x1027x1024) hz3, View.ld_unit_zero (S := S1024x3072) hz2, View.ld_unit_zero (S := S1024) hz1]
  have key : ∀ y : S1x1027x3072.Idx,
      k0_pay1 (F := Ideal) (iblk0 V c 0 t) (iblk0 V c 1 t) (iblk0 V c 2 t) (iblk0 V c 3 t) y
        = normG (V c main_v4) (V c main_arg9) (V c main_arg10) (V c main_v1) (((cfg0.win 4).blk t).view.emb y) := by
    intro y
    obtain ⟨a, r, e, rfl⟩ : ∃ (a : Fin 1) (r : Fin 1027) (e : Fin 3072), y = ix3 a r e := ⟨y 0, y 1, y 2, eq_ix3 y⟩
    obtain rfl : a = 0 := Subsingleton.elim a 0
    rw [emb0_4]
    exact point0 _ _ _ _ _ _ _ _ (batch0 t) (iblk0_0_apply V c t) (iblk0_1_apply V c t) (iblk0_2_apply V c t)
      (iblk0_3_apply V c t) r e
  funext j
  exact key j

/-- An index of the result array is in point `t`'s block iff each coordinate is in the block's range on its axis. -/
theorem mem_blk0 (t : Fin cfg0.N) (i : S8x1027x3072.Idx) :
    i ∈ ((cfg0.win 4).blk t).view.set ↔ ∀ a : Fin 3, win0_4.index t a * S1x1027x3072.size a ≤ (i a).val ∧ (i a).val < win0_4.index t a * S1x1027x3072.size a + S1x1027x3072.size a := by
  show i ∈ ((View.whole main_v6).slice (win0_4.rect t)).set ↔ _
  rw [View.set_slice_whole, Rect.mem_set_unit]
  exact Iff.rfl

/-- The eight blocks tile the result array: entry (n, l, e) is in point `n`'s block. -/
theorem cover0 (i : S8x1027x3072.Idx) : ∃ t : Fin cfg0.N, (cfg0.win 4).flush t = true ∧ i ∈ ((cfg0.win 4).blk t).view.set := by
  have hi0 : (i 0).val < 8 := (i 0).isLt
  have hi1 : (i 1).val < 1027 := (i 1).isLt
  have hi2 : (i 2).val < 3072 := (i 2).isLt
  obtain ⟨t, ht⟩ : ∃ t : Fin cfg0.N, t.val = (i 0).val := ⟨⟨(i 0).val, by rw [show cfg0.N = 8 from N_0]; exact hi0⟩, rfl⟩
  refine ⟨t, flush0_4 t, ?_⟩
  rw [mem_blk0]
  obtain ⟨-, -, -, -, -, -, -, e7, e8, e9⟩ := idx_facts0 t
  intro a
  match a with
  | ⟨0, _⟩ => show win0_4.index t (0 : Fin 3) * 1 ≤ (i 0).val ∧ (i 0).val < win0_4.index t (0 : Fin 3) * 1 + 1; rw [e7]; omega
  | ⟨1, _⟩ => show win0_4.index t (1 : Fin 3) * 1027 ≤ (i 1).val ∧ (i 1).val < win0_4.index t (1 : Fin 3) * 1027 + 1027; rw [e8]; omega
  | ⟨2, _⟩ => show win0_4.index t (2 : Fin 3) * 3072 ≤ (i 2).val ∧ (i 2).val < win0_4.index t (2 : Fin 3) * 3072 + 3072; rw [e9]; omega

/-- THE RESULT ARRAY after the region: `normG` of the arrays as the region finds them. -/
theorem final0 (c : Dev nD) : (dat0 V c).arrAt 4 cfg0.N = normG (V c main_v4) (V c main_arg9) (V c main_arg10) (V c main_v1) :=
  (dat0 V c).arrAt_eq_of_cover 4 _ (fun t _ => flushed0_eq V c t) (cover0)

end Cert.KernelIdeal.Gen.Hand

end
-- ==== Proof.ValNormB.lean ====
/-
  The second normalise-and-project region (the last three token positions), read as one function of its four
  arrays, exactly as the first: entry (n, l, e) of the result array ends holding the sum over k of the normalised
  token row (n, l) at k times the matrix at (k, e).
-/
import proofs.«122657_j28930899706120_2_alg».proof.Proof.RegNormB
import proofs.«122657_j28930899706120_2_alg».proof.Proof.ValNormA
import Idealize.ShloMosaic.Lib.Pipeline.Value
import Idealize.ShloMosaic.Lib.ValueIdx

set_option maxRecDepth 16384

noncomputable section

namespace Cert.KernelIdeal.Gen.Hand

open Idealize.ShloMosaic Idealize.ShloMosaic.TcCoe Idealize.ShloMosaic.ValueIdx Idealize.SL.Sem
open Idealize.ShloMosaic.Pipeline (Dat)
open Cert.Attn Cert.Attn.Pay

variable (V : (c : Dev nD) → (b : Ref sig .tc) → Buf (Elt Ideal) ((c : Thread nD τ).loc b))

/-- Grid point `t` is batch entry `t`. -/
def batch1 (t : Fin cfg1.N) : Fin 8 := ⟨t.val, N_1 ▸ t.isLt⟩

/-- Where the windows' blocks sit at point `t`: the token block and the result block at row `t`, the gain, the bias
    and the matrix at the origin. -/
theorem idx_facts1 : ∀ t : Fin cfg1.N,
    win1_0.index t (0 : Fin 3) = t.val ∧ win1_0.index t (1 : Fin 3) = 0 ∧ win1_0.index t (2 : Fin 3) = 0
    ∧ win1_1.index t (0 : Fin 1) = 0
    ∧ win1_2.index t (0 : Fin 1) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The body's result at one entry, from what the four loaded blocks are in terms of the arrays. -/
theorem point1 (x0 : Vec Ideal S1x3x1024 .f32) (x1 x2 : Vec Ideal S1024 .f32) (x3 : Vec Ideal S1024x3072 .bf16)
    (xs : S8x3x1024.Idx → EReal) (g b : S1024.Idx → EReal) (w : S1024x3072.Idx → EReal) (n : Fin 8)
    (h0 : ∀ (r : Fin 3) (d : Fin 1024), x0 (ix3 (0 : Fin 1) r d) = xs (ix3 n r d))
    (h1 : ∀ d : Fin 1024, x1 (ix1 d) = g (ix1 d))
    (h2 : ∀ d : Fin 1024, x2 (ix1 d) = b (ix1 d))
    (h3 : ∀ (k : Fin 1024) (e : Fin 3072), x3 (ix2 k e) = w (ix2 k e))
    (r : Fin 3) (e : Fin 3072) :
    k1_pay1 (F := Ideal) x0 x1 x2 x3 (ix3 (0 : Fin 1) r e) = normG xs g b w (ix3 n r e) := by
  rw [k1_pay1_apply, normG_apply]
  have e0 : (fun d => x0 (ix3 (0 : Fin 1) r d)) = fun d => xs (ix3 n r d) := funext fun d => h0 r d
  have e1 : of1 x1 = of1 g := funext fun d => h1 d
  have e2 : of1 x2 = of1 b := funext fun d => h2 d
  rw [e0, e1, e2]
  exact Finset.sum_congr rfl fun k _ => by rw [h3]

/-! ## The loaded blocks in terms of the arrays -/

/-- The token block at point `t` is row `t` of the token array. -/
theorem iblk1_0_apply (c : Dev nD) (t : Fin cfg1.N) (r : Fin 3) (d : Fin 1024) :
    (iblk1 V c 0 t : Vec Ideal S1x3x1024 .f32) (ix3 (0 : Fin 1) r d)
      = (V c main_v5 : S8x3x1024.Idx → EReal) (ix3 (batch1 t) r d) := by
  obtain ⟨e0, e1, e2, -⟩ := idx_facts1 t
  unfold iblk1
  rw [View.read_apply]
  refine congrArg (V c main_v5 : S8x3x1024.Idx → EReal) (funext fun a => Fin.ext ?_)
  match a with
  | ⟨0, _⟩ => show win1_0.index t (0 : Fin 3) * 1 + 1 * 0 = t.val; omega
  | ⟨1, _⟩ => show win1_0.index t (1 : Fin 3) * 3 + 1 * r.val = r.val; omega
  | ⟨2, _⟩ => show win1_0.index t (2 : Fin 3) * 1024 + 1 * d.val = d.val; omega

/-- The gain block is the whole gain. -/
theorem iblk1_1_apply (c : Dev nD) (t : Fin cfg1.N) (d : Fin 1024) :
    (iblk1 V c 1 t : Vec Ideal S1024 .f32) (ix1 d) = (V c main_arg9 : S1024.Idx → EReal) (ix1 d) := by
  obtain ⟨-, -, -, e3, -⟩ := idx_facts1 t
  unfold iblk1
  rw [View.read_apply]
  refine congrArg (V c main_arg9 : S1024.Idx → EReal) (funext fun a => Fin.ext ?_)
  match a with
  | ⟨0, _⟩ => show win1_1.index t (0 : Fin 1) * 1024 + 1 * d.val = d.val; omega

/-- The bias block is the whole bias. -/
theorem iblk1_2_apply (c : Dev nD) (t : Fin cfg1.N) (d : Fin 1024) :
    (iblk1 V c 2 t : Vec Ideal S1024 .f32) (ix1 d) = (V c main_arg10 : S1024.Idx → EReal) (ix1 d) := by
  obtain ⟨-, -, -, -, e4, -⟩ := idx_facts1 t
  unfold iblk1
  rw [View.read_apply]
  refine congrArg (V c main_arg10 : S1024.Idx → EReal) (funext fun a => Fin.ext ?_)
  match a with
  | ⟨0, _⟩ => show win1_2.index t (0 : Fin 1) * 1024 + 1 * d.val = d.val; omega

/-- The matrix block is the whole matrix. -/
theorem iblk1_3_apply (c : Dev nD) (t : Fin cfg1.N) (k : Fin 1024) (e : Fin 3072) :
    (iblk1 V c 3 t : Vec Ideal S1024x3072 .bf16) (ix2 k e) = (V c main_v3 : S1024x3072.Idx → EReal) (ix2 k e) := by
  obtain ⟨-, -, -, -, -, e5, e6, -⟩ := idx_facts1 t
  unfold iblk1
  rw [View.read_apply]
  refine congrArg (V c main_v3 : S1024x3072.Idx → EReal) (funext fun a => Fin.ext ?_)
  match a with
  | ⟨0, _⟩ => show win1_3.index t (0 : Fin 2) * 1024 + 1 * k.val = k.val; omega
  | ⟨1, _⟩ => show win1_3.index t (1 : Fin 2) * 3072 + 1 * e.val = e.val; omega

/-! ## What a point writes back, the cover, the array -/

/-- The result block's entry (0, r, e) at point `t` sits at (t, r, e) of the result array. -/
theorem emb1_4 (t : Fin cfg1.N) (r : Fin 3) (e : Fin 3072) :
    ((cfg1.win 4).blk t).view.emb (ix3 (0 : Fin 1) r e) = (ix3 (batch1 t) r e : S8x3x3072.Idx) := by
  obtain ⟨-, -, -, -, -, -, -, e7, e8, e9⟩ := idx_facts1 t
  refine funext fun a => Fin.ext ?_
  match a with
  | ⟨0, _⟩ => show win1_4.index t (0 : Fin 3) * 1 + 1 * 0 = t.val; omega
  | ⟨1, _⟩ => show win1_4.index t (1 : Fin 3) * 3 + 1 * r.val = r.val; omega
  | ⟨2, _⟩ => show win1_4.index t (2 : Fin 3) * 3072 + 1 * e.val = e.val; omega

/-- WHAT POINT `t` WRITES BACK is block `t` of `normG` of the arrays as the region finds them. -/
theorem flushed1_eq (c : Dev nD) (t : Fin cfg1.N) :
    (dat1 V c).flushed 4 t = ((cfg1.win 4).blk t).view.read (Elt Ideal)
      (normG (V c main_v5) (V c main_arg9) (V c main_arg10) (V c main_v3)) := by
  show (cfg1.win 4).cut (grid1.coords t) ((dat1 V c).after 4 t) = _
  rw [after1_4]
  unfold out1_4
  rw [View.canon_unit_zero hz3]
  simp only [View.ld_unit_zero (S := S1x3x1024) hz3, View.ld_unit_zero (S := S1024x3072) hz2, View.ld_unit_zero (S := S1024) hz1]
  have key : ∀ y : S1x3x3072.Idx,
      k1_pay1 (F := Ideal) (iblk1 V c 0 t) (iblk1 V c 1 t) (iblk1 V c 2 t) (iblk1 V c 3 t) y
        = normG (V c main_v5) (V c main_arg9) (V c main_arg10) (V c main_v3) (((cfg1.win 4).blk t).view.emb y) := by
    intro y
    obtain ⟨a, r, e, rfl⟩ : ∃ (a : Fin 1) (r : Fin 3) (e : Fin 3072), y = ix3 a r e := ⟨y 0, y 1, y 2, eq_ix3 y⟩
    obtain rfl : a = 0 := Subsingleton.elim a 0
    rw [emb1_4]
    exact point1 _ _ _ _ _ _ _ _ (batch1 t) (iblk1_0_apply V c t) (iblk1_1_apply V c t) (iblk1_2_apply V c t)
      (iblk1_3_apply V c t) r e
  funext j
  exact key j

/-- An index of the result array is in point `t`'s block iff each coordinate is in the block's range on its axis. -/
theorem mem_blk1 (t : Fin cfg1.N) (i : S8x3x3072.Idx) :
    i ∈ ((cfg1.win 4).blk t).view.set ↔ ∀ a : Fin 3, win1_4.index t a * S1x3x3072.size a ≤ (i a).val ∧ (i a).val < win1_4.index t a * S1x3x3072.size a + S1x3x3072.size a := by
  show i ∈ ((View.whole main_v7).slice (win1_4.rect t)).set ↔ _
  rw [View.set_slice_whole, Rect.mem_set_unit]
  exact Iff.rfl

/-- The eight blocks tile the result array: entry (n, l, e) is in point `n`'s block. -/
theorem cover1 (i : S8x3x3072.Idx) : ∃ t : Fin cfg1.N, (cfg1.win 4).flush t = true ∧ i ∈ ((cfg1.win 4).blk t).view.set := by
  have hi0 : (i 0).val < 8 := (i 0).isLt
  have hi1 : (i 1).val < 3 := (i 1).isLt
  have hi2 : (i 2).val < 3072 := (i 2).isLt
  obtain ⟨t, ht⟩ : ∃ t : Fin cfg1.N, t.val = (i 0).val := ⟨⟨(i 0).val, by rw [show cfg1.N = 8 from N_1]; exact hi0⟩, rfl⟩
  refine ⟨t, flush1_4 t, ?_⟩
  rw [mem_blk1]
  obtain ⟨-, -, -, -, -, -, -, e7, e8, e9⟩ := idx_facts1 t
  intro a
  match a with
  | ⟨0, _⟩ => show win1_4.index t (0 : Fin 3) * 1 ≤ (i 0).val ∧ (i 0).val < win1_4.index t (0 : Fin 3) * 1 + 1; rw [e7]; omega
  | ⟨1, _⟩ => show win1_4.index t (1 : Fin 3) * 3 ≤ (i 1).val ∧ (i 1).val < win1_4.index t (1 : Fin 3) * 3 + 3; rw [e8]; omega
  | ⟨2, _⟩ => show win1_4.index t (2 : Fin 3) * 3072 ≤ (i 2).val ∧ (i 2).val < win1_4.index t (2 : Fin 3) * 3072 + 3072; rw [e9]; omega

/-- THE RESULT ARRAY after the region: `normG` of the arrays as the region finds them. -/
theorem final1 (c : Dev nD) : (dat1 V c).arrAt 4 cfg1.N = normG (V c main_v5) (V c main_arg9) (V c main_arg10) (V c main_v3) :=
  (dat1 V c).arrAt_eq_of_cover 4 _ (fun t _ => flushed1_eq V c t) (cover1)

end Cert.KernelIdeal.Gen.Hand

end
-- ==== Proof.HostGlue.lean ====
/-
  The host operations of the kernel program between its four kernel launches, read at an index. Run from any
  buffer contents W, the first stretch lays the three query/key/value weight matrices side by side (twice, one set
  per range of token rows) and cuts the input into its token rows 0..1026 and 1027..1029; the second stacks the two
  projection results along the token axis and lays each of the three column ranges out by head; the third rounds the
  output weight. On the extended reals a rounding is the identity, so each array read at an index is one entry of
  one of the arrays the stretch started from.
-/
import proofs.«122657_j28930899706120_2_alg».proof.Proof.Gen.KernelIdeal.Launch
import proofs.«122657_j28930899706120_2_alg».proof.Proof.Gen.KernelIdeal.Regions
import proofs.«122657_j28930899706120_2_alg».proof.Proof.Coords
import Idealize.ShloMosaic.Lib.StableHlo.Run
import Idealize.ShloMosaic.Lib.Pipeline.Value
import Idealize.ShloMosaic.Lib.ValueIdx
import Idealize.ShloMosaic.Lib.ValueLayout

noncomputable section

namespace Cert.Attn.Glue

open Idealize.ShloMosaic Idealize.ShloMosaic.TcCoe Idealize.ShloMosaic.ValueIdx Cert.KernelIdeal Cert.KernelIdeal.Gen

/-! ## What a stretch does not write -/

/-- A buffer the first stretch does not write keeps its contents. -/
theorem host0_keep (W : Valuation τ sig (Elt Ideal)) (b : Ref sig .tc) (hb : b ∉ hostOps0_W) :
    StableHlo.after hostOps0 W b = W b :=
  StableHlo.after_of_writes_sub hostOps0 _ hostOps0_writes hb

/-- A buffer the second stretch does not write keeps its contents. -/
theorem host2_keep (W : Valuation τ sig (Elt Ideal)) (b : Ref sig .tc) (hb : b ∉ hostOps2_W) :
    StableHlo.after hostOps2 W b = W b :=
  StableHlo.after_of_writes_sub hostOps2 _ hostOps2_writes hb

/-- A buffer the third stretch does not write keeps its contents. -/
theorem host3_keep (W : Valuation τ sig (Elt Ideal)) (b : Ref sig .tc) (hb : b ∉ hostOps3_W) :
    StableHlo.after hostOps3 W b = W b :=
  StableHlo.after_of_writes_sub hostOps3 _ hostOps3_writes hb

/-! ## The third stretch: the output weight, rounded -/

/-- The rounded output weight is the output weight. -/
theorem host3_v19 (W : Valuation τ sig (Elt Ideal)) (i : S1024x1024.Idx) :
    (StableHlo.after hostOps3 W main_v19 : S1024x1024.Idx → EReal) i = (W main_arg7 : S1024x1024.Idx → EReal) i := by
  have e : (StableHlo.after hostOps3 W main_v19 : S1024x1024.Idx → EReal)
      = truncf (F := Ideal) .bf16 (W main_arg7 : (⟨S1024x1024, .f32⟩ : BufTy).Contents (Elt Ideal)) bitsLt_bf16_f32 := by
    simp only [hostOps3]; after_results
  rw [e]; rfl

/-! ## The first stretch: the weights side by side, the input's two ranges of token rows -/

/-- Three square matrices side by side, read at a column: the matrix whose column range holds it. -/
theorem concat3_cols_apply {α : Type} (x1 x2 x3 : S1024x1024.Idx → α)
    (h : Shape.Concatenates [S1024x1024, S1024x1024, S1024x1024] S1024x3072 1) (k : Fin 1024) (e : Fin 3072) :
    concatenate S1024x3072 1 [⟨S1024x1024, x1⟩, ⟨S1024x1024, x2⟩, ⟨S1024x1024, x3⟩] h (ix2 k e)
      = if h1 : e.val < 1024 then x1 (ix2 k ⟨e.val, h1⟩)
        else if h2 : e.val < 2048 then x2 (ix2 k ⟨e.val - 1024, by omega⟩)
        else x3 (ix2 k ⟨e.val - 2048, by omega⟩) := by
  have he := e.isLt
  by_cases h1 : e.val < 1024
  · rw [dif_pos h1]
    refine concatenate_apply_piece 1 [⟨S1024x1024, x1⟩, ⟨S1024x1024, x2⟩, ⟨S1024x1024, x3⟩] h (ix2 k e) 0
      (by show 0 < 3; omega) S1024x1024 x1 rfl rfl 0 rfl (ix2 k ⟨e.val, h1⟩) (fun b => ?_) ?_
    · match b with
      | ⟨0, _⟩ => exact fun _ => rfl
      | ⟨1, _⟩ => exact fun hne => absurd rfl hne
    · show 0 + e.val = e.val; omega
  · rw [dif_neg h1]
    by_cases h2 : e.val < 2048
    · rw [dif_pos h2]
      refine concatenate_apply_piece 1 [⟨S1024x1024, x1⟩, ⟨S1024x1024, x2⟩, ⟨S1024x1024, x3⟩] h (ix2 k e) 1
        (by show 1 < 3; omega) S1024x1024 x2 rfl rfl 1024 rfl (ix2 k ⟨e.val - 1024, by omega⟩) (fun b => ?_) ?_
      · match b with
        | ⟨0, _⟩ => exact fun _ => rfl
        | ⟨1, _⟩ => exact fun hne => absurd rfl hne
      · show 1024 + (e.val - 1024) = e.val; omega
    · rw [dif_neg h2]
      refine concatenate_apply_piece 1 [⟨S1024x1024, x1⟩, ⟨S1024x1024, x2⟩, ⟨S1024x1024, x3⟩] h (ix2 k e) 2
        (by show 2 < 3; omega) S1024x1024 x3 rfl rfl 2048 rfl (ix2 k ⟨e.val - 2048, by omega⟩) (fun b => ?_) ?_
      · match b with
        | ⟨0, _⟩ => exact fun _ => rfl
        | ⟨1, _⟩ => exact fun hne => absurd rfl hne
      · show 2048 + (e.val - 2048) = e.val; omega

/-- The first weight set: columns [0, 1024) are the query weight, [1024, 2048) the key weight, [2048, 3072) the
    value weight. -/
theorem host0_v1 (W : Valuation τ sig (Elt Ideal)) (k : Fin 1024) (e : Fin 3072) :
    (StableHlo.after hostOps0 W main_v1 : S1024x3072.Idx → EReal) (ix2 k e)
      = if h1 : e.val < 1024 then (W main_arg1 : S1024x1024.Idx → EReal) (ix2 k ⟨e.val, h1⟩)
        else if h2 : e.val < 2048 then (W main_arg3 : S1024x1024.Idx → EReal) (ix2 k ⟨e.val - 1024, by omega⟩)
        else (W main_arg5 : S1024x1024.Idx → EReal) (ix2 k ⟨e.val - 2048, by omega⟩) := by
  have e1 : (StableHlo.after hostOps0 W main_v1 : S1024x3072.Idx → EReal)
      = truncf (F := Ideal) .bf16 (concatenate S1024x3072 1 [⟨S1024x1024, (W main_arg1 : S1024x1024.Idx → EReal)⟩,
          ⟨S1024x1024, (W main_arg3 : S1024x1024.Idx → EReal)⟩, ⟨S1024x1024, (W main_arg5 : S1024x1024.Idx → EReal)⟩]
          concatenates_S1024x1024_S1024x1024_S1024x1024_S1024x3072_d1 : (⟨S1024x3072, .f32⟩ : BufTy).Contents (Elt Ideal)) bitsLt_bf16_f32 := by
    simp only [hostOps0]; after_results <;> rfl
  rw [e1]
  exact concat3_cols_apply (W main_arg1 : S1024x1024.Idx → EReal) (W main_arg3 : S1024x1024.Idx → EReal) (W main_arg5 : S1024x1024.Idx → EReal)
    concatenates_S1024x1024_S1024x1024_S1024x1024_S1024x3072_d1 k e

/-- The second weight set, the same three column ranges. -/
theorem host0_v3 (W : Valuation τ sig (Elt Ideal)) (k : Fin 1024) (e : Fin 3072) :
    (StableHlo.after hostOps0 W main_v3 : S1024x3072.Idx → EReal) (ix2 k e)
      = if h1 : e.val < 1024 then (W main_arg2 : S1024x1024.Idx → EReal) (ix2 k ⟨e.val, h1⟩)
        else if h2 : e.val < 2048 then (W main_arg4 : S1024x1024.Idx → EReal) (ix2 k ⟨e.val - 1024, by omega⟩)
        else (W main_arg6 : S1024x1024.Idx → EReal) (ix2 k ⟨e.val - 2048, by omega⟩) := by
  have e1 : (StableHlo.after hostOps0 W main_v3 : S1024x3072.Idx → EReal)
      = truncf (F := Ideal) .bf16 (concatenate S1024x3072 1 [⟨S1024x1024, (W main_arg2 : S1024x1024.Idx → EReal)⟩,
          ⟨S1024x1024, (W main_arg4 : S1024x1024.Idx → EReal)⟩, ⟨S1024x1024, (W main_arg6 : S1024x1024.Idx → EReal)⟩]
          concatenates_S1024x1024_S1024x1024_S1024x1024_S1024x3072_d1 : (⟨S1024x3072, .f32⟩ : BufTy).Contents (Elt Ideal)) bitsLt_bf16_f32 := by
    simp only [hostOps0]; after_results <;> rfl
  rw [e1]
  exact concat3_cols_apply (W main_arg2 : S1024x1024.Idx → EReal) (W main_arg4 : S1024x1024.Idx → EReal) (W main_arg6 : S1024x1024.Idx → EReal)
    concatenates_S1024x1024_S1024x1024_S1024x1024_S1024x3072_d1 k e

/-- Token rows 0..1026 of the input. -/
theorem host0_v4 (W : Valuation τ sig (Elt Ideal)) (n : Fin 8) (r : Fin 1027) (d : Fin 1024) :
    (StableHlo.after hostOps0 W main_v4 : S8x1027x1024.Idx → EReal) (ix3 n r d)
      = (W main_arg0 : S8x1030x1024.Idx → EReal) (ix3 n ⟨r.val, by omega⟩ d) := by
  have e : (StableHlo.after hostOps0 W main_v4 : S8x1027x1024.Idx → EReal)
      = extractStridedSlice S8x1027x1024 ![0, 0, 0] (W main_arg0 : S8x1030x1024.Idx → EReal) slices_S8x1030x1024_S8x1027x1024_0_0_0 := by
    simp only [hostOps0]; after_results
  rw [e]
  refine extractStridedSlice_apply _ _ _ _ _ fun a => ?_
  match a with
  | ⟨0, _⟩ => show n.val = 0 + n.val; omega
  | ⟨1, _⟩ => show r.val = 0 + r.val; omega
  | ⟨2, _⟩ => show d.val = 0 + d.val; omega

/-- Token rows 1027..1029 of the input. -/
theorem host0_v5 (W : Valuation τ sig (Elt Ideal)) (n : Fin 8) (r : Fin 3) (d : Fin 1024) :
    (StableHlo.after hostOps0 W main_v5 : S8x3x1024.Idx → EReal) (ix3 n r d)
      = (W main_arg0 : S8x1030x1024.Idx → EReal) (ix3 n ⟨1027 + r.val, by omega⟩ d) := by
  have e : (StableHlo.after hostOps0 W main_v5 : S8x3x1024.Idx → EReal)
      = extractStridedSlice S8x3x1024 ![0, 1027, 0] (W main_arg0 : S8x1030x1024.Idx → EReal) slices_S8x1030x1024_S8x3x1024_0_1027_0 := by
    simp only [hostOps0]; after_results
  rw [e]
  refine extractStridedSlice_apply _ _ _ _ _ fun a => ?_
  match a with
  | ⟨0, _⟩ => show n.val = 0 + n.val; omega
  | ⟨1, _⟩ => show 1027 + r.val = 1027 + r.val; omega
  | ⟨2, _⟩ => show d.val = 0 + d.val; omega

/-! ## The second stretch: the projections stacked along the token axis, each column range laid out by head -/

/-- The stacked projection result, one of its three column ranges laid out by head: entry (n, h, i, d) is column
    off + 64 h + d of token row i — of the first piece below row 1027, of the second from there on. -/
theorem heads_apply {α : Type} (a : S8x1027x3072.Idx → α) (b : S8x3x3072.Idx → α) (off : Nat)
    (hc : Shape.Concatenates [S8x1027x3072, S8x3x3072] S8x1030x3072 1)
    (hs : S8x1030x3072.Slices ![0, 0, off] S8x1030x1024)
    (hr : S8x1030x1024.ShapeCasts S8x1030x16x64)
    (ht : S8x1030x16x64.Transposes [0, 2, 1, 3] S8x16x1030x64)
    (n : Fin 8) (h : Fin 16) (i : Fin 1030) (d : Fin 64) (c : Fin 3072) (hcol : c.val = off + (h.val * 64 + d.val)) :
    transpose S8x16x1030x64 [0, 2, 1, 3]
        (shapeCast S8x1030x16x64
          (extractStridedSlice S8x1030x1024 ![0, 0, off]
            (concatenate S8x1030x3072 1 [⟨S8x1027x3072, a⟩, ⟨S8x3x3072, b⟩] hc) hs) hr) ht (ix4 n h i d)
      = if hi : i.val < 1027 then a (ix3 n ⟨i.val, hi⟩ c) else b (ix3 n ⟨i.val - 1027, by omega⟩ c) := by
  have hn := n.isLt; have hh := h.isLt; have hi' := i.isLt; have hd := d.isLt
  refine (transpose_apply _ _ ht (ix4 n h i d) (ix4 n i h d) fun q => ?_).trans ?_
  · match q with
    | ⟨0, _⟩ => rfl
    | ⟨1, _⟩ => rfl
    | ⟨2, _⟩ => rfl
    | ⟨3, _⟩ => rfl
  refine (shapeCast_apply _ hr (ix4 n i h d) (ix3 n i ⟨h.val * 64 + d.val, by omega⟩) ?_).trans ?_
  · rw [Shape.rowMajor_val_three, Shape.rowMajor_val_four]
    show (n.val * 1030 + i.val) * 1024 + (h.val * 64 + d.val) = ((n.val * 1030 + i.val) * 16 + h.val) * 64 + d.val
    omega
  refine (extractStridedSlice_apply _ _ hs (ix3 n i ⟨h.val * 64 + d.val, by omega⟩) (ix3 n i c) fun q => ?_).trans ?_
  · match q with
    | ⟨0, _⟩ => show n.val = 0 + n.val; omega
    | ⟨1, _⟩ => show i.val = 0 + i.val; omega
    | ⟨2, _⟩ => show c.val = off + (h.val * 64 + d.val); exact hcol
  by_cases hi : i.val < 1027
  · rw [dif_pos hi]
    refine concatenate_pair_apply_left 1 a b hc (ix3 n i c) rfl (ix3 n ⟨i.val, hi⟩ c) fun q => ?_
    match q with
    | ⟨0, _⟩ => rfl
    | ⟨1, _⟩ => rfl
    | ⟨2, _⟩ => rfl
  · rw [dif_neg hi]
    refine concatenate_pair_apply_right 1 a b hc (ix3 n i c) rfl rfl (ix3 n ⟨i.val - 1027, by omega⟩ c) (fun q => ?_) ?_
    · match q with
      | ⟨0, _⟩ => exact fun _ => rfl
      | ⟨1, _⟩ => exact fun hne => absurd rfl hne
      | ⟨2, _⟩ => exact fun _ => rfl
    · show (i.val - 1027) + 1027 = i.val; omega

/-- The query projection by head: columns [0, 1024) of the stacked result. -/
theorem host2_v11 (W : Valuation τ sig (Elt Ideal)) (n : Fin 8) (h : Fin 16) (i : Fin 1030) (d : Fin 64) :
    (StableHlo.after hostOps2 W main_v11 : S8x16x1030x64.Idx → EReal) (ix4 n h i d)
      = if hi : i.val < 1027 then (W main_v6 : S8x1027x3072.Idx → EReal) (ix3 n ⟨i.val, hi⟩ ⟨h.val * 64 + d.val, by omega⟩)
        else (W main_v7 : S8x3x3072.Idx → EReal) (ix3 n ⟨i.val - 1027, by omega⟩ ⟨h.val * 64 + d.val, by omega⟩) := by
  have e : (StableHlo.after hostOps2 W main_v11 : S8x16x1030x64.Idx → EReal)
      = transpose S8x16x1030x64 [0, 2, 1, 3]
          (shapeCast S8x1030x16x64
            (extractStridedSlice S8x1030x1024 ![0, 0, 0]
              (concatenate S8x1030x3072 1 [⟨S8x1027x3072, (W main_v6 : S8x1027x3072.Idx → EReal)⟩,
                ⟨S8x3x3072, (W main_v7 : S8x3x3072.Idx → EReal)⟩] concatenates_S8x1027x3072_S8x3x3072_S8x1030x3072_d1)
              slices_S8x1030x3072_S8x1030x1024_0_0_0)
            shapeCasts_S8x1030x1024_S8x1030x16x64)
          transposes_S8x1030x16x64_S8x16x1030x64_0_2_1_3 := by
    simp only [hostOps2]; after_results <;> rfl
  rw [e]
  exact heads_apply (W main_v6 : S8x1027x3072.Idx → EReal) (W main_v7 : S8x3x3072.Idx → EReal) 0
    concatenates_S8x1027x3072_S8x3x3072_S8x1030x3072_d1 slices_S8x1030x3072_S8x1030x1024_0_0_0
    shapeCasts_S8x1030x1024_S8x1030x16x64 transposes_S8x1030x16x64_S8x16x1030x64_0_2_1_3 n h i d ⟨h.val * 64 + d.val, by omega⟩
    (by show h.val * 64 + d.val = 0 + (h.val * 64 + d.val); omega)

/-- The key projection by head: columns [1024, 2048) of the stacked result. -/
theorem host2_v14 (W : Valuation τ sig (Elt Ideal)) (n : Fin 8) (h : Fin 16) (i : Fin 1030) (d : Fin 64) :
    (StableHlo.after hostOps2 W main_v14 : S8x16x1030x64.Idx → EReal) (ix4 n h i d)
      = if hi : i.val < 1027 then (W main_v6 : S8x1027x3072.Idx → EReal) (ix3 n ⟨i.val, hi⟩ ⟨1024 + h.val * 64 + d.val, by omega⟩)
        else (W main_v7 : S8x3x3072.Idx → EReal) (ix3 n ⟨i.val - 1027, by omega⟩ ⟨1024 + h.val * 64 + d.val, by omega⟩) := by
  have e : (StableHlo.after hostOps2 W main_v14 : S8x16x1030x64.Idx → EReal)
      = transpose S8x16x1030x64 [0, 2, 1, 3]
          (shapeCast S8x1030x16x64
            (extractStridedSlice S8x1030x1024 ![0, 0, 1024]
              (concatenate S8x1030x3072 1 [⟨S8x1027x3072, (W main_v6 : S8x1027x3072.Idx → EReal)⟩,
                ⟨S8x3x3072, (W main_v7 : S8x3x3072.Idx → EReal)⟩] concatenates_S8x1027x3072_S8x3x3072_S8x1030x3072_d1)
              slices_S8x1030x3072_S8x1030x1024_0_0_1024)
            shapeCasts_S8x1030x1024_S8x1030x16x64)
          transposes_S8x1030x16x64_S8x16x1030x64_0_2_1_3 := by
    simp only [hostOps2]; after_results <;> rfl
  rw [e]
  exact heads_apply (W main_v6 : S8x1027x3072.Idx → EReal) (W main_v7 : S8x3x3072.Idx → EReal) 1024
    concatenates_S8x1027x3072_S8x3x3072_S8x1030x3072_d1 slices_S8x1030x3072_S8x1030x1024_0_0_1024
    shapeCasts_S8x1030x1024_S8x1030x16x64 transposes_S8x1030x16x64_S8x16x1030x64_0_2_1_3 n h i d ⟨1024 + h.val * 64 + d.val, by omega⟩
    (by show 1024 + h.val * 64 + d.val = 1024 + (h.val * 64 + d.val); omega)

/-- The value projection by head: columns [2048, 3072) of the stacked result. -/
theorem host2_v17 (W : Valuation τ sig (Elt Ideal)) (n : Fin 8) (h : Fin 16) (i : Fin 1030) (d : Fin 64) :
    (StableHlo.after hostOps2 W main_v17 : S8x16x1030x64.Idx → EReal) (ix4 n h i d)
      = if hi : i.val < 1027 then (W main_v6 : S8x1027x3072.Idx → EReal) (ix3 n ⟨i.val, hi⟩ ⟨2048 + h.val * 64 + d.val, by omega⟩)
        else (W main_v7 : S8x3x3072.Idx → EReal) (ix3 n ⟨i.val - 1027, by omega⟩ ⟨2048 + h.val * 64 + d.val, by omega⟩) := by
  have e : (StableHlo.after hostOps2 W main_v17 : S8x16x1030x64.Idx → EReal)
      = transpose S8x16x1030x64 [0, 2, 1, 3]
          (shapeCast S8x1030x16x64
            (extractStridedSlice S8x1030x1024 ![0, 0, 2048]
              (concatenate S8x1030x3072 1 [⟨S8x1027x3072, (W main_v6 : S8x1027x3072.Idx → EReal)⟩,
                ⟨S8x3x3072, (W main_v7 : S8x3x3072.Idx → EReal)⟩] concatenates_S8x1027x3072_S8x3x3072_S8x1030x3072_d1)
              slices_S8x1030x3072_S8x1030x1024_0_0_2048)
            shapeCasts_S8x1030x1024_S8x1030x16x64)
          transposes_S8x1030x16x64_S8x16x1030x64_0_2_1_3 := by
    simp only [hostOps2]; after_results <;> rfl
  rw [e]
  exact heads_apply (W main_v6 : S8x1027x3072.Idx → EReal) (W main_v7 : S8x3x3072.Idx → EReal) 2048
    concatenates_S8x1027x3072_S8x3x3072_S8x1030x3072_d1 slices_S8x1030x3072_S8x1030x1024_0_0_2048
    shapeCasts_S8x1030x1024_S8x1030x16x64 transposes_S8x1030x16x64_S8x16x1030x64_0_2_1_3 n h i d ⟨2048 + h.val * 64 + d.val, by omega⟩
    (by show 2048 + h.val * 64 + d.val = 2048 + (h.val * 64 + d.val); omega)

end Cert.Attn.Glue

end
-- ==== Proof.ChainProj.lean ====
/-
  The kernel program's head-major query, key and value arrays, read at an entry, are the specification's
  projections of the program's arguments. Walking back from the second host stretch: the head-major entry
  (n, h, i, d) is column h * 64 + d (plus the column range's offset) of token row i of one of the two
  normalise-and-project results — the first for rows below 1027, the second from there on; each of those is the
  normalised token row times a three-matrix-wide weight; the first host stretch made those weights by laying the
  query, key and value matrices side by side, and the token rows by cutting the input in two.
-/
import proofs.«122657_j28930899706120_2_alg».proof.Proof.Run
import proofs.«122657_j28930899706120_2_alg».proof.Proof.ValNormA
import proofs.«122657_j28930899706120_2_alg».proof.Proof.ValNormB
import proofs.«122657_j28930899706120_2_alg».proof.Proof.HostGlue
import proofs.«122657_j28930899706120_2_alg».proof.Proof.Spec
import proofs.«122657_j28930899706120_2_alg».proof.Proof.Coords

set_option maxRecDepth 16384

noncomputable section

namespace Cert.KernelIdeal.Gen.Hand

open Idealize.ShloMosaic Idealize.ShloMosaic.TcCoe Idealize.ShloMosaic.ValueIdx Idealize.SL.Sem
open Idealize.ShloMosaic.Pipeline (Dat)
open Cert.Attn Cert.Attn.Glue

variable (m : (ℓ : Loc nD τ sig) → Buf (Elt Ideal) ℓ) (ρ : Dev nD → PrngReg)

/-! ## After the first host stretch -/

/-- Token rows 0 … 1026 of the input. -/
theorem V1_v4 (c : Dev nD) (n : Fin 8) (r : Fin 1027) (d : Fin 1024) :
    (V1 m ρ c main_v4 : S8x1027x1024.Idx → EReal) (ix3 n r d)
      = of3 (m ((c : Thread nD τ).loc main_arg0) : S8x1030x1024.Idx → EReal) n ⟨r.val, by omega⟩ d :=
  host0_v4 (W0 m ρ c) n r d

/-- Token rows 1027 … 1029 of the input. -/
theorem V1_v5 (c : Dev nD) (n : Fin 8) (r : Fin 3) (d : Fin 1024) :
    (V1 m ρ c main_v5 : S8x3x1024.Idx → EReal) (ix3 n r d)
      = of3 (m ((c : Thread nD τ).loc main_arg0) : S8x1030x1024.Idx → EReal) n ⟨1027 + r.val, by omega⟩ d :=
  host0_v5 (W0 m ρ c) n r d

/-- The first weight set: the query, key and value matrices for token rows below 1027, side by side. -/
theorem V1_v1 (c : Dev nD) (k : Fin 1024) (e : Fin 3072) :
    (V1 m ρ c main_v1 : S1024x3072.Idx → EReal) (ix2 k e)
      = if h1 : e.val < 1024 then of2 (m ((c : Thread nD τ).loc main_arg1) : S1024x1024.Idx → EReal) k ⟨e.val, h1⟩
        else if h2 : e.val < 2048 then of2 (m ((c : Thread nD τ).loc main_arg3) : S1024x1024.Idx → EReal) k ⟨e.val - 1024, by omega⟩
        else of2 (m ((c : Thread nD τ).loc main_arg5) : S1024x1024.Idx → EReal) k ⟨e.val - 2048, by omega⟩ :=
  host0_v1 (W0 m ρ c) k e

/-- The second weight set: the three matrices for the last three token rows. -/
theorem V1_v3 (c : Dev nD) (k : Fin 1024) (e : Fin 3072) :
    (V1 m ρ c main_v3 : S1024x3072.Idx → EReal) (ix2 k e)
      = if h1 : e.val < 1024 then of2 (m ((c : Thread nD τ).loc main_arg2) : S1024x1024.Idx → EReal) k ⟨e.val, h1⟩
        else if h2 : e.val < 2048 then of2 (m ((c : Thread nD τ).loc main_arg4) : S1024x1024.Idx → EReal) k ⟨e.val - 1024, by omega⟩
        else of2 (m ((c : Thread nD τ).loc main_arg6) : S1024x1024.Idx → EReal) k ⟨e.val - 2048, by omega⟩ :=
  host0_v3 (W0 m ρ c) k e

/-- The gain and the bias are not written by the first host stretch. -/
theorem V1_arg9 (c : Dev nD) : V1 m ρ c main_arg9 = m ((c : Thread nD τ).loc main_arg9) :=
  host0_keep (W0 m ρ c) main_arg9 (by decide)
theorem V1_arg10 (c : Dev nD) : V1 m ρ c main_arg10 = m ((c : Thread nD τ).loc main_arg10) :=
  host0_keep (W0 m ρ c) main_arg10 (by decide)

/-! ## What the second region finds: the first region left its inputs and the other buffers as entered -/

theorem V2_v5 (c : Dev nD) : V2 m ρ c main_v5 = V1 m ρ c main_v5 := W2_of_ne m ρ c main_v5 (by decide)
theorem V2_v3 (c : Dev nD) : V2 m ρ c main_v3 = V1 m ρ c main_v3 := W2_of_ne m ρ c main_v3 (by decide)
theorem V2_arg9 (c : Dev nD) : V2 m ρ c main_arg9 = V1 m ρ c main_arg9 :=
  (W2_arr m ρ c 1).trans (((dat0 (V1 m ρ) c).arrAt_in 1 rfl _).trans (A_eq0 (V1 m ρ) c 1))
theorem V2_arg10 (c : Dev nD) : V2 m ρ c main_arg10 = V1 m ρ c main_arg10 :=
  (W2_arr m ρ c 2).trans (((dat0 (V1 m ρ) c).arrAt_in 2 rfl _).trans (A_eq0 (V1 m ρ) c 2))

/-! ## The two normalise-and-project results after both regions -/

/-- The first result: token row r (below 1027) normalised, times the first weight set. -/
theorem W3_v6 (c : Dev nD) (n : Fin 8) (r : Fin 1027) (e : Fin 3072) :
    (W3 m ρ c main_v6 : S8x1027x3072.Idx → EReal) (ix3 n r e)
      = ∑ k : Fin 1024,
          layerNorm (of3 (m ((c : Thread nD τ).loc main_arg0) : S8x1030x1024.Idx → EReal) n ⟨r.val, by omega⟩)
            (of1 (m ((c : Thread nD τ).loc main_arg9) : S1024.Idx → EReal))
            (of1 (m ((c : Thread nD τ).loc main_arg10) : S1024.Idx → EReal)) k
          * (V1 m ρ c main_v1 : S1024x3072.Idx → EReal) (ix2 k e) := by
  have e1 : W3 m ρ c main_v6 = normG (V1 m ρ c main_v4) (V1 m ρ c main_arg9) (V1 m ρ c main_arg10) (V1 m ρ c main_v1) :=
    (W3_of_ne m ρ c main_v6 (by decide)).trans ((W2_arr m ρ c 4).trans (final0 (V1 m ρ) c))
  rw [e1, normG_apply, V1_arg9, V1_arg10]
  have e0 : (fun d => (V1 m ρ c main_v4 : S8x1027x1024.Idx → EReal) (ix3 n r d))
      = of3 (m ((c : Thread nD τ).loc main_arg0) : S8x1030x1024.Idx → EReal) n ⟨r.val, by omega⟩ :=
    funext fun d => V1_v4 m ρ c n r d
  rw [e0]

/-- The second result: token row 1027 + r normalised, times the second weight set. -/
theorem W3_v7 (c : Dev nD) (n : Fin 8) (r : Fin 3) (e : Fin 3072) :
    (W3 m ρ c main_v7 : S8x3x3072.Idx → EReal) (ix3 n r e)
      = ∑ k : Fin 1024,
          layerNorm (of3 (m ((c : Thread nD τ).loc main_arg0) : S8x1030x1024.Idx → EReal) n ⟨1027 + r.val, by omega⟩)
            (of1 (m ((c : Thread nD τ).loc main_arg9) : S1024.Idx → EReal))
            (of1 (m ((c : Thread nD τ).loc main_arg10) : S1024.Idx → EReal)) k
          * (V1 m ρ c main_v3 : S1024x3072.Idx → EReal) (ix2 k e) := by
  have e1 : W3 m ρ c main_v7 = normG (V2 m ρ c main_v5) (V2 m ρ c main_arg9) (V2 m ρ c main_arg10) (V2 m ρ c main_v3) :=
    (W3_arr m ρ c 4).trans (final1 (V2 m ρ) c)
  rw [e1, normG_apply, V2_arg9, V2_arg10, V1_arg9, V1_arg10, V2_v5, V2_v3]
  have e0 : (fun d => (V1 m ρ c main_v5 : S8x3x1024.Idx → EReal) (ix3 n r d))
      = of3 (m ((c : Thread nD τ).loc main_arg0) : S8x1030x1024.Idx → EReal) n ⟨1027 + r.val, by omega⟩ :=
    funext fun d => V1_v5 m ρ c n r d
  rw [e0]

/-! ## A column of the stacked results is a projection -/

/-- Column `cidx` of token row `i` of the two results stacked along the token axis, when that column of the two
    weight sets is column `e` of the matrices `wa` and `wb`: the specification's projection by `wa` and `wb`. -/
theorem proj_at (c : Dev nD) (wa wb : Fin 1024 → Fin 1024 → EReal) (cidx : Fin 3072) (e : Fin 1024)
    (hwa : ∀ k : Fin 1024, (V1 m ρ c main_v1 : S1024x3072.Idx → EReal) (ix2 k cidx) = wa k e)
    (hwb : ∀ k : Fin 1024, (V1 m ρ c main_v3 : S1024x3072.Idx → EReal) (ix2 k cidx) = wb k e)
    (n : Fin 8) (i : Fin 1030) :
    (if hi : i.val < 1027 then (W3 m ρ c main_v6 : S8x1027x3072.Idx → EReal) (ix3 n ⟨i.val, hi⟩ cidx)
      else (W3 m ρ c main_v7 : S8x3x3072.Idx → EReal) (ix3 n ⟨i.val - 1027, by omega⟩ cidx))
      = proj (of3 (m ((c : Thread nD τ).loc main_arg0) : S8x1030x1024.Idx → EReal))
          (of1 (m ((c : Thread nD τ).loc main_arg9) : S1024.Idx → EReal))
          (of1 (m ((c : Thread nD τ).loc main_arg10) : S1024.Idx → EReal)) wa wb n i e := by
  unfold proj normed
  by_cases hi : i.val < 1027
  · rw [dif_pos hi, W3_v6]
    refine Finset.sum_congr (M := EReal) rfl fun k _ => ?_
    rw [if_pos hi, hwa]
  · rw [dif_neg hi, W3_v7]
    have hrow : (⟨1027 + (i.val - 1027), by omega⟩ : Fin 1030) = i := Fin.ext (by show 1027 + (i.val - 1027) = i.val; omega)
    refine Finset.sum_congr (M := EReal) rfl fun k _ => ?_
    rw [if_neg hi, hwb, hrow]

/-! ## The head-major arrays -/

/-- The query array. -/
theorem proj_q (c : Dev nD) (n : Fin 8) (h : Fin 16) (i : Fin 1030) (d : Fin 64) :
    (V4 m ρ c main_v11 : S8x16x1030x64.Idx → EReal) (ix4 n h i d)
      = proj (of3 (m ((c : Thread nD τ).loc main_arg0) : S8x1030x1024.Idx → EReal))
          (of1 (m ((c : Thread nD τ).loc main_arg9) : S1024.Idx → EReal))
          (of1 (m ((c : Thread nD τ).loc main_arg10) : S1024.Idx → EReal))
          (of2 (m ((c : Thread nD τ).loc main_arg1) : S1024x1024.Idx → EReal))
          (of2 (m ((c : Thread nD τ).loc main_arg2) : S1024x1024.Idx → EReal)) n i (col h d) := by
  have hh := h.isLt; have hd := d.isLt
  refine (host2_v11 (W3 m ρ c) n h i d).trans (proj_at m ρ c _ _ _ (col h d) (fun k => ?_) (fun k => ?_) n i)
  · rw [V1_v1, dif_pos (show h.val * 64 + d.val < 1024 by omega)]; rfl
  · rw [V1_v3, dif_pos (show h.val * 64 + d.val < 1024 by omega)]; rfl

/-- The key array. -/
theorem proj_k (c : Dev nD) (n : Fin 8) (h : Fin 16) (i : Fin 1030) (d : Fin 64) :
    (V4 m ρ c main_v14 : S8x16x1030x64.Idx → EReal) (ix4 n h i d)
      = proj (of3 (m ((c : Thread nD τ).loc main_arg0) : S8x1030x1024.Idx → EReal))
          (of1 (m ((c : Thread nD τ).loc main_arg9) : S1024.Idx → EReal))
          (of1 (m ((c : Thread nD τ).loc main_arg10) : S1024.Idx → EReal))
          (of2 (m ((c : Thread nD τ).loc main_arg3) : S1024x1024.Idx → EReal))
          (of2 (m ((c : Thread nD τ).loc main_arg4) : S1024x1024.Idx → EReal)) n i (col h d) := by
  have hh := h.isLt; have hd := d.isLt
  have hcol : (⟨1024 + h.val * 64 + d.val - 1024, by omega⟩ : Fin 1024) = col h d :=
    Fin.ext (by show 1024 + h.val * 64 + d.val - 1024 = h.val * 64 + d.val; omega)
  refine (host2_v14 (W3 m ρ c) n h i d).trans (proj_at m ρ c _ _ _ (col h d) (fun k => ?_) (fun k => ?_) n i)
  · rw [V1_v1, dif_neg (show ¬ 1024 + h.val * 64 + d.val < 1024 by omega),
      dif_pos (show 1024 + h.val * 64 + d.val < 2048 by omega), hcol]
  · rw [V1_v3, dif_neg (show ¬ 1024 + h.val * 64 + d.val < 1024 by omega),
      dif_pos (show 1024 + h.val * 64 + d.val < 2048 by omega), hcol]

/-- The value array. -/
theorem proj_v (c : Dev nD) (n : Fin 8) (h : Fin 16) (i : Fin 1030) (d : Fin 64) :
    (V4 m ρ c main_v17 : S8x16x1030x64.Idx → EReal) (ix4 n h i d)
      = proj (of3 (m ((c : Thread nD τ).loc main_arg0) : S8x1030x1024.Idx → EReal))
          (of1 (m ((c : Thread nD τ).loc main_arg9) : S1024.Idx → EReal))
          (of1 (m ((c : Thread nD τ).loc main_arg10) : S1024.Idx → EReal))
          (of2 (m ((c : Thread nD τ).loc main_arg5) : S1024x1024.Idx → EReal))
          (of2 (m ((c : Thread nD τ).loc main_arg6) : S1024x1024.Idx → EReal)) n i (col h d) := by
  have hh := h.isLt; have hd := d.isLt
  have hcol : (⟨2048 + h.val * 64 + d.val - 2048, by omega⟩ : Fin 1024) = col h d :=
    Fin.ext (by show 2048 + h.val * 64 + d.val - 2048 = h.val * 64 + d.val; omega)
  refine (host2_v17 (W3 m ρ c) n h i d).trans (proj_at m ρ c _ _ _ (col h d) (fun k => ?_) (fun k => ?_) n i)
  · rw [V1_v1, dif_neg (show ¬ 2048 + h.val * 64 + d.val < 1024 by omega),
      dif_neg (show ¬ 2048 + h.val * 64 + d.val < 2048 by omega), hcol]
  · rw [V1_v3, dif_neg (show ¬ 2048 + h.val * 64 + d.val < 1024 by omega),
      dif_neg (show ¬ 2048 + h.val * 64 + d.val < 2048 by omega), hcol]

end Cert.KernelIdeal.Gen.Hand

end
-- ==== Proof.BridgeSpec.lean ====
/-
  From the arrays the attention and output stages compute, as functions of the arrays they read, to the
  specification: when the query, key and value arrays hold the three projections laid out by head, the weights array
  is the specification's attention weights and the context array its context by column; when the output stage reads
  that context, the output matrix, the bias and the input, its result is the specification's output. Each step is an
  unfolding of the definitions at an index.
-/
import proofs.«122657_j28930899706120_2_alg».proof.Proof.ValAttn
import proofs.«122657_j28930899706120_2_alg».proof.Proof.Spec
import proofs.«122657_j28930899706120_2_alg».proof.Proof.Coords
import Idealize.ShloMosaic.Lib.ValueIdx

noncomputable section

namespace Cert.KernelIdeal.Gen.Hand

open Idealize.ShloMosaic Idealize.ShloMosaic.ValueIdx
open Cert.Attn

section

variable (x : Fin 8 → Fin 1030 → Fin 1024 → EReal) (g b bo : Fin 1024 → EReal)
  (wq0 wq1 wk0 wk1 wv0 wv1 wo : Fin 1024 → Fin 1024 → EReal) (q k v : S8x16x1030x64.Idx → EReal)

/-- A row of scores computed from query and key arrays that hold the two projections by head is the
    specification's row of scores. -/
theorem scoreRow_spec (hq : ∀ n h i d, q (ix4 n h i d) = Cert.Attn.proj x g b wq0 wq1 n i (Cert.Attn.col h d))
    (hk : ∀ n h i d, k (ix4 n h i d) = Cert.Attn.proj x g b wk0 wk1 n i (Cert.Attn.col h d))
    (n : Fin 8) (h : Fin 16) (i : Fin 1030) :
    scoreRow q k n h i = Cert.Attn.score x g b wq0 wq1 wk0 wk1 n h i := by
  funext j
  unfold scoreRow Cert.Attn.score
  simp only [hq, hk]

/-- The weights array at (n, h, i, j) is the specification's attention weight. -/
theorem attnG_spec (hq : ∀ n h i d, q (ix4 n h i d) = Cert.Attn.proj x g b wq0 wq1 n i (Cert.Attn.col h d))
    (hk : ∀ n h i d, k (ix4 n h i d) = Cert.Attn.proj x g b wk0 wk1 n i (Cert.Attn.col h d))
    (n : Fin 8) (h : Fin 16) (i j : Fin 1030) :
    attnG q k (ix4 n h i j) = Cert.Attn.attn x g b wq0 wq1 wk0 wk1 n h i j := by
  show Cert.Attn.softmax (scoreRow q k n h i) j = Cert.Attn.softmax (Cert.Attn.score x g b wq0 wq1 wk0 wk1 n h i) j
  rw [scoreRow_spec x g b wq0 wq1 wk0 wk1 q k hq hk]

/-- The context array at (n, l, e) is the specification's context in column e. -/
theorem ctxG_spec (hq : ∀ n h i d, q (ix4 n h i d) = Cert.Attn.proj x g b wq0 wq1 n i (Cert.Attn.col h d))
    (hk : ∀ n h i d, k (ix4 n h i d) = Cert.Attn.proj x g b wk0 wk1 n i (Cert.Attn.col h d))
    (hv : ∀ n h i d, v (ix4 n h i d) = Cert.Attn.proj x g b wv0 wv1 n i (Cert.Attn.col h d))
    (n : Fin 8) (l : Fin 1030) (e : Fin 1024) :
    ctxG q k v (ix3 n l e) = Cert.Attn.contextCol x g b wq0 wq1 wk0 wk1 wv0 wv1 n l e := by
  show ctxAt q k v n l e = _
  unfold ctxAt Cert.Attn.contextCol Cert.Attn.context Cert.Attn.attn
  rw [scoreRow_spec x g b wq0 wq1 wk0 wk1 q k hq hk]
  simp only [hv]

/-- The result array at (n, l, d) is the specification's output: the context row times the output matrix, plus the
    bias, plus the input. -/
theorem outG_spec (o xx : S8x1030x1024.Idx → EReal) (w : S1024x1024.Idx → EReal) (bb : S1024.Idx → EReal)
    (ho : ∀ n l e, o (ix3 n l e) = Cert.Attn.contextCol x g b wq0 wq1 wk0 wk1 wv0 wv1 n l e)
    (hw : ∀ e d, w (ix2 e d) = wo e d) (hb : ∀ d, bb (ix1 d) = bo d) (hx : ∀ n l d, xx (ix3 n l d) = x n l d)
    (n : Fin 8) (l : Fin 1030) (d : Fin 1024) :
    outG o w bb xx (ix3 n l d) = Cert.Attn.output x g b wq0 wq1 wk0 wk1 wv0 wv1 wo bo n l d := by
  show (∑ e : Fin 1024, o (ix3 n l e) * w (ix2 e d) + bb (ix1 d)) + xx (ix3 n l d) = _
  unfold Cert.Attn.output
  simp only [ho, hw, hb, hx]

end

end Cert.KernelIdeal.Gen.Hand

end
-- ==== Proof.KerValue.lean ====
/-
  The kernel program's two results as the specification's functions of the argument arrays. The weights array
  is what the attention region leaves (no later operation or region writes it): the softmax of the scores of the
  head-major queries and keys, which are the specification's projections. The output array is what the output
  projection's region leaves: context · matrix + bias + input, where the context is what the attention region
  left, the matrix is the output matrix (rounded: the identity on the extended reals), and the bias and the
  input are the arguments, which nothing before that region writes.
-/
import proofs.«122657_j28930899706120_2_alg».proof.Proof.Run
import proofs.«122657_j28930899706120_2_alg».proof.Proof.ValOut
import proofs.«122657_j28930899706120_2_alg».proof.Proof.ValAttn
import proofs.«122657_j28930899706120_2_alg».proof.Proof.ChainProj
import proofs.«122657_j28930899706120_2_alg».proof.Proof.BridgeSpec
import proofs.«122657_j28930899706120_2_alg».proof.Proof.HostGlue

set_option maxRecDepth 16384

noncomputable section

namespace Cert.KernelIdeal.Gen.Hand

open Idealize.ShloMosaic Idealize.ShloMosaic.TcCoe Idealize.ShloMosaic.ValueIdx Idealize.SL.Sem
open Idealize.ShloMosaic.Pipeline (Dat)
open Cert.Attn Cert.Attn.Glue

variable (m : (ℓ : Loc nD τ sig) → Buf (Elt Ideal) ℓ) (ρ : Dev nD → PrngReg)

/-- A buffer no host stretch writes and no region stages holds its launch contents when the attention region is left. -/
theorem W5_of_untouched (c : Dev nD) (b : Ref sig .tc) (h0 : b ∉ hostOps0_W) (h1 : ∀ w, Pipeline.arrRef spec0 w ≠ b)
    (h2 : ∀ w, Pipeline.arrRef spec1 w ≠ b) (h3 : b ∉ hostOps2_W) (h4 : ∀ w, Pipeline.arrRef spec2 w ≠ b) :
    W5 m ρ c (Proc.devRef .tc b) = m ((c : Thread nD τ).loc b) :=
  calc W5 m ρ c (Proc.devRef .tc b)
    _ = W4 m ρ c (Proc.devRef .tc b) := W5_of_ne m ρ c b h4
    _ = W3 m ρ c (Proc.devRef .tc b) := StableHlo.after_of_writes_sub hostOps2 _ hostOps2_writes h3
    _ = W2 m ρ c (Proc.devRef .tc b) := W3_of_ne m ρ c b h2
    _ = W1 m ρ c (Proc.devRef .tc b) := W2_of_ne m ρ c b h1
    _ = W0 m ρ c (Proc.devRef .tc b) := StableHlo.after_of_writes_sub hostOps0 _ hostOps0_writes h0
    _ = m ((c : Thread nD τ).loc b) := rfl

/-- … and still when the output projection's region is entered, if the last host stretch does not write it. -/
theorem W6_of_untouched (c : Dev nD) (b : Ref sig .tc) (h0 : b ∉ hostOps0_W) (h1 : ∀ w, Pipeline.arrRef spec0 w ≠ b)
    (h2 : ∀ w, Pipeline.arrRef spec1 w ≠ b) (h3 : b ∉ hostOps2_W) (h4 : ∀ w, Pipeline.arrRef spec2 w ≠ b) (h5 : b ∉ hostOps3_W) :
    W6 m ρ c (Proc.devRef .tc b) = m ((c : Thread nD τ).loc b) :=
  (StableHlo.after_of_writes_sub hostOps3 _ hostOps3_writes h5).trans (W5_of_untouched m ρ c b h0 h1 h2 h3 h4)

/-- The weights array at the end is what the attention region left. -/
theorem W7_weights (c : Dev nD) : W7 m ρ c (Proc.devRef .tc main_v18_1) = attnG (V4 m ρ c main_v11) (V4 m ρ c main_v14) :=
  calc W7 m ρ c (Proc.devRef .tc main_v18_1)
    _ = W6 m ρ c (Proc.devRef .tc main_v18_1) := W7_of_ne m ρ c main_v18_1 (by decide)
    _ = W5 m ρ c (Proc.devRef .tc main_v18_1) := StableHlo.after_of_writes_sub hostOps3 _ hostOps3_writes (by decide)
    _ = (dat2 (V4 m ρ) c).arrAt 4 cfg2.N := W5_arr m ρ c 4
    _ = attnG (V4 m ρ c main_v11) (V4 m ρ c main_v14) := final2_attn (V4 m ρ) c

/-- The context array when the output projection's region is entered is what the attention region left. -/
theorem W6_context (c : Dev nD) : W6 m ρ c (Proc.devRef .tc main_v18_0) = ctxG (V4 m ρ c main_v11) (V4 m ρ c main_v14) (V4 m ρ c main_v17) :=
  calc W6 m ρ c (Proc.devRef .tc main_v18_0)
    _ = W5 m ρ c (Proc.devRef .tc main_v18_0) := StableHlo.after_of_writes_sub hostOps3 _ hostOps3_writes (by decide)
    _ = (dat2 (V4 m ρ) c).arrAt 3 cfg2.N := W5_arr m ρ c 3
    _ = ctxG (V4 m ρ c main_v11) (V4 m ρ c main_v14) (V4 m ρ c main_v17) := final2_ctx (V4 m ρ) c

/-- The output array at the end is what the output projection's region left. -/
theorem W7_output (c : Dev nD) : W7 m ρ c (Proc.devRef .tc main_v20)
    = outG (V6 m ρ c main_v18_0) (V6 m ρ c main_v19) (V6 m ρ c main_arg8) (V6 m ρ c main_arg0) :=
  (W7_arr m ρ c 4).trans (final3 (V6 m ρ) c)

section Spec

variable (c : Dev nD)

/-- THE WEIGHTS RESULT is the specification's attention weights of the arguments. -/
theorem kernel_attn (n : Fin 8) (h : Fin 16) (i j : Fin 1030) :
    (W7 m ρ c (Proc.devRef .tc main_v18_1) : S8x16x1030x1030.Idx → EReal) (ix4 n h i j)
      = Cert.Attn.attn (of3 (m ((c : Thread nD τ).loc main_arg0) : S8x1030x1024.Idx → EReal))
          (of1 (m ((c : Thread nD τ).loc main_arg9) : S1024.Idx → EReal)) (of1 (m ((c : Thread nD τ).loc main_arg10) : S1024.Idx → EReal))
          (of2 (m ((c : Thread nD τ).loc main_arg1) : S1024x1024.Idx → EReal)) (of2 (m ((c : Thread nD τ).loc main_arg2) : S1024x1024.Idx → EReal))
          (of2 (m ((c : Thread nD τ).loc main_arg3) : S1024x1024.Idx → EReal)) (of2 (m ((c : Thread nD τ).loc main_arg4) : S1024x1024.Idx → EReal)) n h i j := by
  rw [W7_weights]
  exact attnG_spec _ _ _ _ _ _ _ _ _ (proj_q m ρ c) (proj_k m ρ c) n h i j

/-- THE OUTPUT RESULT is the specification's output of the arguments. -/
theorem kernel_out (n : Fin 8) (l : Fin 1030) (d : Fin 1024) :
    (W7 m ρ c (Proc.devRef .tc main_v20) : S8x1030x1024.Idx → EReal) (ix3 n l d)
      = Cert.Attn.output (of3 (m ((c : Thread nD τ).loc main_arg0) : S8x1030x1024.Idx → EReal))
          (of1 (m ((c : Thread nD τ).loc main_arg9) : S1024.Idx → EReal)) (of1 (m ((c : Thread nD τ).loc main_arg10) : S1024.Idx → EReal))
          (of2 (m ((c : Thread nD τ).loc main_arg1) : S1024x1024.Idx → EReal)) (of2 (m ((c : Thread nD τ).loc main_arg2) : S1024x1024.Idx → EReal))
          (of2 (m ((c : Thread nD τ).loc main_arg3) : S1024x1024.Idx → EReal)) (of2 (m ((c : Thread nD τ).loc main_arg4) : S1024x1024.Idx → EReal))
          (of2 (m ((c : Thread nD τ).loc main_arg5) : S1024x1024.Idx → EReal)) (of2 (m ((c : Thread nD τ).loc main_arg6) : S1024x1024.Idx → EReal))
          (of2 (m ((c : Thread nD τ).loc main_arg7) : S1024x1024.Idx → EReal)) (of1 (m ((c : Thread nD τ).loc main_arg8) : S1024.Idx → EReal)) n l d := by
  rw [W7_output]
  refine outG_spec _ _ _ _ _ _ _ _ _ _ _ _ _ _ _ ?ho ?hw ?hb ?hx n l d
  case ho =>
    intro n l e
    show (W6 m ρ c (Proc.devRef .tc main_v18_0) : S8x1030x1024.Idx → EReal) (ix3 n l e) = _
    rw [W6_context]
    exact ctxG_spec _ _ _ _ _ _ _ _ _ _ _ _ (proj_q m ρ c) (proj_k m ρ c) (proj_v m ρ c) n l e
  case hw =>
    intro e d
    show (StableHlo.after hostOps3 (W5 m ρ c) main_v19 : S1024x1024.Idx → EReal) (ix2 e d) = _
    rw [host3_v19, show W5 m ρ c (Proc.devRef .tc main_arg7) = m ((c : Thread nD τ).loc main_arg7) from
      W5_of_untouched m ρ c main_arg7 (by decide) (by decide) (by decide) (by decide) (by decide)]
    rfl
  case hb =>
    intro d
    show (W6 m ρ c (Proc.devRef .tc main_arg8) : S1024.Idx → EReal) (ix1 d) = _
    rw [W6_of_untouched m ρ c main_arg8 (by decide) (by decide) (by decide) (by decide) (by decide) (by decide)]
    rfl
  case hx =>
    intro n l d
    show (W6 m ρ c (Proc.devRef .tc main_arg0) : S8x1030x1024.Idx → EReal) (ix3 n l d) = _
    rw [W6_of_untouched m ρ c main_arg0 (by decide) (by decide) (by decide) (by decide) (by decide) (by decide)]
    rfl

end Spec

end Cert.KernelIdeal.Gen.Hand

end
-- ==== Proof.RefBase.lean ====
/-
  Shared vocabulary for reading the reference index by index: two indices with equal coordinates are equal.
-/
import proofs.«122657_j28930899706120_2_alg».proof.Proof.Gen.ReferenceIdeal.Read
import proofs.«122657_j28930899706120_2_alg».proof.Proof.Spec
import proofs.«122657_j28930899706120_2_alg».proof.Proof.Coords
import Idealize.ShloMosaic.Lib.ValueIdx
import Idealize.ShloMosaic.Lib.Pipeline.Value
import Idealize.ShloMosaic.PureOps.Ideal.Laws

noncomputable section

namespace Cert.Attn.Ref

open Idealize.ShloMosaic Idealize.ShloMosaic.ValueIdx

/-- Two rank-1 indices with the same coordinate are equal. -/
theorem ext1 {n0 : Nat} {i j : (⟨1, ![n0]⟩ : Shape).Idx} (h0 : (i 0).val = (j 0).val) : i = j := by
  funext a; apply Fin.ext
  match a with
  | ⟨0, _⟩ => exact h0

/-- Two rank-2 indices with the same coordinates are equal. -/
theorem ext2 {n0 n1 : Nat} {i j : (⟨2, ![n0, n1]⟩ : Shape).Idx}
    (h0 : (i 0).val = (j 0).val) (h1 : (i 1).val = (j 1).val) : i = j := by
  funext a; apply Fin.ext
  match a with
  | ⟨0, _⟩ => exact h0
  | ⟨1, _⟩ => exact h1

/-- Two rank-3 indices with the same coordinates are equal. -/
theorem ext3 {n0 n1 n2 : Nat} {i j : (⟨3, ![n0, n1, n2]⟩ : Shape).Idx}
    (h0 : (i 0).val = (j 0).val) (h1 : (i 1).val = (j 1).val) (h2 : (i 2).val = (j 2).val) : i = j := by
  funext a; apply Fin.ext
  match a with
  | ⟨0, _⟩ => exact h0
  | ⟨1, _⟩ => exact h1
  | ⟨2, _⟩ => exact h2

/-- Two rank-4 indices with the same coordinates are equal. -/
theorem ext4 {n0 n1 n2 n3 : Nat} {i j : (⟨4, ![n0, n1, n2, n3]⟩ : Shape).Idx}
    (h0 : (i 0).val = (j 0).val) (h1 : (i 1).val = (j 1).val) (h2 : (i 2).val = (j 2).val)
    (h3 : (i 3).val = (j 3).val) : i = j := by
  funext a; apply Fin.ext
  match a with
  | ⟨0, _⟩ => exact h0
  | ⟨1, _⟩ => exact h1
  | ⟨2, _⟩ => exact h2
  | ⟨3, _⟩ => exact h3

end Cert.Attn.Ref

end
-- ==== Proof.RefNorm.lean ====
/-
  The reference's normalisation, read at an index: the row's mean, the centred row, its variance, and the
  normalised row scaled by the gain with the bias added.
-/
import proofs.«122657_j28930899706120_2_alg».proof.Proof.RefBase

noncomputable section

namespace Cert.Attn.Ref

open Idealize.ShloMosaic Idealize.ShloMosaic.ValueIdx Cert.ReferenceIdeal Cert.ReferenceIdeal.Read

/-- The row mean: the sum of the row (from a zero start) over the word of 1024. -/
theorem v3_eq (x0 : (⟨S8x1030x1024, .f32⟩ : BufTy).Contents (Elt Ideal)) (n : Fin 8) (l : Fin 1030) (z : Fin 1) :
    val_main_v3 (F := Ideal) x0 (ix3 n l z) = mean (of3 x0 n l) := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  unfold mean w1024 of3
  exact congrArg (Ideal.div · _) (Finset.sum_congr rfl fun k _ => congrArg x0 (ext3 rfl rfl rfl))

/-- The centred row (first copy). -/
theorem v5_eq (x0 : (⟨S8x1030x1024, .f32⟩ : BufTy).Contents (Elt Ideal)) (n : Fin 8) (l : Fin 1030) (d : Fin 1024) :
    val_main_v5 (F := Ideal) x0 (ix3 n l d) = centred (of3 x0 n l) d := by
  rw [val_main_v5_apply, val_main_v4_apply,
    show idx_main_v4 (ix3 n l d) = ix3 n l (⟨0, Nat.one_pos⟩ : Fin 1) from ext3 rfl rfl rfl, v3_eq]
  rfl

/-- The centred row (second copy, the one that is scaled). -/
theorem v12_eq (x0 : (⟨S8x1030x1024, .f32⟩ : BufTy).Contents (Elt Ideal)) (n : Fin 8) (l : Fin 1030) (d : Fin 1024) :
    val_main_v12 (F := Ideal) x0 (ix3 n l d) = centred (of3 x0 n l) d := by
  rw [val_main_v12_apply, val_main_v11_apply,
    show idx_main_v11 (ix3 n l d) = ix3 n l (⟨0, Nat.one_pos⟩ : Fin 1) from ext3 rfl rfl rfl, v3_eq]
  rfl

/-- The variance: the sum of the centred row's squares over the word of 1024. -/
theorem v10_eq (x0 : (⟨S8x1030x1024, .f32⟩ : BufTy).Contents (Elt Ideal)) (n : Fin 8) (l : Fin 1030) (z : Fin 1) :
    val_main_v10 (F := Ideal) x0 (ix3 n l z) = variance (of3 x0 n l) := by
  rw [val_main_v10_apply, val_main_v8_apply, val_main_v7_apply, val_main_v9_apply, val_main_cst_2_apply,
    val_main_cst_1_apply]
  simp only [Ideal.hostDivf_def, Ideal.ofBits_def, Ideal.ofBits_zero_f32, zero_add]
  unfold variance w1024
  refine congrArg (Ideal.div · _) (Finset.sum_congr rfl fun k _ => ?_)
  rw [val_main_v6_apply,
    show idx_main_v7 (idx_main_v8 (ix3 n l z)) k = ix3 n l k from ext3 rfl rfl rfl, v5_eq]
  rfl

/-- The normalised row: ((x - mean) * rsqrt (variance + eps)) * gain + bias. -/
theorem v23_eq (x0 : (⟨S8x1030x1024, .f32⟩ : BufTy).Contents (Elt Ideal)) (x9 x10 : (⟨S1024, .f32⟩ : BufTy).Contents (Elt Ideal)) (n : Fin 8) (l : Fin 1030) (d : Fin 1024) :
    val_main_v23 (F := Ideal) x0 x9 x10 (ix3 n l d) = normed (of3 x0) (of1 x9) (of1 x10) n l d := by
  rw [val_main_v23_apply, val_main_v20_apply, val_main_v17_apply, v12_eq, val_main_v16_apply,
    val_main_v15_apply, val_main_v14_apply,
    show idx_main_v16 (ix3 n l d) = ix3 n l (⟨0, Nat.one_pos⟩ : Fin 1) from ext3 rfl rfl rfl,
    v10_eq, val_main_v13_apply, val_main_cst_3_apply,
    val_main_v19_apply, val_main_v18_apply, val_main_v22_apply, val_main_v21_apply,
    show idx_main_v18 (idx_main_v19 (ix3 n l d)) = ix1 d from ext1 rfl,
    show idx_main_v21 (idx_main_v22 (ix3 n l d)) = ix1 d from ext1 rfl]
  rfl

end Cert.Attn.Ref

end
-- ==== Proof.RefProj.lean ====
/-
  The reference's three projections, read at an index: each is the normalised row times one of two matrices,
  the first for token positions below 1027 and the second for the last three; then the same values laid out by head.
-/
import proofs.«122657_j28930899706120_2_alg».proof.Proof.RefNorm

noncomputable section

namespace Cert.Attn.Ref

open Idealize.ShloMosaic Idealize.ShloMosaic.ValueIdx Cert.ReferenceIdeal Cert.ReferenceIdeal.Read

/-- The query projection at a token position below 1027: the first piece of the concatenation, the first matrix. -/
theorem v28_lo (x0 : (⟨S8x1030x1024, .f32⟩ : BufTy).Contents (Elt Ideal)) (x1 x2 : (⟨S1024x1024, .f32⟩ : BufTy).Contents (Elt Ideal)) (x9 x10 : (⟨S1024, .f32⟩ : BufTy).Contents (Elt Ideal)) (n : Fin 8) (l : Fin 1030) (e : Fin 1024)
    (hl : l.val < 1027) :
    val_main_v28 (F := Ideal) x0 x1 x2 x9 x10 (ix3 n l e)
      = ∑ k : Fin 1024, normed (of3 x0) (of1 x9) (of1 x10) n l k * of2 x1 k e := by
  unfold val_main_v28
  refine (concatenate_pair_apply_left (s₁ := S8x1027x1024) (s₂ := S8x3x1024) 1 _ _ _ (ix3 n l e) rfl (ix3 n (⟨l.val, hl⟩ : Fin 1027) e) (fun b => by
    match b with
    | ⟨0, _⟩ => rfl
    | ⟨1, _⟩ => rfl
    | ⟨2, _⟩ => rfl)).trans ?_
  rw [val_main_v25_apply]
  refine Finset.sum_congr rfl fun k _ => ?_
  rw [val_main_v24_apply,
    show idx_main_v24 (lidx_main_v25 (ix3 n (⟨l.val, hl⟩ : Fin 1027) e) k) = ix3 n l k from ext3 rfl rfl rfl,
    show ridx_main_v25 (ix3 n (⟨l.val, hl⟩ : Fin 1027) e) k = ix2 k e from ext2 rfl rfl, v23_eq]
  rfl

/-- The query projection at one of the last three token positions: the second piece, the second matrix. -/
theorem v28_hi (x0 : (⟨S8x1030x1024, .f32⟩ : BufTy).Contents (Elt Ideal)) (x1 x2 : (⟨S1024x1024, .f32⟩ : BufTy).Contents (Elt Ideal)) (x9 x10 : (⟨S1024, .f32⟩ : BufTy).Contents (Elt Ideal)) (n : Fin 8) (l : Fin 1030) (e : Fin 1024)
    (hl : ¬ l.val < 1027) :
    val_main_v28 (F := Ideal) x0 x1 x2 x9 x10 (ix3 n l e)
      = ∑ k : Fin 1024, normed (of3 x0) (of1 x9) (of1 x10) n l k * of2 x2 k e := by
  have hl3 : l.val - 1027 < 3 := by have := l.isLt; omega
  unfold val_main_v28
  refine (concatenate_pair_apply_right (s₁ := S8x1027x1024) (s₂ := S8x3x1024) 1 _ _ _ (ix3 n l e) rfl rfl (ix3 n (⟨l.val - 1027, hl3⟩ : Fin 3) e)
    (fun b hb => by
      match b with
      | ⟨0, _⟩ => rfl
      | ⟨1, _⟩ => exact absurd rfl hb
      | ⟨2, _⟩ => rfl)
    (by show l.val - 1027 + 1027 = l.val; omega)).trans ?_
  rw [val_main_v27_apply]
  refine Finset.sum_congr rfl fun k _ => ?_
  rw [val_main_v26_apply,
    show idx_main_v26 (lidx_main_v27 (ix3 n (⟨l.val - 1027, hl3⟩ : Fin 3) e) k) = ix3 n l k from
      ext3 rfl (by show 1027 + (l.val - 1027) = l.val; omega) rfl,
    show ridx_main_v27 (ix3 n (⟨l.val - 1027, hl3⟩ : Fin 3) e) k = ix2 k e from ext2 rfl rfl, v23_eq]
  rfl

/-- The query projection: the normalised row times the matrix its token position selects. -/
theorem v28_eq (x0 : (⟨S8x1030x1024, .f32⟩ : BufTy).Contents (Elt Ideal)) (x1 x2 : (⟨S1024x1024, .f32⟩ : BufTy).Contents (Elt Ideal)) (x9 x10 : (⟨S1024, .f32⟩ : BufTy).Contents (Elt Ideal)) (n : Fin 8) (l : Fin 1030) (e : Fin 1024) :
    val_main_v28 (F := Ideal) x0 x1 x2 x9 x10 (ix3 n l e)
      = proj (of3 x0) (of1 x9) (of1 x10) (of2 x1) (of2 x2) n l e := by
  unfold proj
  by_cases hl : l.val < 1027
  · rw [v28_lo _ _ _ _ _ n l e hl]
    exact Finset.sum_congr rfl fun k _ => by rw [if_pos hl]
  · rw [v28_hi _ _ _ _ _ n l e hl]
    exact Finset.sum_congr rfl fun k _ => by rw [if_neg hl]

/-- The query projection split into heads: position (n, h, i, d) of the [8,16,1030,64] array is column h * 64 + d
    of the projection of token i. -/
theorem v30_eq (x0 : (⟨S8x1030x1024, .f32⟩ : BufTy).Contents (Elt Ideal)) (x1 x2 : (⟨S1024x1024, .f32⟩ : BufTy).Contents (Elt Ideal)) (x9 x10 : (⟨S1024, .f32⟩ : BufTy).Contents (Elt Ideal)) (n : Fin 8) (h : Fin 16) (i : Fin 1030) (d : Fin 64) :
    val_main_v30 (F := Ideal) x0 x1 x2 x9 x10 (ix4 n h i d)
      = proj (of3 x0) (of1 x9) (of1 x10) (of2 x1) (of2 x2) n i (col h d) := by
  have hn := n.isLt; have hh := h.isLt; have hi := i.isLt; have hd := d.isLt
  rw [val_main_v30_apply, val_main_v29_apply,
    show idx_main_v29 (idx_main_v30 (ix4 n h i d)) = ix3 n i (col h d) from
      ext3 (by show (((n.val * 1030 + i.val) * 16 + h.val) * 64 + d.val) / 1054720 = n.val; omega)
        (by show (((n.val * 1030 + i.val) * 16 + h.val) * 64 + d.val) / 1024 % 1030 = i.val; omega)
        (by show (((n.val * 1030 + i.val) * 16 + h.val) * 64 + d.val) % 1024 = h.val * 64 + d.val; omega),
    v28_eq]

/-- The key projection at a token position below 1027: the first piece of the concatenation, the first matrix. -/
theorem v35_lo (x0 : (⟨S8x1030x1024, .f32⟩ : BufTy).Contents (Elt Ideal)) (x3 x4 : (⟨S1024x1024, .f32⟩ : BufTy).Contents (Elt Ideal)) (x9 x10 : (⟨S1024, .f32⟩ : BufTy).Contents (Elt Ideal)) (n : Fin 8) (l : Fin 1030) (e : Fin 1024)
    (hl : l.val < 1027) :
    val_main_v35 (F := Ideal) x0 x3 x4 x9 x10 (ix3 n l e)
      = ∑ k : Fin 1024, normed (of3 x0) (of1 x9) (of1 x10) n l k * of2 x3 k e := by
  unfold val_main_v35
  refine (concatenate_pair_apply_left (s₁ := S8x1027x1024) (s₂ := S8x3x1024) 1 _ _ _ (ix3 n l e) rfl (ix3 n (⟨l.val, hl⟩ : Fin 1027) e) (fun b => by
    match b with
    | ⟨0, _⟩ => rfl
    | ⟨1, _⟩ => rfl
    | ⟨2, _⟩ => rfl)).trans ?_
  rw [val_main_v32_apply]
  refine Finset.sum_congr rfl fun k _ => ?_
  rw [val_main_v31_apply,
    show idx_main_v31 (lidx_main_v32 (ix3 n (⟨l.val, hl⟩ : Fin 1027) e) k) = ix3 n l k from ext3 rfl rfl rfl,
    show ridx_main_v32 (ix3 n (⟨l.val, hl⟩ : Fin 1027) e) k = ix2 k e from ext2 rfl rfl, v23_eq]
  rfl

/-- The key projection at one of the last three token positions: the second piece, the second matrix. -/
theorem v35_hi (x0 : (⟨S8x1030x1024, .f32⟩ : BufTy).Contents (Elt Ideal)) (x3 x4 : (⟨S1024x1024, .f32⟩ : BufTy).Contents (Elt Ideal)) (x9 x10 : (⟨S1024, .f32⟩ : BufTy).Contents (Elt Ideal)) (n : Fin 8) (l : Fin 1030) (e : Fin 1024)
    (hl : ¬ l.val < 1027) :
    val_main_v35 (F := Ideal) x0 x3 x4 x9 x10 (ix3 n l e)
      = ∑ k : Fin 1024, normed (of3 x0) (of1 x9) (of1 x10) n l k * of2 x4 k e := by
  have hl3 : l.val - 1027 < 3 := by have := l.isLt; omega
  unfold val_main_v35
  refine (concatenate_pair_apply_right (s₁ := S8x1027x1024) (s₂ := S8x3x1024) 1 _ _ _ (ix3 n l e) rfl rfl (ix3 n (⟨l.val - 1027, hl3⟩ : Fin 3) e)
    (fun b hb => by
      match b with
      | ⟨0, _⟩ => rfl
      | ⟨1, _⟩ => exact absurd rfl hb
      | ⟨2, _⟩ => rfl)
    (by show l.val - 1027 + 1027 = l.val; omega)).trans ?_
  rw [val_main_v34_apply]
  refine Finset.sum_congr rfl fun k _ => ?_
  rw [val_main_v33_apply,
    show idx_main_v33 (lidx_main_v34 (ix3 n (⟨l.val - 1027, hl3⟩ : Fin 3) e) k) = ix3 n l k from
      ext3 rfl (by show 1027 + (l.val - 1027) = l.val; omega) rfl,
    show ridx_main_v34 (ix3 n (⟨l.val - 1027, hl3⟩ : Fin 3) e) k = ix2 k e from ext2 rfl rfl, v23_eq]
  rfl

/-- The key projection: the normalised row times the matrix its token position selects. -/
theorem v35_eq (x0 : (⟨S8x1030x1024, .f32⟩ : BufTy).Contents (Elt Ideal)) (x3 x4 : (⟨S1024x1024, .f32⟩ : BufTy).Contents (Elt Ideal)) (x9 x10 : (⟨S1024, .f32⟩ : BufTy).Contents (Elt Ideal)) (n : Fin 8) (l : Fin 1030) (e : Fin 1024) :
    val_main_v35 (F := Ideal) x0 x3 x4 x9 x10 (ix3 n l e)
      = proj (of3 x0) (of1 x9) (of1 x10) (of2 x3) (of2 x4) n l e := by
  unfold proj
  by_cases hl : l.val < 1027
  · rw [v35_lo _ _ _ _ _ n l e hl]
    exact Finset.sum_congr rfl fun k _ => by rw [if_pos hl]
  · rw [v35_hi _ _ _ _ _ n l e hl]
    exact Finset.sum_congr rfl fun k _ => by rw [if_neg hl]

/-- The key projection split into heads: position (n, h, i, d) of the [8,16,1030,64] array is column h * 64 + d
    of the projection of token i. -/
theorem v37_eq (x0 : (⟨S8x1030x1024, .f32⟩ : BufTy).Contents (Elt Ideal)) (x3 x4 : (⟨S1024x1024, .f32⟩ : BufTy).Contents (Elt Ideal)) (x9 x10 : (⟨S1024, .f32⟩ : BufTy).Contents (Elt Ideal)) (n : Fin 8) (h : Fin 16) (i : Fin 1030) (d : Fin 64) :
    val_main_v37 (F := Ideal) x0 x3 x4 x9 x10 (ix4 n h i d)
      = proj (of3 x0) (of1 x9) (of1 x10) (of2 x3) (of2 x4) n i (col h d) := by
  have hn := n.isLt; have hh := h.isLt; have hi := i.isLt; have hd := d.isLt
  rw [val_main_v37_apply, val_main_v36_apply,
    show idx_main_v36 (idx_main_v37 (ix4 n h i d)) = ix3 n i (col h d) from
      ext3 (by show (((n.val * 1030 + i.val) * 16 + h.val) * 64 + d.val) / 1054720 = n.val; omega)
        (by show (((n.val * 1030 + i.val) * 16 + h.val) * 64 + d.val) / 1024 % 1030 = i.val; omega)
        (by show (((n.val * 1030 + i.val) * 16 + h.val) * 64 + d.val) % 1024 = h.val * 64 + d.val; omega),
    v35_eq]

/-- The value projection at a token position below 1027: the first piece of the concatenation, the first matrix. -/
theorem v42_lo (x0 : (⟨S8x1030x1024, .f32⟩ : BufTy).Contents (Elt Ideal)) (x5 x6 : (⟨S1024x1024, .f32⟩ : BufTy).Contents (Elt Ideal)) (x9 x10 : (⟨S1024, .f32⟩ : BufTy).Contents (Elt Ideal)) (n : Fin 8) (l : Fin 1030) (e : Fin 1024)
    (hl : l.val < 1027) :
    val_main_v42 (F := Ideal) x0 x5 x6 x9 x10 (ix3 n l e)
      = ∑ k : Fin 1024, normed (of3 x0) (of1 x9) (of1 x10) n l k * of2 x5 k e := by
  unfold val_main_v42
  refine (concatenate_pair_apply_left (s₁ := S8x1027x1024) (s₂ := S8x3x1024) 1 _ _ _ (ix3 n l e) rfl (ix3 n (⟨l.val, hl⟩ : Fin 1027) e) (fun b => by
    match b with
    | ⟨0, _⟩ => rfl
    | ⟨1, _⟩ => rfl
    | ⟨2, _⟩ => rfl)).trans ?_
  rw [val_main_v39_apply]
  refine Finset.sum_congr rfl fun k _ => ?_
  rw [val_main_v38_apply,
    show idx_main_v38 (lidx_main_v39 (ix3 n (⟨l.val, hl⟩ : Fin 1027) e) k) = ix3 n l k from ext3 rfl rfl rfl,
    show ridx_main_v39 (ix3 n (⟨l.val, hl⟩ : Fin 1027) e) k = ix2 k e from ext2 rfl rfl, v23_eq]
  rfl

/-- The value projection at one of the last three token positions: the second piece, the second matrix. -/
theorem v42_hi (x0 : (⟨S8x1030x1024, .f32⟩ : BufTy).Contents (Elt Ideal)) (x5 x6 : (⟨S1024x1024, .f32⟩ : BufTy).Contents (Elt Ideal)) (x9 x10 : (⟨S1024, .f32⟩ : BufTy).Contents (Elt Ideal)) (n : Fin 8) (l : Fin 1030) (e : Fin 1024)
    (hl : ¬ l.val < 1027) :
    val_main_v42 (F := Ideal) x0 x5 x6 x9 x10 (ix3 n l e)
      = ∑ k : Fin 1024, normed (of3 x0) (of1 x9) (of1 x10) n l k * of2 x6 k e := by
  have hl3 : l.val - 1027 < 3 := by have := l.isLt; omega
  unfold val_main_v42
  refine (concatenate_pair_apply_right (s₁ := S8x1027x1024) (s₂ := S8x3x1024) 1 _ _ _ (ix3 n l e) rfl rfl (ix3 n (⟨l.val - 1027, hl3⟩ : Fin 3) e)
    (fun b hb => by
      match b with
      | ⟨0, _⟩ => rfl
      | ⟨1, _⟩ => exact absurd rfl hb
      | ⟨2, _⟩ => rfl)
    (by show l.val - 1027 + 1027 = l.val; omega)).trans ?_
  rw [val_main_v41_apply]
  refine Finset.sum_congr rfl fun k _ => ?_
  rw [val_main_v40_apply,
    show idx_main_v40 (lidx_main_v41 (ix3 n (⟨l.val - 1027, hl3⟩ : Fin 3) e) k) = ix3 n l k from
      ext3 rfl (by show 1027 + (l.val - 1027) = l.val; omega) rfl,
    show ridx_main_v41 (ix3 n (⟨l.val - 1027, hl3⟩ : Fin 3) e) k = ix2 k e from ext2 rfl rfl, v23_eq]
  rfl

/-- The value projection: the normalised row times the matrix its token position selects. -/
theorem v42_eq (x0 : (⟨S8x1030x1024, .f32⟩ : BufTy).Contents (Elt Ideal)) (x5 x6 : (⟨S1024x1024, .f32⟩ : BufTy).Contents (Elt Ideal)) (x9 x10 : (⟨S1024, .f32⟩ : BufTy).Contents (Elt Ideal)) (n : Fin 8) (l : Fin 1030) (e : Fin 1024) :
    val_main_v42 (F := Ideal) x0 x5 x6 x9 x10 (ix3 n l e)
      = proj (of3 x0) (of1 x9) (of1 x10) (of2 x5) (of2 x6) n l e := by
  unfold proj
  by_cases hl : l.val < 1027
  · rw [v42_lo _ _ _ _ _ n l e hl]
    exact Finset.sum_congr rfl fun k _ => by rw [if_pos hl]
  · rw [v42_hi _ _ _ _ _ n l e hl]
    exact Finset.sum_congr rfl fun k _ => by rw [if_neg hl]

/-- The value projection split into heads: position (n, h, i, d) of the [8,16,1030,64] array is column h * 64 + d
    of the projection of token i. -/
theorem v44_eq (x0 : (⟨S8x1030x1024, .f32⟩ : BufTy).Contents (Elt Ideal)) (x5 x6 : (⟨S1024x1024, .f32⟩ : BufTy).Contents (Elt Ideal)) (x9 x10 : (⟨S1024, .f32⟩ : BufTy).Contents (Elt Ideal)) (n : Fin 8) (h : Fin 16) (i : Fin 1030) (d : Fin 64) :
    val_main_v44 (F := Ideal) x0 x5 x6 x9 x10 (ix4 n h i d)
      = proj (of3 x0) (of1 x9) (of1 x10) (of2 x5) (of2 x6) n i (col h d) := by
  have hn := n.isLt; have hh := h.isLt; have hi := i.isLt; have hd := d.isLt
  rw [val_main_v44_apply, val_main_v43_apply,
    show idx_main_v43 (idx_main_v44 (ix4 n h i d)) = ix3 n i (col h d) from
      ext3 (by show (((n.val * 1030 + i.val) * 16 + h.val) * 64 + d.val) / 1054720 = n.val; omega)
        (by show (((n.val * 1030 + i.val) * 16 + h.val) * 64 + d.val) / 1024 % 1030 = i.val; omega)
        (by show (((n.val * 1030 + i.val) * 16 + h.val) * 64 + d.val) % 1024 = h.val * 64 + d.val; omega),
    v42_eq]

end Cert.Attn.Ref

end
-- ==== Proof.RefScore.lean ====
/-
  The reference's attention weights, read at an index: the score of a query position against a key position,
  the row's maximum (the maximum with minus infinity of a fold that starts from minus infinity is the fold), the
  shifted exponentials and their normalisation.
-/
import proofs.«122657_j28930899706120_2_alg».proof.Proof.RefProj

noncomputable section

namespace Cert.Attn.Ref

open Idealize.ShloMosaic Idealize.ShloMosaic.ValueIdx Cert.ReferenceIdeal Cert.ReferenceIdeal.Gen Cert.ReferenceIdeal.Read

/-- The score: the 64-lane inner product of the query and key pieces over the word of 8. -/
theorem v47_eq (x0 : (⟨S8x1030x1024, .f32⟩ : BufTy).Contents (Elt Ideal)) (x1 x2 x3 x4 : (⟨S1024x1024, .f32⟩ : BufTy).Contents (Elt Ideal)) (x9 x10 : (⟨S1024, .f32⟩ : BufTy).Contents (Elt Ideal)) (n : Fin 8) (h : Fin 16) (i j : Fin 1030) :
    val_main_v47 (F := Ideal) x0 x1 x2 x3 x4 x9 x10 (ix4 n h i j) = score (of3 x0) (of1 x9) (of1 x10) (of2 x1) (of2 x2) (of2 x3) (of2 x4) n h i j := by
  rw [val_main_v47_apply, val_main_v45_apply, val_main_v46_apply, val_main_cst_4_apply]
  simp only [Ideal.hostDivf_def, Ideal.ofBits_def]
  unfold score wEight
  refine congrArg (Ideal.div · _) (Finset.sum_congr rfl fun k _ => ?_)
  rw [show lidx_main_v45 (ix4 n h i j) k = ix4 n h i k from ext4 rfl rfl rfl rfl,
    show ridx_main_v45 (ix4 n h i j) k = ix4 n h j k from ext4 rfl rfl rfl rfl, v30_eq, v37_eq]

/-- A maximum-reduction over the last axis from the word of minus infinity, read at (n, h, i): the fold of max over
    the row, for any array. -/
theorem rowmax_read (y : (⟨S8x16x1030x1030, .f32⟩ : BufTy).Contents (Elt Ideal)) (n : Fin 8) (h : Fin 16) (i : Fin 1030) :
    Host.reduce (FloatOps.maximumf (F := Ideal) (φ := .f32)) y (val_main_cst_5 (F := Ideal))
        reducesTo_S8x16x1030x1030_S8x16x1030_d3 h_S_ (ix3 n h i)
      = (Finset.univ : Finset (Fin 1030)).fold max wNegInf (fun j => y (ix4 n h i j)) := by
  refine (Host.reduce_eq_fold_single (FloatOps.maximumf (F := Ideal) (φ := .f32)) y _ reducesTo_S8x16x1030x1030_S8x16x1030_d3 (by decide) h_S_
    (ix3 n h i)).trans ?_
  show (Finset.univ : Finset (Fin 1030)).fold max wNegInf _ = _
  exact Finset.fold_congr fun k _ => congrArg y (ext4 rfl rfl rfl rfl)

/-- The row maximum. -/
theorem v50_eq (x0 : (⟨S8x1030x1024, .f32⟩ : BufTy).Contents (Elt Ideal)) (x1 x2 x3 x4 : (⟨S1024x1024, .f32⟩ : BufTy).Contents (Elt Ideal)) (x9 x10 : (⟨S1024, .f32⟩ : BufTy).Contents (Elt Ideal)) (n : Fin 8) (h : Fin 16) (i : Fin 1030) :
    val_main_v50 (F := Ideal) x0 x1 x2 x3 x4 x9 x10 (ix3 n h i) = rowMax (score (of3 x0) (of1 x9) (of1 x10) (of2 x1) (of2 x2) (of2 x3) (of2 x4) n h i) := by
  rw [val_main_v50_apply, val_main_v49_apply, val_main_cst_6_apply]
  unfold val_main_v48
  rw [rowmax_read]
  have e : (fun j => val_main_v47 (F := Ideal) x0 x1 x2 x3 x4 x9 x10 (ix4 n h i j)) = score (of3 x0) (of1 x9) (of1 x10) (of2 x1) (of2 x2) (of2 x3) (of2 x4) n h i :=
    funext fun j => v47_eq x0 x1 x2 x3 x4 x9 x10 n h i j
  rw [e]
  show max wNegInf ((Finset.univ : Finset (Fin 1030)).fold max wNegInf (score (of3 x0) (of1 x9) (of1 x10) (of2 x1) (of2 x2) (of2 x3) (of2 x4) n h i)) = _
  unfold rowMax
  exact max_eq_right ((Finset.le_fold_max wNegInf).mpr (Or.inl le_rfl))

/-- The shifted exponential. -/
theorem v54_eq (x0 : (⟨S8x1030x1024, .f32⟩ : BufTy).Contents (Elt Ideal)) (x1 x2 x3 x4 : (⟨S1024x1024, .f32⟩ : BufTy).Contents (Elt Ideal)) (x9 x10 : (⟨S1024, .f32⟩ : BufTy).Contents (Elt Ideal)) (n : Fin 8) (h : Fin 16) (i j : Fin 1030) :
    val_main_v54 (F := Ideal) x0 x1 x2 x3 x4 x9 x10 (ix4 n h i j) = expShift (score (of3 x0) (of1 x9) (of1 x10) (of2 x1) (of2 x2) (of2 x3) (of2 x4) n h i) j := by
  rw [val_main_v54_apply, val_main_v53_apply, v47_eq, val_main_v52_apply, val_main_v51_apply,
    show idx_main_v51 (idx_main_v52 (ix4 n h i j)) = ix3 n h i from ext3 rfl rfl rfl, v50_eq]
  rfl

/-- The attention weights. -/
theorem v58_eq (x0 : (⟨S8x1030x1024, .f32⟩ : BufTy).Contents (Elt Ideal)) (x1 x2 x3 x4 : (⟨S1024x1024, .f32⟩ : BufTy).Contents (Elt Ideal)) (x9 x10 : (⟨S1024, .f32⟩ : BufTy).Contents (Elt Ideal)) (n : Fin 8) (h : Fin 16) (i j : Fin 1030) :
    val_main_v58 (F := Ideal) x0 x1 x2 x3 x4 x9 x10 (ix4 n h i j) = attn (of3 x0) (of1 x9) (of1 x10) (of2 x1) (of2 x2) (of2 x3) (of2 x4) n h i j := by
  rw [val_main_v58_apply, v54_eq, val_main_v57_apply, val_main_v56_apply,
    show idx_main_v56 (idx_main_v57 (ix4 n h i j)) = ix3 n h i from ext3 rfl rfl rfl,
    val_main_v55_apply, val_main_cst_7_apply]
  simp only [Ideal.hostDivf_def, Ideal.ofBits_def, Ideal.ofBits_zero_f32, zero_add]
  unfold attn softmax
  refine congrArg (Ideal.div _ ·) (Finset.sum_congr rfl fun k _ => ?_)
  rw [show idx_main_v55 (ix3 n h i) k = ix4 n h i k from ext4 rfl rfl rfl rfl, v54_eq]

end Cert.Attn.Ref

end
-- ==== Proof.RefOut.lean ====
/-
  The reference's first result, read at an index: the context (the weights' combination of the value pieces), laid
  out again by column, times the output matrix, plus its bias, plus the input.
-/
import proofs.«122657_j28930899706120_2_alg».proof.Proof.RefScore

noncomputable section

namespace Cert.Attn.Ref

open Idealize.ShloMosaic Idealize.ShloMosaic.ValueIdx Cert.ReferenceIdeal Cert.ReferenceIdeal.Gen Cert.ReferenceIdeal.Read

/-- The context at (n, h, i, d). -/
theorem v59_eq (x0 : (⟨S8x1030x1024, .f32⟩ : BufTy).Contents (Elt Ideal)) (x1 x2 x3 x4 x5 x6 : (⟨S1024x1024, .f32⟩ : BufTy).Contents (Elt Ideal)) (x9 x10 : (⟨S1024, .f32⟩ : BufTy).Contents (Elt Ideal)) (n : Fin 8) (h : Fin 16) (i : Fin 1030) (d : Fin 64) :
    val_main_v59 (F := Ideal) x0 x1 x2 x3 x4 x5 x6 x9 x10 (ix4 n h i d) = context (of3 x0) (of1 x9) (of1 x10) (of2 x1) (of2 x2) (of2 x3) (of2 x4) (of2 x5) (of2 x6) n h i d := by
  rw [val_main_v59_apply]
  unfold context
  refine Finset.sum_congr rfl fun k _ => ?_
  rw [show lidx_main_v59 (ix4 n h i d) k = ix4 n h i k from ext4 rfl rfl rfl rfl,
    show ridx_main_v59 (ix4 n h i d) k = ix4 n h k d from ext4 rfl rfl rfl rfl, v58_eq, v44_eq]

/-- The context laid out by column: column e of token l is head e / 64, lane e % 64. -/
theorem v61_eq (x0 : (⟨S8x1030x1024, .f32⟩ : BufTy).Contents (Elt Ideal)) (x1 x2 x3 x4 x5 x6 : (⟨S1024x1024, .f32⟩ : BufTy).Contents (Elt Ideal)) (x9 x10 : (⟨S1024, .f32⟩ : BufTy).Contents (Elt Ideal)) (n : Fin 8) (l : Fin 1030) (e : Fin 1024) :
    val_main_v61 (F := Ideal) x0 x1 x2 x3 x4 x5 x6 x9 x10 (ix3 n l e) = contextCol (of3 x0) (of1 x9) (of1 x10) (of2 x1) (of2 x2) (of2 x3) (of2 x4) (of2 x5) (of2 x6) n l e := by
  have hn := n.isLt; have hl := l.isLt; have he := e.isLt
  rw [val_main_v61_apply, val_main_v60_apply,
    show idx_main_v60 (idx_main_v61 (ix3 n l e))
        = ix4 n (⟨e.val / 64, by omega⟩ : Fin 16) l (⟨e.val % 64, by omega⟩ : Fin 64) from
      ext4 (by show ((n.val * 1030 + l.val) * 1024 + e.val) / 1054720 = n.val; omega)
        (by show ((n.val * 1030 + l.val) * 1024 + e.val) / 64 % 16 = e.val / 64; omega)
        (by show ((n.val * 1030 + l.val) * 1024 + e.val) / 1024 % 1030 = l.val; omega)
        (by show ((n.val * 1030 + l.val) * 1024 + e.val) % 64 = e.val % 64; omega),
    v59_eq]
  rfl

/-- The first result: (context times the output matrix + bias) + input. -/
theorem v66_eq (x0 : (⟨S8x1030x1024, .f32⟩ : BufTy).Contents (Elt Ideal)) (x1 x2 x3 x4 x5 x6 x7 : (⟨S1024x1024, .f32⟩ : BufTy).Contents (Elt Ideal)) (x8 x9 x10 : (⟨S1024, .f32⟩ : BufTy).Contents (Elt Ideal)) (n : Fin 8) (l : Fin 1030) (d : Fin 1024) :
    val_main_v66 (F := Ideal) x0 x1 x2 x3 x4 x5 x6 x7 x8 x9 x10 (ix3 n l d)
      = output (of3 x0) (of1 x9) (of1 x10) (of2 x1) (of2 x2) (of2 x3) (of2 x4) (of2 x5) (of2 x6) (of2 x7) (of1 x8) n l d := by
  rw [val_main_v66_apply, val_main_v65_apply, val_main_v62_apply, val_main_v64_apply, val_main_v63_apply,
    show idx_main_v63 (idx_main_v64 (ix3 n l d)) = ix1 d from ext1 rfl]
  simp only [Ideal.addf_def]
  unfold output
  refine congrArg (· + _) (congrArg (· + _) (Finset.sum_congr rfl fun k _ => ?_))
  rw [show lidx_main_v62 (ix3 n l d) k = ix3 n l k from ext3 rfl rfl rfl,
    show ridx_main_v62 (ix3 n l d) k = ix2 k d from ext2 rfl rfl, v61_eq]
  rfl

end Cert.Attn.Ref

end
-- ==== Proof.RefValue.lean ====
/-
  The reference's two results, read index by index, are the functions of `Cert.Attn` of its arguments.
-/
import proofs.«122657_j28930899706120_2_alg».proof.Proof.RefOut

noncomputable section

namespace Cert.Attn.Ref

open Idealize.ShloMosaic Idealize.ShloMosaic.ValueIdx Cert.ReferenceIdeal

/-- The first result at (n, l, d): context times the output matrix, plus its bias, plus the input. -/
theorem output_eq (x0 : (⟨S8x1030x1024, .f32⟩ : BufTy).Contents (Elt Ideal))
    (x1 x2 x3 x4 x5 x6 x7 : (⟨S1024x1024, .f32⟩ : BufTy).Contents (Elt Ideal))
    (x8 x9 x10 : (⟨S1024, .f32⟩ : BufTy).Contents (Elt Ideal)) (n : Fin 8) (l : Fin 1030) (d : Fin 1024) :
    Cert.ReferenceIdeal.Read.val_main_v66 (F := Ideal) x0 x1 x2 x3 x4 x5 x6 x7 x8 x9 x10 (ix3 n l d)
      = Cert.Attn.output (of3 x0) (of1 x9) (of1 x10) (of2 x1) (of2 x2) (of2 x3) (of2 x4) (of2 x5) (of2 x6) (of2 x7)
          (of1 x8) n l d :=
  v66_eq x0 x1 x2 x3 x4 x5 x6 x7 x8 x9 x10 n l d

/-- The second result at (n, h, i, j): the attention weights. -/
theorem attn_eq (x0 : (⟨S8x1030x1024, .f32⟩ : BufTy).Contents (Elt Ideal))
    (x1 x2 x3 x4 : (⟨S1024x1024, .f32⟩ : BufTy).Contents (Elt Ideal))
    (x9 x10 : (⟨S1024, .f32⟩ : BufTy).Contents (Elt Ideal)) (n : Fin 8) (h : Fin 16) (i j : Fin 1030) :
    Cert.ReferenceIdeal.Read.val_main_v58 (F := Ideal) x0 x1 x2 x3 x4 x9 x10 (ix4 n h i j)
      = Cert.Attn.attn (of3 x0) (of1 x9) (of1 x10) (of2 x1) (of2 x2) (of2 x3) (of2 x4) n h i j :=
  v58_eq x0 x1 x2 x3 x4 x9 x10 n h i j

end Cert.Attn.Ref

end
-- ==== Proof.lean ====
/-
  The certificate: a self-attention layer with a fused normalisation and projection, an attention kernel that
  handles two heads per grid step, and an output projection with bias and residual, against the plain
  formulation of the same layer.

  Frames. Each kernel program is four pallas_call regions between stretches of host operations; every region's
  body runs, at every grid point, from whole staging buffers to its return writing only its result blocks, so
  the program terminates without a fault and no argument array is written (Proof/Run.lean, Proof/Frames.lean and
  their word-level twins). The reference is host operations only; its run is its frame.

  The idealization rewrites nothing, so there is no side condition to restate.

  Values. Read on the extended reals both programs compute the functions of Proof/Spec.lean: the kernel's
  side index by index through its regions' blocks, the reference's through its operations one at a time.
  The only law that joins the two sides beyond regrouping sums is that scaling by the float 0.125 is
  dividing by the float 8.
-/
import proofs.«122657_j28930899706120_2_alg».proof.Defs
import proofs.«122657_j28930899706120_2_alg».proof.Proof.Frames
import proofs.«122657_j28930899706120_2_alg».proof.Proof.WFrames
import proofs.«122657_j28930899706120_2_alg».proof.Proof.Gen.ReferenceIdeal
import proofs.«122657_j28930899706120_2_alg».proof.Proof.Gen.ReferenceIdeal.Run
import proofs.«122657_j28930899706120_2_alg».proof.Proof.KerValue
import proofs.«122657_j28930899706120_2_alg».proof.Proof.RefValue
import proofs.«122657_j28930899706120_2_alg».proof.Proof.Gen.Pre_finite_inputs
import Idealize.ShloMosaic.Adequacy
import Idealize.ShloMosaic.Init

noncomputable section

namespace Cert.Proof

open Idealize.ShloMosaic Idealize.SL.Sem Cert.Attn

theorem frame_p : Cert.frame_Kernel := fun m ρ _ => Cert.Kernel.Gen.Hand.frame m ρ

theorem frame_pi : Cert.frame_KernelIdeal := fun m ρ _ => Cert.KernelIdeal.Gen.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The first result, as the specification's function of the kernel program's argument arrays. -/
def outputOf (m : (ℓ : Loc Cert.KernelIdeal.nD Cert.KernelIdeal.τ Cert.KernelIdeal.sig) → Buf (Elt Ideal) ℓ) (c : Dev Cert.KernelIdeal.nD) : Cert.KernelIdeal.S8x1030x1024.Idx → EReal :=
  fun i => Cert.Attn.output (of3 (m ((c.tc : Thread Cert.KernelIdeal.nD Cert.KernelIdeal.τ).loc Cert.KernelIdeal.main_arg0) : Cert.KernelIdeal.S8x1030x1024.Idx → EReal))
    (of1 (m ((c.tc : Thread Cert.KernelIdeal.nD Cert.KernelIdeal.τ).loc Cert.KernelIdeal.main_arg9) : Cert.KernelIdeal.S1024.Idx → EReal)) (of1 (m ((c.tc : Thread Cert.KernelIdeal.nD Cert.KernelIdeal.τ).loc Cert.KernelIdeal.main_arg10) : Cert.KernelIdeal.S1024.Idx → EReal))
    (of2 (m ((c.tc : Thread Cert.KernelIdeal.nD Cert.KernelIdeal.τ).loc Cert.KernelIdeal.main_arg1) : Cert.KernelIdeal.S1024x1024.Idx → EReal)) (of2 (m ((c.tc : Thread Cert.KernelIdeal.nD Cert.KernelIdeal.τ).loc Cert.KernelIdeal.main_arg2) : Cert.KernelIdeal.S1024x1024.Idx → EReal)) (of2 (m ((c.tc : Thread Cert.KernelIdeal.nD Cert.KernelIdeal.τ).loc Cert.KernelIdeal.main_arg3) : Cert.KernelIdeal.S1024x1024.Idx → EReal)) (of2 (m ((c.tc : Thread Cert.KernelIdeal.nD Cert.KernelIdeal.τ).loc Cert.KernelIdeal.main_arg4) : Cert.KernelIdeal.S1024x1024.Idx → EReal))
    (of2 (m ((c.tc : Thread Cert.KernelIdeal.nD Cert.KernelIdeal.τ).loc Cert.KernelIdeal.main_arg5) : Cert.KernelIdeal.S1024x1024.Idx → EReal)) (of2 (m ((c.tc : Thread Cert.KernelIdeal.nD Cert.KernelIdeal.τ).loc Cert.KernelIdeal.main_arg6) : Cert.KernelIdeal.S1024x1024.Idx → EReal)) (of2 (m ((c.tc : Thread Cert.KernelIdeal.nD Cert.KernelIdeal.τ).loc Cert.KernelIdeal.main_arg7) : Cert.KernelIdeal.S1024x1024.Idx → EReal))
    (of1 (m ((c.tc : Thread Cert.KernelIdeal.nD Cert.KernelIdeal.τ).loc Cert.KernelIdeal.main_arg8) : Cert.KernelIdeal.S1024.Idx → EReal)) (i 0) (i 1) (i 2)

/-- The second result, likewise. -/
def weightsOf (m : (ℓ : Loc Cert.KernelIdeal.nD Cert.KernelIdeal.τ Cert.KernelIdeal.sig) → Buf (Elt Ideal) ℓ) (c : Dev Cert.KernelIdeal.nD) : Cert.KernelIdeal.S8x16x1030x1030.Idx → EReal :=
  fun i => Cert.Attn.attn (of3 (m ((c.tc : Thread Cert.KernelIdeal.nD Cert.KernelIdeal.τ).loc Cert.KernelIdeal.main_arg0) : Cert.KernelIdeal.S8x1030x1024.Idx → EReal))
    (of1 (m ((c.tc : Thread Cert.KernelIdeal.nD Cert.KernelIdeal.τ).loc Cert.KernelIdeal.main_arg9) : Cert.KernelIdeal.S1024.Idx → EReal)) (of1 (m ((c.tc : Thread Cert.KernelIdeal.nD Cert.KernelIdeal.τ).loc Cert.KernelIdeal.main_arg10) : Cert.KernelIdeal.S1024.Idx → EReal))
    (of2 (m ((c.tc : Thread Cert.KernelIdeal.nD Cert.KernelIdeal.τ).loc Cert.KernelIdeal.main_arg1) : Cert.KernelIdeal.S1024x1024.Idx → EReal)) (of2 (m ((c.tc : Thread Cert.KernelIdeal.nD Cert.KernelIdeal.τ).loc Cert.KernelIdeal.main_arg2) : Cert.KernelIdeal.S1024x1024.Idx → EReal)) (of2 (m ((c.tc : Thread Cert.KernelIdeal.nD Cert.KernelIdeal.τ).loc Cert.KernelIdeal.main_arg3) : Cert.KernelIdeal.S1024x1024.Idx → EReal)) (of2 (m ((c.tc : Thread Cert.KernelIdeal.nD Cert.KernelIdeal.τ).loc Cert.KernelIdeal.main_arg4) : Cert.KernelIdeal.S1024x1024.Idx → EReal)) (i 0) (i 1) (i 2) (i 3)

/-- On the extended reals the kernel program's result arrays end at the specification's output and attention weights of
    the arguments (read through its four regions) and the reference's at the same functions (read through its
    operations), from memories that agree on the arguments. -/
theorem algebraic : Cert.algebraic_KernelIdeal_ReferenceIdeal := by
  intro m ρ m' ρ' _ hagree
  refine ⟨fun c => outputOf m c, fun c => weightsOf m c, ?_, ?_⟩
  · refine (θ_run Cert.KernelIdeal.defs _ _).mono (fun r h c => ⟨?_, ?_, (h c _ (Cert.KernelIdeal.Gen.Hand.mem_uc Cert.KernelIdeal.main_arg0 (by decide))).trans (Cert.KernelIdeal.Gen.Hand.W7_main_arg0 m ρ c),
      (h c _ (Cert.KernelIdeal.Gen.Hand.mem_uc Cert.KernelIdeal.main_arg1 (by decide))).trans (Cert.KernelIdeal.Gen.Hand.W7_main_arg1 m ρ c),
      (h c _ (Cert.KernelIdeal.Gen.Hand.mem_uc Cert.KernelIdeal.main_arg2 (by decide))).trans (Cert.KernelIdeal.Gen.Hand.W7_main_arg2 m ρ c),
      (h c _ (Cert.KernelIdeal.Gen.Hand.mem_uc Cert.KernelIdeal.main_arg3 (by decide))).trans (Cert.KernelIdeal.Gen.Hand.W7_main_arg3 m ρ c),
      (h c _ (Cert.KernelIdeal.Gen.Hand.mem_uc Cert.KernelIdeal.main_arg4 (by decide))).trans (Cert.KernelIdeal.Gen.Hand.W7_main_arg4 m ρ c),
      (h c _ (Cert.KernelIdeal.Gen.Hand.mem_uc Cert.KernelIdeal.main_arg5 (by decide))).trans (Cert.KernelIdeal.Gen.Hand.W7_main_arg5 m ρ c),
      (h c _ (Cert.KernelIdeal.Gen.Hand.mem_uc Cert.KernelIdeal.main_arg6 (by decide))).trans (Cert.KernelIdeal.Gen.Hand.W7_main_arg6 m ρ c),
      (h c _ (Cert.KernelIdeal.Gen.Hand.mem_uc Cert.KernelIdeal.main_arg7 (by decide))).trans (Cert.KernelIdeal.Gen.Hand.W7_main_arg7 m ρ c),
      (h c _ (Cert.KernelIdeal.Gen.Hand.mem_uc Cert.KernelIdeal.main_arg8 (by decide))).trans (Cert.KernelIdeal.Gen.Hand.W7_main_arg8 m ρ c),
      (h c _ (Cert.KernelIdeal.Gen.Hand.mem_uc Cert.KernelIdeal.main_arg9 (by decide))).trans (Cert.KernelIdeal.Gen.Hand.W7_main_arg9 m ρ c),
      (h c _ (Cert.KernelIdeal.Gen.Hand.mem_uc Cert.KernelIdeal.main_arg10 (by decide))).trans (Cert.KernelIdeal.Gen.Hand.W7_main_arg10 m ρ c)⟩)
      (Cert.KernelIdeal.Gen.Hand.run_main m ρ)
    · refine (h c _ (Cert.KernelIdeal.Gen.Hand.mem_uc Cert.KernelIdeal.main_v20 (by decide))).trans (funext fun i => ?_)
      exact (congrArg (Cert.KernelIdeal.Gen.Hand.W7 m ρ c (Proc.devRef .tc Cert.KernelIdeal.main_v20) : Cert.KernelIdeal.S8x1030x1024.Idx → EReal) (ValueIdx.eq_ix3 i)).trans
        (Cert.KernelIdeal.Gen.Hand.kernel_out m ρ c (i 0) (i 1) (i 2))
    · refine (h c _ (Cert.KernelIdeal.Gen.Hand.mem_uc Cert.KernelIdeal.main_v18_1 (by decide))).trans (funext fun i => ?_)
      exact (congrArg (Cert.KernelIdeal.Gen.Hand.W7 m ρ c (Proc.devRef .tc Cert.KernelIdeal.main_v18_1) : Cert.KernelIdeal.S8x16x1030x1030.Idx → EReal) (ValueIdx.eq_ix4 i)).trans
        (Cert.KernelIdeal.Gen.Hand.kernel_attn m ρ c (i 0) (i 1) (i 2) (i 3))
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v66_eq]
      obtain ⟨a0, a1, a2, a3, a4, a5, a6, a7, a8, a9, a10⟩ := hagree c
      rw [a0, a1, a2, a3, a4, a5, a6, a7, a8, a9, a10]
      funext i
      exact (congrArg (Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (ValueIdx.eq_ix3 i)).trans
        (Cert.Attn.Ref.output_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (i 0) (i 1) (i 2))
    · rw [Cert.ReferenceIdeal.Read.val_main_v58_eq]
      obtain ⟨a0, a1, a2, a3, a4, a5, a6, a7, a8, a9, a10⟩ := hagree c
      rw [a0, a1, a2, a3, a4, a9, a10]
      funext i
      exact (congrArg (Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (ValueIdx.eq_ix4 i)).trans
        (Cert.Attn.Ref.attn_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (i 0) (i 1) (i 2) (i 3))

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
